-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S2x1600000 : Shape := ⟨2, ![2, 1600000]⟩
abbrev S384x128 : Shape := ⟨2, ![384, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_

variable [Facts]

def fn_part3 {F : FTy → Type} [FloatOps F] (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x50 .f32) (main_arg11 : FVec F S50 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x50 .f32 := Host.absf main_arg10
  let main_cst_16 : FVec F S_ .f32 := constant S_ .f32 0x7F800000#32
  let main_v45 : FVec F S128x50 .f32 := broadcastInDim S128x50 ![] bcast_S_S128x50 main_cst_16
  let main_v46 : IVec S128x50 1 := cmpf .olt main_v44 main_v45
  let main_c_17 : IVec S_ 1 := constantI S_ 1 1#1
  let main_v47 : IVec S_ 1 := (fun x v => Host.reduce IntOp.andi x v reducesTo_S128x50_S_d0_1 h_S_) main_v46 main_c_17
  let main_v48 : IVec S_ 1 := andi main_v43 main_v47
  let main_v49 : FVec F S50 .f32 := Host.absf main_arg11
  let main_cst_18 : FVec F S_ .f32 := constant S_ .f32 0x7F800000#32
  let main_v50 : FVec F S50 .f32 := broadcastInDim S50 ![] bcast_S_S50 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x50 .f32) (main_arg11 : FVec F S50 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x384 .f32) (main_arg1 : IVec S2x1600000 32) (main_arg2 : FVec F S384x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x50 .f32) (main_arg11 : FVec F S50 .f32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S384x128 .f32 := Host.absf main_arg2
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x384 : Shape := ⟨2, ![100000, 384]⟩
abbrev S2x1600000 : Shape := ⟨2, ![2, 1600000]⟩
abbrev S384x128 : Shape := ⟨2, ![384, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x384 : Shape := ⟨2, ![5000, 384]⟩
abbrev S5000x128 : Shape := ⟨2, ![5000, 128]⟩
abbrev S1600000x128 : Shape := ⟨2, ![1600000, 128]⟩
abbrev S5000x1 : Shape := ⟨2, ![5000, 1]⟩
abbrev S1x128 : Shape := ⟨2, ![1, 128]⟩
abbrev S100000x50 : Shape := ⟨2, ![100000, 50]⟩
abbrev S5000x50 : Shape := ⟨2, ![5000, 50]⟩
abbrev S1600000x50 : Shape := ⟨2, ![1600000, 50]⟩
abbrev S1x50 : Shape := ⟨2, ![1, 50]⟩

abbrev nBuf : Space → Nat
  | .hbm => 133
  | .vmem => 70
  | .smem => 0
  | _ => 0

abbrev hbmTy0_0 (i : Nat) : BufTy := match i % 128 with
  | 0 => ⟨S100000x384, .f32⟩
  | 1 => ⟨S2x1600000, .i32⟩
  | 2 => ⟨S384x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x50, .f32⟩
  | 11 => ⟨S50, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S100000, .f32⟩
  | 47 => ⟨S100000x1, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S1600000x128, .f32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x50, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x50, .f32⟩
  | 126 => ⟨S1600000x50, .f32⟩
  | 127 => ⟨S1600000x50, .f32⟩
  | _ => ⟨S100000x384, .f32⟩

abbrev hbmTy0_1 (i : Nat) : BufTy := match i % 128 with
  | 0 => ⟨S_, .f32⟩
  | 1 => ⟨S100000x50, .f32⟩
  | 2 => ⟨S1600000x1, .i32⟩
  | 3 => ⟨S100000x50, .f32⟩
  | 4 => ⟨S100000x50, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x50, .f32⟩
  | .local _ .vmem, ⟨59, _⟩ => ⟨S5000x50, .f32⟩
  | .local _ .vmem, ⟨60, _⟩ => ⟨S5000x50, .f32⟩
  | .local _ .vmem, ⟨61, _⟩ => ⟨S5000x50, .f32⟩
  | .local _ .vmem, ⟨62, _⟩ => ⟨S5000x50, .f32⟩
  | .local _ .vmem, ⟨63, _⟩ => ⟨S5000x50, .f32⟩
  | .local _ .vmem, ⟨64, _⟩ => ⟨S5000x50, .f32⟩
  | .local _ .vmem, ⟨65, _⟩ => ⟨S5000x1, .f32⟩
  | .local _ .vmem, ⟨66, _⟩ => ⟨S5000x1, .f32⟩
  | .local _ .vmem, ⟨67, _⟩ => ⟨S50, .f32⟩
  | .local _ .vmem, ⟨68, _⟩ => ⟨S5000x50, .f32⟩
  | .local _ .vmem, ⟨69, _⟩ => ⟨S5000x50, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_c_18 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc9_sem3_0 : DmaSem sig := 67
abbrev cc9_sem4_0 : DmaSem sig := 68
abbrev cc9_sem4_1 : DmaSem sig := 69

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x50 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x50 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x50 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x50 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S50 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x50 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x50_S128x50_0_0 : ∀ a, (![0, 0] : Fin 2 → Nat) a + S128x50.size a ≤ S128x50.size a
  h_S128x50 : 0 < S128x50.numel
  inb_S5000x50_S5000x50_0_0 : ∀ a, (![0, 0] : Fin 2 → Nat) a + S5000x50.size a ≤ S5000x50.size a
  h_S5000x50 : 0 < S5000x50.numel
  bcast_S1600000x1_S1600000x50_0_1 : S1600000x1.BroadcastsInDim S1600000x50 (![0, 1] : Fin 2 → Fin S1600000x50.rank)
  bcast_S_S100000x50 : S_.BroadcastsInDim S100000x50 (![] : Fin 0 → Fin S100000x50.rank)
  inb_S50_S50_0 : ∀ a, (![0] : Fin 1 → Nat) a + S50.size a ≤ S50.size a
  h_S50 : 0 < S50.numel
  shapeCasts_S50_S1x50 : S50.ShapeCasts S1x50
  shapeCasts_S5000x50_S5000x50 : S5000x50.ShapeCasts S5000x50
  broadcasts_S5000x1_S5000x50 : S5000x1.Broadcasts S5000x50
  broadcasts_S1x50_S5000x50 : S1x50.Broadcasts S5000x50
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x384_S384x128_S5000x128_1_0_0_1_n_n_wf : DotDims.WF S5000x384 S384x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x50_S5000x50_1_0_0_1_n_n_wf : DotDims.WF S5000x128 S128x50 S5000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S100000x384.size a
  hwx0_0 : ∀ i : grid0.Coords, EltTy.bits .f32 = 32 ∨ (Rect.block (s := S100000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x50.size a ≤ S128x50.size a
  hwx8_1 : ∀ i : grid8.Coords, EltTy.bits .f32 = 32 ∨ (Rect.block (s := S128x50) S128x50.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x50.size a ≤ S100000x50.size a
  hwx8_2 : ∀ i : grid8.Coords, EltTy.bits .f32 = 32 ∨ (Rect.block (s := S100000x50) S5000x50.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x50.size a ≤ S100000x50.size a
  hwx9_0 : ∀ i : grid9.Coords, EltTy.bits .f32 = 32 ∨ (Rect.block (s := S100000x50) S5000x50.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x50.size a ≤ S100000x50.size a
  hwx9_1 : ∀ i : grid9.Coords, EltTy.bits .f32 = 32 ∨ (Rect.block (s := S100000x50) S5000x50.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S50.size a ≤ S50.size a
  hwx9_3 : ∀ i : grid9.Coords, EltTy.bits .f32 = 32 ∨ (Rect.block (s := S50) S50.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x50.size a ≤ S100000x50.size a
  hwx9_4 : ∀ i : grid9.Coords, EltTy.bits .f32 = 32 ∨ (Rect.block (s := S100000x50) S5000x50.size (cc9_transform_4 i) (hinb9_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x50_S5000x50_1_0_0_1_n_n : DotDims S5000x128 S128x50 S5000x50 where
  lhsContracting := [1]
  rhsContracting := [0]
  lhsNonContracting := [0]
  rhsNonContracting := [1]
  lhsBatch := []
  rhsBatch := []
  wf := dot_S5000x128_S128x50_S5000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v83) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v28) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg9) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v84) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S128x50.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v85) S5000x50.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v97) S5000x50.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v85) S5000x50.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v28) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg11) S50.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v98) S5000x50.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x384 : Shape := ⟨2, ![100000, 384]⟩
abbrev S2x1600000 : Shape := ⟨2, ![2, 1600000]⟩
abbrev S384x128 : Shape := ⟨2, ![384, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x50 : Shape := ⟨2, ![100000, 50]⟩
abbrev S1600000x50 : Shape := ⟨2, ![1600000, 50]⟩
abbrev S1x50 : Shape := ⟨2, ![1, 50]⟩

abbrev nBuf : Space → Nat
  | .hbm => 258
  | .vmem => 0
  | .smem => 0
  | _ => 0

abbrev hbmTy0_0 (i : Nat) : BufTy := match i % 128 with
  | 0 => ⟨S100000x384, .f32⟩
  | 1 => ⟨S2x1600000, .i32⟩
  | 2 => ⟨S384x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x50, .f32⟩
  | 11 => ⟨S50, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S1600000x1, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x384, .f32⟩

abbrev hbmTy0_1 (i : Nat) : BufTy := match i % 128 with
  | 0 => ⟨S1600000x1, .i32⟩
  | 1 => ⟨S1600000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x1, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x1, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x50, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x50, .f32⟩
  | 115 => ⟨S1600000x1, .f32⟩
  | 116 => ⟨S1600000x50, .f32⟩
  | 117 => ⟨S1600000x50, .f32⟩
  | 118 => ⟨S_, .f32⟩
  | 119 => ⟨S100000x50, .f32⟩
  | 120 => ⟨S1600000x1, .i32⟩
  | 121 => ⟨S100000x50, .f32⟩
  | 122 => ⟨S100000, .f32⟩
  | 123 => ⟨S100000x1, .f32⟩
  | 124 => ⟨S100000x50, .f32⟩
  | 125 => ⟨S100000x50, .f32⟩
  | 126 => ⟨S100000x50, .f32⟩
  | 127 => ⟨S1x50, .f32⟩
  | _ => ⟨S100000x384, .f32⟩

abbrev hbmTy0_2 (i : Nat) : BufTy := match i % 128 with
  | 0 => ⟨S100000x50, .f32⟩
  | 1 => ⟨S100000x50, .f32⟩
  | _ => ⟨S100000x384, .f32⟩

abbrev hbmTy (i : Nat) : BufTy := match i / 128 with
  | 0 => hbmTy0_0 i
  | 1 => hbmTy0_1 i
  | 2 => hbmTy0_2 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_v87 : Ref sig .tc := ⟨.hbm, 120, rfl⟩
abbrev main_c_15 : Ref sig .tc := ⟨.hbm, 121, rfl⟩
abbrev main_v88 : Ref sig .tc := ⟨.hbm, 122, rfl⟩
abbrev main_v89 : Ref sig .tc := ⟨.hbm, 123, rfl⟩
abbrev main_c_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_17 : Ref sig .tc := ⟨.hbm, 130, rfl⟩
abbrev main_v95 : Ref sig .tc := ⟨.hbm, 131, rfl⟩
abbrev main_v96 : Ref sig .tc := ⟨.hbm, 132, rfl⟩
abbrev main_c_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_19 : Ref sig .tc := ⟨.hbm, 140, rfl⟩
abbrev main_v103 : Ref sig .tc := ⟨.hbm, 141, rfl⟩
abbrev main_v104 : Ref sig .tc := ⟨.hbm, 142, rfl⟩
abbrev main_c_20 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_call2_cst : Ref sig .tc := ⟨.hbm, 164, rfl⟩
abbrev main_call2_v0 : Ref sig .tc := ⟨.hbm, 165, rfl⟩
abbrev main_v124 : Ref sig .tc := ⟨.hbm, 166, rfl⟩
abbrev main_v125 : Ref sig .tc := ⟨.hbm, 167, rfl⟩
abbrev main_c_22 : Ref sig .tc := ⟨.hbm, 168, rfl⟩
abbrev main_v126 : Ref sig .tc := ⟨.hbm, 169, rfl⟩
abbrev main_v127 : Ref sig .tc := ⟨.hbm, 170, rfl⟩
abbrev main_c_23 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_c_24 : Ref sig .tc := ⟨.hbm, 177, rfl⟩
abbrev main_v133 : Ref sig .tc := ⟨.hbm, 178, rfl⟩
abbrev main_v134 : Ref sig .tc := ⟨.hbm, 179, rfl⟩
abbrev main_c_25 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_26 : Ref sig .tc := ⟨.hbm, 187, rfl⟩
abbrev main_v141 : Ref sig .tc := ⟨.hbm, 188, rfl⟩
abbrev main_v142 : Ref sig .tc := ⟨.hbm, 189, rfl⟩
abbrev main_c_27 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_28 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_call3_cst : Ref sig .tc := ⟨.hbm, 211, rfl⟩
abbrev main_call3_v0 : Ref sig .tc := ⟨.hbm, 212, rfl⟩
abbrev main_v162 : Ref sig .tc := ⟨.hbm, 213, rfl⟩
abbrev main_v163 : Ref sig .tc := ⟨.hbm, 214, rfl⟩
abbrev main_c_29 : Ref sig .tc := ⟨.hbm, 215, rfl⟩
abbrev main_v164 : Ref sig .tc := ⟨.hbm, 216, rfl⟩
abbrev main_v165 : Ref sig .tc := ⟨.hbm, 217, rfl⟩
abbrev main_c_30 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_31 : Ref sig .tc := ⟨.hbm, 224, rfl⟩
abbrev main_v171 : Ref sig .tc := ⟨.hbm, 225, rfl⟩
abbrev main_v172 : Ref sig .tc := ⟨.hbm, 226, rfl⟩
abbrev main_c_32 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_c_33 : Ref sig .tc := ⟨.hbm, 234, rfl⟩
abbrev main_v179 : Ref sig .tc := ⟨.hbm, 235, rfl⟩
abbrev main_v180 : Ref sig .tc := ⟨.hbm, 236, rfl⟩
abbrev main_c_34 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_cst_35 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x50_0_1 : S1600000x1.BroadcastsInDim S1600000x50 (![0, 1] : Fin 2 → Fin S1600000x50.rank)
  bcast_S_S100000x50 : S_.BroadcastsInDim S100000x50 (![] : Fin 0 → Fin S100000x50.rank)
  bcast_S100000x1_S100000x50_0_1 : S100000x1.BroadcastsInDim S100000x50 (![0, 1] : Fin 2 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  scatter_S100000_S1600000x1_S1600000_n_0_0_1_wf : ScatterDims.WF S100000 S1600000x1 S1600000 [] [0] [0] 1
  dot_S100000x384_S384x128_S100000x128_1_0_0_1_n_n_wf : DotDims.WF S100000x384 S384x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x50_S100000x50_1_0_0_1_n_n_wf : DotDims.WF S100000x128 S128x50 S100000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x50_S100000x50_1_0_0_1_n_n : DotDims S100000x128 S128x50 S100000x50 where
  lhsContracting := [1]
  rhsContracting := [0]
  lhsNonContracting := [0]
  rhsNonContracting := [1]
  lhsBatch := []
  rhsBatch := []
  wf := dot_S100000x128_S128x50_S100000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf

class Facts : Prop extends Facts₀ where

variable [Facts]
-- ==== Proof.Boundaries.lean ====
/-
  What each segment of the kernel's host program leaves alone.

  The program is sixteen segments — six stretches of host operations and ten kernel regions — and the buffer contents
  at the seventeen boundaries between them are a fold from the launch memory. A stretch of host operations changes only
  the buffers its operations write; a kernel region changes only its output array (its input arrays are read through
  windows and come back as they were, and no other buffer is touched). So a buffer's contents at a boundary are its
  contents at any earlier boundary, provided no segment in between writes it: `kept`.
-/
import proofs.«169812_j1915555414559_1_alg».proof.Proof.Gen.KernelIdeal.Frame
import Idealize.ShloMosaic.Lib.StableHlo.Run
import Idealize.ShloMosaic.PureOps.Ideal

set_option maxRecDepth 16384

noncomputable section

namespace Cert.KernelIdeal.LayerValue

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg) (c : Dev nD)

/-- The buffer contents at the seventeen boundaries, by number. -/
def bd : Nat → Valuation τ sig (Elt Ideal)
  | 0 => W0 (F := Ideal) m ρ c
  | 1 => W1 (F := Ideal) m ρ c
  | 2 => W2 (F := Ideal) m ρ c
  | 3 => W3 (F := Ideal) m ρ c
  | 4 => W4 (F := Ideal) m ρ c
  | 5 => W5 (F := Ideal) m ρ c
  | 6 => W6 (F := Ideal) m ρ c
  | 7 => W7 (F := Ideal) m ρ c
  | 8 => W8 (F := Ideal) m ρ c
  | 9 => W9 (F := Ideal) m ρ c
  | 10 => W10 (F := Ideal) m ρ c
  | 11 => W11 (F := Ideal) m ρ c
  | 12 => W12 (F := Ideal) m ρ c
  | 13 => W13 (F := Ideal) m ρ c
  | 14 => W14 (F := Ideal) m ρ c
  | 15 => W15 (F := Ideal) m ρ c
  | _ => W16 (F := Ideal) m ρ c

/-- The buffers segment `k` (the one ending at boundary `k`) writes. -/
def wr : Nat → List (Ref sig .tc)
  | 1 => [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28]
  | 2 => [main_v29]
  | 3 => [main_c_5, main_v30, main_v31, main_c_6, main_v32, main_v33, main_v34, main_v35, main_v36, main_v37, main_v38, main_cst_7, main_v39, main_v40, main_v41]
  | 4 => [main_v42]
  | 5 => [main_v43]
  | 6 => [main_c_8, main_v44, main_v45, main_c_9, main_v46, main_v47, main_v48, main_v49, main_v50, main_v51, main_v52, main_cst_10, main_v53, main_v54, main_v55]
  | 7 => [main_v56]
  | 8 => [main_v57]
  | 9 => [main_c_11, main_v58, main_v59, main_c_12, main_v60, main_v61, main_v62, main_v63, main_v64, main_v65, main_v66, main_cst_13, main_v67, main_v68, main_v69]
  | 10 => [main_v70]
  | 11 => [main_v71]
  | 12 => [main_c_14, main_v72, main_v73, main_c_15, main_v74, main_v75, main_v76, main_v77, main_v78, main_v79, main_v80, main_cst_16, main_v81, main_v82, main_v83]
  | 13 => [main_v84]
  | 14 => [main_v85]
  | 15 => [main_c_17, main_v86, main_v87, main_c_18, main_v88, main_v89, main_v90, main_v91, main_v92, main_v93, main_v94, main_cst_19, main_v95, main_v96, main_v97]
  | 16 => [main_v98]
  | _ => []

/-- Every operation of the stretch ending at boundary 1 writes a buffer of its list. -/
theorem writes1 : (hostOps0 : List (HloOp τ sig (Elt Ideal))).Forall fun op => op.writes ⊆ ((wr 1).map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))

theorem step1 (b : Ref sig .tc) (hb : b ∉ wr 1) : bd m ρ c 1 (Proc.devRef .tc b) = bd m ρ c 0 (Proc.devRef .tc b) :=
  StableHlo.after_of_writes_sub (hostOps0 : List (HloOp τ sig (Elt Ideal))) (W0 (F := Ideal) m ρ c) writes1 hb

/-- Every operation of the stretch ending at boundary 3 writes a buffer of its list. -/
theorem writes3 : (hostOps1 : List (HloOp τ sig (Elt Ideal))).Forall fun op => op.writes ⊆ ((wr 3).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))

theorem step3 (b : Ref sig .tc) (hb : b ∉ wr 3) : bd m ρ c 3 (Proc.devRef .tc b) = bd m ρ c 2 (Proc.devRef .tc b) :=
  StableHlo.after_of_writes_sub (hostOps1 : List (HloOp τ sig (Elt Ideal))) (W2 (F := Ideal) m ρ c) writes3 hb

/-- Every operation of the stretch ending at boundary 6 writes a buffer of its list. -/
theorem writes6 : (hostOps3 : List (HloOp τ sig (Elt Ideal))).Forall fun op => op.writes ⊆ ((wr 6).map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))

theorem step6 (b : Ref sig .tc) (hb : b ∉ wr 6) : bd m ρ c 6 (Proc.devRef .tc b) = bd m ρ c 5 (Proc.devRef .tc b) :=
  StableHlo.after_of_writes_sub (hostOps3 : List (HloOp τ sig (Elt Ideal))) (W5 (F := Ideal) m ρ c) writes6 hb

/-- Every operation of the stretch ending at boundary 9 writes a buffer of its list. -/
theorem writes9 : (hostOps5 : List (HloOp τ sig (Elt Ideal))).Forall fun op => op.writes ⊆ ((wr 9).map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))

theorem step9 (b : Ref sig .tc) (hb : b ∉ wr 9) : bd m ρ c 9 (Proc.devRef .tc b) = bd m ρ c 8 (Proc.devRef .tc b) :=
  StableHlo.after_of_writes_sub (hostOps5 : List (HloOp τ sig (Elt Ideal))) (W8 (F := Ideal) m ρ c) writes9 hb

/-- Every operation of the stretch ending at boundary 12 writes a buffer of its list. -/
theorem writes12 : (hostOps7 : List (HloOp τ sig (Elt Ideal))).Forall fun op => op.writes ⊆ ((wr 12).map (Proc.devRef (τ := τ) .tc)).toFinset := by
  simp only [hostOps7, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))

theorem step12 (b : Ref sig .tc) (hb : b ∉ wr 12) : bd m ρ c 12 (Proc.devRef .tc b) = bd m ρ c 11 (Proc.devRef .tc b) :=
  StableHlo.after_of_writes_sub (hostOps7 : List (HloOp τ sig (Elt Ideal))) (W11 (F := Ideal) m ρ c) writes12 hb

/-- Every operation of the stretch ending at boundary 15 writes a buffer of its list. -/
theorem writes15 : (hostOps9 : List (HloOp τ sig (Elt Ideal))).Forall fun op => op.writes ⊆ ((wr 15).map (Proc.devRef (τ := τ) .tc)).toFinset := by
  simp only [hostOps9, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))

theorem step15 (b : Ref sig .tc) (hb : b ∉ wr 15) : bd m ρ c 15 (Proc.devRef .tc b) = bd m ρ c 14 (Proc.devRef .tc b) :=
  StableHlo.after_of_writes_sub (hostOps9 : List (HloOp τ sig (Elt Ideal))) (W14 (F := Ideal) m ρ c) writes15 hb

/-- Region 0 (ending at boundary 2) changes its output array only. -/
theorem step2 (b : Ref sig .tc) (hb : b ∉ wr 2) : bd m ρ c 2 (Proc.devRef .tc b) = bd m ρ c 1 (Proc.devRef .tc b) := by
  show W2 (F := Ideal) m ρ c (Proc.devRef .tc b) = W1 (F := Ideal) m ρ c (Proc.devRef .tc b)
  by_cases h : ∃ w, Pipeline.arrRef spec0 w = b
  · obtain ⟨w, rfl⟩ := h
    rw [W2_arr]
    match w with
    | ⟨0, _⟩ => exact ((dat0 (V1 (F := Ideal) m ρ) c).arrAt_in 0 rfl _).trans (A_eq0 (V1 (F := Ideal) m ρ) c 0)
    | ⟨1, _⟩ => exact ((dat0 (V1 (F := Ideal) m ρ) c).arrAt_in 1 rfl _).trans (A_eq0 (V1 (F := Ideal) m ρ) c 1)
    | ⟨2, _⟩ => exact absurd (List.mem_singleton.mpr rfl) hb
  · exact W2_of_ne m ρ c b fun w e => h ⟨w, e⟩

/-- Region 1 (ending at boundary 4) changes its output array only. -/
theorem step4 (b : Ref sig .tc) (hb : b ∉ wr 4) : bd m ρ c 4 (Proc.devRef .tc b) = bd m ρ c 3 (Proc.devRef .tc b) := by
  show W4 (F := Ideal) m ρ c (Proc.devRef .tc b) = W3 (F := Ideal) m ρ c (Proc.devRef .tc b)
  by_cases h : ∃ w, Pipeline.arrRef spec1 w = b
  · obtain ⟨w, rfl⟩ := h
    rw [W4_arr]
    match w with
    | ⟨0, _⟩ => exact ((dat1 (V3 (F := Ideal) m ρ) c).arrAt_in 0 rfl _).trans (A_eq1 (V3 (F := Ideal) m ρ) c 0)
    | ⟨1, _⟩ => exact ((dat1 (V3 (F := Ideal) m ρ) c).arrAt_in 1 rfl _).trans (A_eq1 (V3 (F := Ideal) m ρ) c 1)
    | ⟨2, _⟩ => exact ((dat1 (V3 (F := Ideal) m ρ) c).arrAt_in 2 rfl _).trans (A_eq1 (V3 (F := Ideal) m ρ) c 2)
    | ⟨3, _⟩ => exact ((dat1 (V3 (F := Ideal) m ρ) c).arrAt_in 3 rfl _).trans (A_eq1 (V3 (F := Ideal) m ρ) c 3)
    | ⟨4, _⟩ => exact absurd (List.mem_singleton.mpr rfl) hb
  · exact W4_of_ne m ρ c b fun w e => h ⟨w, e⟩

/-- Region 2 (ending at boundary 5) changes its output array only. -/
theorem step5 (b : Ref sig .tc) (hb : b ∉ wr 5) : bd m ρ c 5 (Proc.devRef .tc b) = bd m ρ c 4 (Proc.devRef .tc b) := by
  show W5 (F := Ideal) m ρ c (Proc.devRef .tc b) = W4 (F := Ideal) m ρ c (Proc.devRef .tc b)
  by_cases h : ∃ w, Pipeline.arrRef spec2 w = b
  · obtain ⟨w, rfl⟩ := h
    rw [W5_arr]
    match w with
    | ⟨0, _⟩ => exact ((dat2 (V4 (F := Ideal) m ρ) c).arrAt_in 0 rfl _).trans (A_eq2 (V4 (F := Ideal) m ρ) c 0)
    | ⟨1, _⟩ => exact ((dat2 (V4 (F := Ideal) m ρ) c).arrAt_in 1 rfl _).trans (A_eq2 (V4 (F := Ideal) m ρ) c 1)
    | ⟨2, _⟩ => exact absurd (List.mem_singleton.mpr rfl) hb
  · exact W5_of_ne m ρ c b fun w e => h ⟨w, e⟩

/-- Region 3 (ending at boundary 7) changes its output array only. -/
theorem step7 (b : Ref sig .tc) (hb : b ∉ wr 7) : bd m ρ c 7 (Proc.devRef .tc b) = bd m ρ c 6 (Proc.devRef .tc b) := by
  show W7 (F := Ideal) m ρ c (Proc.devRef .tc b) = W6 (F := Ideal) m ρ c (Proc.devRef .tc b)
  by_cases h : ∃ w, Pipeline.arrRef spec3 w = b
  · obtain ⟨w, rfl⟩ := h
    rw [W7_arr]
    match w with
    | ⟨0, _⟩ => exact ((dat3 (V6 (F := Ideal) m ρ) c).arrAt_in 0 rfl _).trans (A_eq3 (V6 (F := Ideal) m ρ) c 0)
    | ⟨1, _⟩ => exact ((dat3 (V6 (F := Ideal) m ρ) c).arrAt_in 1 rfl _).trans (A_eq3 (V6 (F := Ideal) m ρ) c 1)
    | ⟨2, _⟩ => exact ((dat3 (V6 (F := Ideal) m ρ) c).arrAt_in 2 rfl _).trans (A_eq3 (V6 (F := Ideal) m ρ) c 2)
    | ⟨3, _⟩ => exact ((dat3 (V6 (F := Ideal) m ρ) c).arrAt_in 3 rfl _).trans (A_eq3 (V6 (F := Ideal) m ρ) c 3)
    | ⟨4, _⟩ => exact absurd (List.mem_singleton.mpr rfl) hb
  · exact W7_of_ne m ρ c b fun w e => h ⟨w, e⟩

/-- Region 4 (ending at boundary 8) changes its output array only. -/
theorem step8 (b : Ref sig .tc) (hb : b ∉ wr 8) : bd m ρ c 8 (Proc.devRef .tc b) = bd m ρ c 7 (Proc.devRef .tc b) := by
  show W8 (F := Ideal) m ρ c (Proc.devRef .tc b) = W7 (F := Ideal) m ρ c (Proc.devRef .tc b)
  by_cases h : ∃ w, Pipeline.arrRef spec4 w = b
  · obtain ⟨w, rfl⟩ := h
    rw [W8_arr]
    match w with
    | ⟨0, _⟩ => exact ((dat4 (V7 (F := Ideal) m ρ) c).arrAt_in 0 rfl _).trans (A_eq4 (V7 (F := Ideal) m ρ) c 0)
    | ⟨1, _⟩ => exact ((dat4 (V7 (F := Ideal) m ρ) c).arrAt_in 1 rfl _).trans (A_eq4 (V7 (F := Ideal) m ρ) c 1)
    | ⟨2, _⟩ => exact absurd (List.mem_singleton.mpr rfl) hb
  · exact W8_of_ne m ρ c b fun w e => h ⟨w, e⟩

/-- Region 5 (ending at boundary 10) changes its output array only. -/
theorem step10 (b : Ref sig .tc) (hb : b ∉ wr 10) : bd m ρ c 10 (Proc.devRef .tc b) = bd m ρ c 9 (Proc.devRef .tc b) := by
  show W10 (F := Ideal) m ρ c (Proc.devRef .tc b) = W9 (F := Ideal) m ρ c (Proc.devRef .tc b)
  by_cases h : ∃ w, Pipeline.arrRef spec5 w = b
  · obtain ⟨w, rfl⟩ := h
    rw [W10_arr]
    match w with
    | ⟨0, _⟩ => exact ((dat5 (V9 (F := Ideal) m ρ) c).arrAt_in 0 rfl _).trans (A_eq5 (V9 (F := Ideal) m ρ) c 0)
    | ⟨1, _⟩ => exact ((dat5 (V9 (F := Ideal) m ρ) c).arrAt_in 1 rfl _).trans (A_eq5 (V9 (F := Ideal) m ρ) c 1)
    | ⟨2, _⟩ => exact ((dat5 (V9 (F := Ideal) m ρ) c).arrAt_in 2 rfl _).trans (A_eq5 (V9 (F := Ideal) m ρ) c 2)
    | ⟨3, _⟩ => exact ((dat5 (V9 (F := Ideal) m ρ) c).arrAt_in 3 rfl _).trans (A_eq5 (V9 (F := Ideal) m ρ) c 3)
    | ⟨4, _⟩ => exact absurd (List.mem_singleton.mpr rfl) hb
  · exact W10_of_ne m ρ c b fun w e => h ⟨w, e⟩

/-- Region 6 (ending at boundary 11) changes its output array only. -/
theorem step11 (b : Ref sig .tc) (hb : b ∉ wr 11) : bd m ρ c 11 (Proc.devRef .tc b) = bd m ρ c 10 (Proc.devRef .tc b) := by
  show W11 (F := Ideal) m ρ c (Proc.devRef .tc b) = W10 (F := Ideal) m ρ c (Proc.devRef .tc b)
  by_cases h : ∃ w, Pipeline.arrRef spec6 w = b
  · obtain ⟨w, rfl⟩ := h
    rw [W11_arr]
    match w with
    | ⟨0, _⟩ => exact ((dat6 (V10 (F := Ideal) m ρ) c).arrAt_in 0 rfl _).trans (A_eq6 (V10 (F := Ideal) m ρ) c 0)
    | ⟨1, _⟩ => exact ((dat6 (V10 (F := Ideal) m ρ) c).arrAt_in 1 rfl _).trans (A_eq6 (V10 (F := Ideal) m ρ) c 1)
    | ⟨2, _⟩ => exact absurd (List.mem_singleton.mpr rfl) hb
  · exact W11_of_ne m ρ c b fun w e => h ⟨w, e⟩

/-- Region 7 (ending at boundary 13) changes its output array only. -/
theorem step13 (b : Ref sig .tc) (hb : b ∉ wr 13) : bd m ρ c 13 (Proc.devRef .tc b) = bd m ρ c 12 (Proc.devRef .tc b) := by
  show W13 (F := Ideal) m ρ c (Proc.devRef .tc b) = W12 (F := Ideal) m ρ c (Proc.devRef .tc b)
  by_cases h : ∃ w, Pipeline.arrRef spec7 w = b
  · obtain ⟨w, rfl⟩ := h
    rw [W13_arr]
    match w with
    | ⟨0, _⟩ => exact ((dat7 (V12 (F := Ideal) m ρ) c).arrAt_in 0 rfl _).trans (A_eq7 (V12 (F := Ideal) m ρ) c 0)
    | ⟨1, _⟩ => exact ((dat7 (V12 (F := Ideal) m ρ) c).arrAt_in 1 rfl _).trans (A_eq7 (V12 (F := Ideal) m ρ) c 1)
    | ⟨2, _⟩ => exact ((dat7 (V12 (F := Ideal) m ρ) c).arrAt_in 2 rfl _).trans (A_eq7 (V12 (F := Ideal) m ρ) c 2)
    | ⟨3, _⟩ => exact ((dat7 (V12 (F := Ideal) m ρ) c).arrAt_in 3 rfl _).trans (A_eq7 (V12 (F := Ideal) m ρ) c 3)
    | ⟨4, _⟩ => exact absurd (List.mem_singleton.mpr rfl) hb
  · exact W13_of_ne m ρ c b fun w e => h ⟨w, e⟩

/-- Region 8 (ending at boundary 14) changes its output array only. -/
theorem step14 (b : Ref sig .tc) (hb : b ∉ wr 14) : bd m ρ c 14 (Proc.devRef .tc b) = bd m ρ c 13 (Proc.devRef .tc b) := by
  show W14 (F := Ideal) m ρ c (Proc.devRef .tc b) = W13 (F := Ideal) m ρ c (Proc.devRef .tc b)
  by_cases h : ∃ w, Pipeline.arrRef spec8 w = b
  · obtain ⟨w, rfl⟩ := h
    rw [W14_arr]
    match w with
    | ⟨0, _⟩ => exact ((dat8 (V13 (F := Ideal) m ρ) c).arrAt_in 0 rfl _).trans (A_eq8 (V13 (F := Ideal) m ρ) c 0)
    | ⟨1, _⟩ => exact ((dat8 (V13 (F := Ideal) m ρ) c).arrAt_in 1 rfl _).trans (A_eq8 (V13 (F := Ideal) m ρ) c 1)
    | ⟨2, _⟩ => exact absurd (List.mem_singleton.mpr rfl) hb
  · exact W14_of_ne m ρ c b fun w e => h ⟨w, e⟩

/-- Region 9 (ending at boundary 16) changes its output array only. -/
theorem step16 (b : Ref sig .tc) (hb : b ∉ wr 16) : bd m ρ c 16 (Proc.devRef .tc b) = bd m ρ c 15 (Proc.devRef .tc b) := by
  show W16 (F := Ideal) m ρ c (Proc.devRef .tc b) = W15 (F := Ideal) m ρ c (Proc.devRef .tc b)
  by_cases h : ∃ w, Pipeline.arrRef spec9 w = b
  · obtain ⟨w, rfl⟩ := h
    rw [W16_arr]
    match w with
    | ⟨0, _⟩ => exact ((dat9 (V15 (F := Ideal) m ρ) c).arrAt_in 0 rfl _).trans (A_eq9 (V15 (F := Ideal) m ρ) c 0)
    | ⟨1, _⟩ => exact ((dat9 (V15 (F := Ideal) m ρ) c).arrAt_in 1 rfl _).trans (A_eq9 (V15 (F := Ideal) m ρ) c 1)
    | ⟨2, _⟩ => exact ((dat9 (V15 (F := Ideal) m ρ) c).arrAt_in 2 rfl _).trans (A_eq9 (V15 (F := Ideal) m ρ) c 2)
    | ⟨3, _⟩ => exact ((dat9 (V15 (F := Ideal) m ρ) c).arrAt_in 3 rfl _).trans (A_eq9 (V15 (F := Ideal) m ρ) c 3)
    | ⟨4, _⟩ => exact absurd (List.mem_singleton.mpr rfl) hb
  · exact W16_of_ne m ρ c b fun w e => h ⟨w, e⟩

/-- One boundary back. -/
theorem step (k : Nat) (hk : k < 16) (b : Ref sig .tc) (hb : b ∉ wr (k + 1)) :
    bd m ρ c (k + 1) (Proc.devRef .tc b) = bd m ρ c k (Proc.devRef .tc b) := by
  match k, hk with
  | 0, _ => exact step1 m ρ c b hb
  | 1, _ => exact step2 m ρ c b hb
  | 2, _ => exact step3 m ρ c b hb
  | 3, _ => exact step4 m ρ c b hb
  | 4, _ => exact step5 m ρ c b hb
  | 5, _ => exact step6 m ρ c b hb
  | 6, _ => exact step7 m ρ c b hb
  | 7, _ => exact step8 m ρ c b hb
  | 8, _ => exact step9 m ρ c b hb
  | 9, _ => exact step10 m ρ c b hb
  | 10, _ => exact step11 m ρ c b hb
  | 11, _ => exact step12 m ρ c b hb
  | 12, _ => exact step13 m ρ c b hb
  | 13, _ => exact step14 m ρ c b hb
  | 14, _ => exact step15 m ρ c b hb
  | 15, _ => exact step16 m ρ c b hb
  | k + 16, hk => exact absurd hk (by omega)

/-- A buffer no segment between boundaries `j` and `j + d` writes holds at `j + d` what it held at `j`. -/
theorem kept (j d : Nat) (h : j + d ≤ 16) (b : Ref sig .tc) (hb : ∀ i, i < d → b ∉ wr (j + i + 1)) :
    bd m ρ c (j + d) (Proc.devRef .tc b) = bd m ρ c j (Proc.devRef .tc b) := by
  induction d with
  | zero => rfl
  | succ d ih =>
    exact (step m ρ c (j + d) (by omega) b (hb d (by omega))).trans (ih (by omega) fun i hi => hb i (by omega))

end Cert.KernelIdeal.LayerValue

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.LibDense.lean ====
/-
  The product of two matrices over the extended reals as one function of the entry, and the host's plain
  `dot_general` as that function.

  `dense x w` at the entry `(p, c)` is the sum over the inner coordinate `a` of `x (p, a) * w (a, c)`. A sum of
  products on the extended reals needs no finiteness: nothing is distributed or cancelled.
-/
import proofs.«169812_j1915555414559_1_alg».proof.Proof.LibPlainHostDot

noncomputable section

open scoped BigOperators

namespace Cert.LibDense

open Idealize.ShloMosaic Idealize.ShloMosaic.ValueIdx

/-- The product of a rows-by-`K` matrix with a `K`-by-columns matrix, entry by entry. -/
def dense {R K C : Nat} (x : (⟨2, ![R, K]⟩ : Shape).Idx → EReal) (w : (⟨2, ![K, C]⟩ : Shape).Idx → EReal) :
    (⟨2, ![R, C]⟩ : Shape).Idx → EReal :=
  fun i => ∑ a : Fin K, x (ix2 (⟨(i 0).val, idx2_lt0 i⟩ : Fin R) a) * w (ix2 a (⟨(i 1).val, idx2_lt1 i⟩ : Fin C))

/-- At an entry given by its two coordinates. -/
theorem dense_ix2 {R K C : Nat} (x : (⟨2, ![R, K]⟩ : Shape).Idx → EReal) (w : (⟨2, ![K, C]⟩ : Shape).Idx → EReal)
    (p : Fin R) (c : Fin C) : dense x w (ix2 p c) = ∑ a : Fin K, x (ix2 p a) * w (ix2 a c) := rfl

/-- The product depends on the left factor only through the rows it reads, on the right factor through all of it:
    two left factors that agree on row `p` give the same entries in row `p`. -/
theorem dense_congr_row {R R' K C : Nat} (x : (⟨2, ![R, K]⟩ : Shape).Idx → EReal) (x' : (⟨2, ![R', K]⟩ : Shape).Idx → EReal)
    (w : (⟨2, ![K, C]⟩ : Shape).Idx → EReal) (p : Fin R) (p' : Fin R') (c : Fin C)
    (h : ∀ a : Fin K, x (ix2 p a) = x' (ix2 p' a)) : dense x w (ix2 p c) = dense x' w (ix2 p' c) := by
  rw [dense_ix2, dense_ix2]
  exact Finset.sum_congr rfl fun a _ => by rw [h a]

/-- The host's plain product is `dense`. The hypotheses say the dimension numbers are the plain ones (see
    `Cert.LibPlainHostDot.hostDot_plain`). -/
theorem hostDot_eq_dense {R K C : Nat}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ .f32) (r : FVec Ideal ⟨2, ![K, C]⟩ .f32) :
    Host.dotGeneral D prec l r = dense l r := by
  funext i
  obtain ⟨p, c, rfl⟩ : ∃ (p : Fin R) (c : Fin C), i = ix2 p c := ⟨i 0, i 1, eq_ix2 i⟩
  exact Cert.LibPlainHostDot.hostDot_plain D hr hs hl0 hl1 hr0 hr1 prec l r p c

end Cert.LibDense

end
-- ==== Proof.LibRowBroadcast.lean ====
/-
  A vector laid out as one row and repeated over many rows, read at an entry.

  A bias vector `b` of length `n` is added to an `[a, n]` array through two `broadcast_in_dim`s: `b` to `[1, n]` along axis 1,
  then that row to `[a, n]` along both axes. The result at `(p, q)` is `b q`, whatever the row `p`.
-/
import Idealize.ShloMosaic.Lib.Pipeline.Value
import Idealize.ShloMosaic.Lib.ValueIdx

noncomputable section

namespace Cert.LibRowBroadcast

open Idealize.ShloMosaic Idealize.ShloMosaic.ValueIdx

/-- A length-`n` vector broadcast to `[1, n]` along axis 1 reads, at `(u, q)`, the vector at `q`. -/
theorem vector_as_row_apply {α : Type} {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply ![1] h x (ix2 u q) (ix1 q) fun a => ?_
  match a with
  | ⟨0, _⟩ =>
    show q.val = if n = 1 then 0 else q.val
    split
    · have := q.isLt; omega
    · rfl

/-- A `[1, n]` row broadcast to `[a, n]` along both axes reads, at `(p, q)`, the row at `q`. -/
theorem row_over_rows_apply {α : Type} {a n : ℕ} (x : (⟨2, ![1, n]⟩ : Shape).Idx → α)
    (h : (⟨2, ![1, n]⟩ : Shape).BroadcastsInDim ⟨2, ![a, n]⟩ (![0, 1] : Fin 2 → Fin 2)) (p : Fin a) (q : Fin n) :
    broadcastInDim ⟨2, ![a, n]⟩ ![0, 1] h x (ix2 p q) = x (ix2 (0 : Fin 1) q) := by
  refine broadcastInDim_apply ![0, 1] h x (ix2 p q) (ix2 (0 : Fin 1) q) fun ax => ?_
  match ax with
  | ⟨0, _⟩ => show 0 = if (1 : ℕ) = 1 then 0 else p.val; rw [if_pos rfl]
  | ⟨1, _⟩ =>
    show q.val = if n = 1 then 0 else q.val
    split
    · have := q.isLt; omega
    · rfl

/-- The two together: a vector added as a bias to every row reads, at `(p, q)`, the vector at `q`. -/
theorem vector_over_rows_apply {α : Type} {a n : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    broadcastInDim ⟨2, ![a, n]⟩ ![0, 1] h2 (broadcastInDim ⟨2, ![1, n]⟩ ![1] h1 x) (ix2 p q) = x (ix1 q) := by
  rw [row_over_rows_apply, vector_as_row_apply]

end Cert.LibRowBroadcast

end
-- ==== Proof.LibBroadcasts.lean ====
/-
  Three broadcast_in_dim forms read at an index, for any extents: a scalar broadcast to any shape reads the scalar; a
  vector of a values laid out as a column [a, 1] (dims [0]) reads the vector at the row; a column [a, 1] repeated along
  a new last axis to [a, b] (dims [0, 1]) reads the column at the row.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A scalar broadcast to any shape reads, at every index, the scalar. -/
theorem scalar_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 (fun a => a.elim0)

/-- An [a] vector laid out as the column [a, 1] reads, at (p, z), the vector at p. -/
theorem vector_as_column_apply {a : ℕ} (x : (⟨1, ![a]⟩ : Shape).Idx → α)
    (h : (⟨1, ![a]⟩ : Shape).BroadcastsInDim ⟨2, ![a, 1]⟩ (![0] : Fin 1 → Fin 2)) (p : Fin a) (z : Fin 1) :
    broadcastInDim ⟨2, ![a, 1]⟩ ![0] h x (ix2 p z) = x (ix1 p) := by
  refine broadcastInDim_apply ![0] h x (ix2 p z) (ix1 p) fun ax => ?_
  match ax with
  | ⟨0, _⟩ =>
    show p.val = if a = 1 then 0 else p.val
    split
    · have := p.isLt; omega
    · rfl

/-- A column [a, 1] repeated along a new last axis to [a, b] reads, at (p, q), the column at row p. -/
theorem column_over_columns_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else q.val; rw [if_pos rfl]

end Cert.LibBroadcasts

end
-- ==== Proof.Spec.lean ====
/-
  One graph-convolution layer on the extended reals, as functions of whole arrays.

  With `h = x · W` the projected features (`Cert.LibDense.dense`), a layer's output at node `p` and channel `q` is
  `(agg (p, q) + h (p, q) * s (p)) + b (q)`: the aggregated neighbour messages, the node's own projected feature
  weighted by its self-loop coefficient `s (p)` (kept as a column `[R, 1]`), and the bias. The hidden layers clamp
  this below at the zero word. Every operation is the extended reals' own; nothing is distributed or cancelled, so
  no entry has to be finite.

  The rows of the output depend on the same rows of `agg`, `h` and `s` only: that is what lets a block of rows be
  computed from the blocks of the operands.
-/
import proofs.«169812_j1915555414559_1_alg».proof.Proof.LibDense
import Idealize.ShloMosaic.Lib.ValueIdx
import Idealize.ShloMosaic.PureOps.Ideal

noncomputable section

namespace Cert.GcnSpec

open Idealize.ShloMosaic Idealize.ShloMosaic.ValueIdx

/-- Aggregated messages, plus the self-loop term, plus the bias. -/
def combine {R N : Nat} (agg h : (⟨2, ![R, N]⟩ : Shape).Idx → EReal) (s : (⟨2, ![R, 1]⟩ : Shape).Idx → EReal)
    (b : (⟨1, ![N]⟩ : Shape).Idx → EReal) : (⟨2, ![R, N]⟩ : Shape).Idx → EReal :=
  fun i => (agg i + h i * s (ix2 (⟨(i 0).val, idx2_lt0 i⟩ : Fin R) (0 : Fin 1))) + b (ix1 (⟨(i 1).val, idx2_lt1 i⟩ : Fin N))

/-- The same, clamped below at the zero word (the rectifier of a hidden layer). -/
def combineRelu {R N : Nat} (agg h : (⟨2, ![R, N]⟩ : Shape).Idx → EReal) (s : (⟨2, ![R, 1]⟩ : Shape).Idx → EReal)
    (b : (⟨1, ![N]⟩ : Shape).Idx → EReal) : (⟨2, ![R, N]⟩ : Shape).Idx → EReal :=
  fun i => max (combine agg h s b i) (Ideal.ofBits .f32 0x00000000#32)

theorem combine_ix2 {R N : Nat} (agg h : (⟨2, ![R, N]⟩ : Shape).Idx → EReal) (s : (⟨2, ![R, 1]⟩ : Shape).Idx → EReal)
    (b : (⟨1, ![N]⟩ : Shape).Idx → EReal) (p : Fin R) (q : Fin N) :
    combine agg h s b (ix2 p q) = (agg (ix2 p q) + h (ix2 p q) * s (ix2 p (0 : Fin 1))) + b (ix1 q) := rfl

theorem combineRelu_ix2 {R N : Nat} (agg h : (⟨2, ![R, N]⟩ : Shape).Idx → EReal) (s : (⟨2, ![R, 1]⟩ : Shape).Idx → EReal)
    (b : (⟨1, ![N]⟩ : Shape).Idx → EReal) (p : Fin R) (q : Fin N) :
    combineRelu agg h s b (ix2 p q)
      = max ((agg (ix2 p q) + h (ix2 p q) * s (ix2 p (0 : Fin 1))) + b (ix1 q)) (Ideal.ofBits .f32 0x00000000#32) := rfl

/-- Row locality: operands that agree on row `p` (of one) and row `p'` (of the other) give the same entry there. -/
theorem combine_congr_row {R R' N : Nat} (agg h : (⟨2, ![R, N]⟩ : Shape).Idx → EReal) (s : (⟨2, ![R, 1]⟩ : Shape).Idx → EReal)
    (agg' h' : (⟨2, ![R', N]⟩ : Shape).Idx → EReal) (s' : (⟨2, ![R', 1]⟩ : Shape).Idx → EReal)
    (b : (⟨1, ![N]⟩ : Shape).Idx → EReal) (p : Fin R) (p' : Fin R') (q : Fin N)
    (ha : agg (ix2 p q) = agg' (ix2 p' q)) (hh : h (ix2 p q) = h' (ix2 p' q))
    (hs : s (ix2 p (0 : Fin 1)) = s' (ix2 p' (0 : Fin 1))) :
    combine agg h s b (ix2 p q) = combine agg' h' s' b (ix2 p' q) := by
  rw [combine_ix2, combine_ix2, ha, hh, hs]

theorem combineRelu_congr_row {R R' N : Nat} (agg h : (⟨2, ![R, N]⟩ : Shape).Idx → EReal) (s : (⟨2, ![R, 1]⟩ : Shape).Idx → EReal)
    (agg' h' : (⟨2, ![R', N]⟩ : Shape).Idx → EReal) (s' : (⟨2, ![R', 1]⟩ : Shape).Idx → EReal)
    (b : (⟨1, ![N]⟩ : Shape).Idx → EReal) (p : Fin R) (p' : Fin R') (q : Fin N)
    (ha : agg (ix2 p q) = agg' (ix2 p' q)) (hh : h (ix2 p q) = h' (ix2 p' q))
    (hs : s (ix2 p (0 : Fin 1)) = s' (ix2 p' (0 : Fin 1))) :
    combineRelu agg h s b (ix2 p q) = combineRelu agg' h' s' b (ix2 p' q) := by
  rw [combineRelu_ix2, combineRelu_ix2, ha, hh, hs]

end Cert.GcnSpec

end
-- ==== Proof.ReferenceLayers.lean ====
/-
  The reference, layer by layer, in the vocabulary of the specification.

  Each of the reference's five layers is: a matrix product (`Cert.LibDense.dense`); the message aggregation
  `aggregate` — wrap negative source indices, gather the projected rows at the sources, scale each by its edge's
  normalisation coefficient, and add them up at the destinations —; and the combination with the self-loop term and the
  bias (`Cert.GcnSpec.combineRelu`, or `combine` in the last layer). The reference recomputes the edge coefficients
  and the self-loop coefficients in every layer from the same degree vector; those are the same arrays each time.
-/
import proofs.«169812_j1915555414559_1_alg».proof.Proof.Gen.ReferenceIdeal.Read
import proofs.«169812_j1915555414559_1_alg».proof.Proof.LibDense
import proofs.«169812_j1915555414559_1_alg».proof.Proof.LibRowBroadcast
import proofs.«169812_j1915555414559_1_alg».proof.Proof.LibBroadcasts
import proofs.«169812_j1915555414559_1_alg».proof.Proof.Spec
import Idealize.ShloMosaic.Lib.ValueIdx

set_option maxRecDepth 16384

noncomputable section

namespace Cert.ReferenceIdeal.LayerValue

open Cert.ReferenceIdeal Cert.ReferenceIdeal.Gen Cert.ReferenceIdeal.Read Idealize.ShloMosaic Idealize.ShloMosaic.ValueIdx
open Cert.LibDense Cert.GcnSpec

/-- jax's reading of a negative index as counted from the end: `s + 100000` where `s < 0`, else `s`. -/
def wrapIndex (s : (⟨S1600000, .i32⟩ : BufTy).Contents (Elt Ideal)) : (⟨S1600000, .i32⟩ : BufTy).Contents (Elt Ideal) :=
  select (cmpi .slt s (broadcastInDim S1600000 ![] bcast_S_S1600000 (constantI S_ 32 0#32)))
    (addi s (broadcastInDim S1600000 ![] bcast_S_S1600000 (constantI S_ 32 100000#32))) s

/-- The aggregated messages of a 128-channel layer: rows of `h` gathered at the sources, each scaled by its edge's
    coefficient, summed at the destinations (into zeros). -/
def aggregate128 (src dst : (⟨S1600000, .i32⟩ : BufTy).Contents (Elt Ideal)) (ncol : (⟨S1600000x1, .f32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (φ := .f32) (Host.gather gather_S100000x128_S1600000x1_S1600000x128_1_0_n_n_0_1_1128 h
        (broadcastInDim S1600000x1 ![0] bcast_S1600000_S1600000x1_0 (wrapIndex src)))
      (broadcastInDim S1600000x128 ![0, 1] bcast_S1600000x1_S1600000x128_0_1 ncol))

/-- The same for the 50-channel output layer. -/
def aggregate50 (src dst : (⟨S1600000, .i32⟩ : BufTy).Contents (Elt Ideal)) (ncol : (⟨S1600000x1, .f32⟩ : BufTy).Contents (Elt Ideal)) (h : (⟨S100000x50, .f32⟩ : BufTy).Contents (Elt Ideal)) :
    (⟨S100000x50, .f32⟩ : BufTy).Contents (Elt Ideal) :=
  Host.scatterAdd (F := Ideal) scatter_S100000x50_S1600000x1_S1600000x50_1_0_0_1
    (broadcastInDim S100000x50 ![] bcast_S_S100000x50 (constant (F := Ideal) S_ .f32 0x00000000#32))
    (broadcastInDim S1600000x1 ![0] bcast_S1600000_S1600000x1_0 dst)
    (mulf (F := Ideal) (φ := .f32) (Host.gather gather_S100000x50_S1600000x1_S1600000x50_1_0_n_n_0_1_150 h
        (broadcastInDim S1600000x1 ![0] bcast_S1600000_S1600000x1_0 (wrapIndex src)))
      (broadcastInDim S1600000x50 ![0, 1] bcast_S1600000x1_S1600000x50_0_1 ncol))

/-- The host's spelling of a hidden layer's combination — the self-loop column repeated along the channels, the bias
    laid out as a row and repeated along the nodes, the clamp against a broadcast zero — is `combineRelu`. -/
theorem combineRelu_host (A H : (⟨S100000x128, .f32⟩ : BufTy).Contents (Elt Ideal)) (S : (⟨S100000x1, .f32⟩ : BufTy).Contents (Elt Ideal)) (B : (⟨S128, .f32⟩ : BufTy).Contents (Elt Ideal)) :
    maximumf (addf (addf A (mulf H (broadcastInDim S100000x128 ![0, 1] bcast_S100000x1_S100000x128_0_1 S)))
        (broadcastInDim S100000x128 ![0, 1] bcast_S1x128_S100000x128_0_1 (broadcastInDim S1x128 ![1] bcast_S128_S1x128_1 B)))
      (broadcastInDim S100000x128 ![] bcast_S_S100000x128 (constant (F := Ideal) S_ .f32 0x00000000#32))
      = combineRelu (R := 100000) (N := 128) A H S B := by
  funext i
  obtain ⟨p, q, rfl⟩ : ∃ (p : Fin 100000) (q : Fin 128), i = ix2 p q := ⟨i 0, i 1, eq_ix2 i⟩
  rw [combineRelu_ix2]
  simp only [maximumf_apply, addf_apply, mulf_apply]
  rw [Cert.LibBroadcasts.column_over_columns_apply, Cert.LibRowBroadcast.vector_over_rows_apply, Cert.LibBroadcasts.scalar_apply]
  rfl

/-- The same for the output layer, which does not clamp. -/
theorem combine_host (A H : (⟨S100000x50, .f32⟩ : BufTy).Contents (Elt Ideal)) (S : (⟨S100000x1, .f32⟩ : BufTy).Contents (Elt Ideal)) (B : (⟨S50, .f32⟩ : BufTy).Contents (Elt Ideal)) :
    addf (F := Ideal) (φ := .f32) (addf A (mulf H (broadcastInDim S100000x50 ![0, 1] bcast_S100000x1_S100000x50_0_1 S)))
        (broadcastInDim S100000x50 ![0, 1] bcast_S1x50_S100000x50_0_1 (broadcastInDim S1x50 ![1] bcast_S50_S1x50_1 B))
      = combine (R := 100000) (N := 50) A H S B := by
  funext i
  obtain ⟨p, q, rfl⟩ : ∃ (p : Fin 100000) (q : Fin 50), i = ix2 p q := ⟨i 0, i 1, eq_ix2 i⟩
  rw [combine_ix2]
  simp only [addf_apply, mulf_apply]
  rw [Cert.LibBroadcasts.column_over_columns_apply, Cert.LibRowBroadcast.vector_over_rows_apply]

/-! ## Layer 1 -/

/-- The projection is the matrix product of the layer's input with its weights. -/
theorem dot1_eq (x0 : (⟨S100000x384, .f32⟩ : BufTy).Contents (Elt Ideal)) (x2 : (⟨S384x128, .f32⟩ : BufTy).Contents (Elt Ideal)) :
    val_main_v11 (F := Ideal) x0 x2 = dense (R := 100000) (K := 384) (C := 128) x0 x2 :=
  hostDot_eq_dense dot_S100000x384_S384x128_S100000x128_1_0_0_1_n_n rfl rfl lhs_main_v11_0 lhs_main_v11_1 rhs_main_v11_0 rhs_main_v11_1 none _ _

/-- The aggregated messages, from the index arrays, the first layer's edge coefficients and the projection. -/
theorem agg1_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) :
    val_main_v39 (F := Ideal) x0 x1 x2
      = aggregate128 (val_main_v1 (F := Ideal) x1) (val_main_v3 (F := Ideal) x1) (val_main_v34 (F := Ideal) x1) (val_main_v11 (F := Ideal) x0 x2) := rfl

/-- The layer's output, from the aggregated messages, the projection, the first layer's self-loop coefficients and the bias. -/
theorem out1_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) :
    val_main_v48 (F := Ideal) x0 x1 x2 x3
      = combineRelu (R := 100000) (N := 128) (val_main_v39 (F := Ideal) x0 x1 x2) (val_main_v11 (F := Ideal) x0 x2) (val_main_v41 (F := Ideal) x1) x3 :=
  combineRelu_host _ _ _ _

/-! ## Layer 2 -/

/-- The projection is the matrix product of the layer's input with its weights. -/
theorem dot2_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) :
    val_main_v49 (F := Ideal) x0 x1 x2 x3 x4 = dense (R := 100000) (K := 128) (C := 128) (val_main_v48 (F := Ideal) x0 x1 x2 x3) x4 :=
  hostDot_eq_dense dot_S100000x128_S128x128_S100000x128_1_0_0_1_n_n rfl rfl lhs_main_v49_0 lhs_main_v49_1 rhs_main_v49_0 rhs_main_v49_1 none _ _

/-- The aggregated messages, from the index arrays, the first layer's edge coefficients and the projection. -/
theorem agg2_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) :
    val_main_v77 (F := Ideal) x0 x1 x2 x3 x4
      = aggregate128 (val_main_v1 (F := Ideal) x1) (val_main_v3 (F := Ideal) x1) (val_main_v34 (F := Ideal) x1) (val_main_v49 (F := Ideal) x0 x1 x2 x3 x4) := rfl

/-- The layer's output, from the aggregated messages, the projection, the first layer's self-loop coefficients and the bias. -/
theorem out2_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v86 (F := Ideal) x0 x1 x2 x3 x4 x5
      = combineRelu (R := 100000) (N := 128) (val_main_v77 (F := Ideal) x0 x1 x2 x3 x4) (val_main_v49 (F := Ideal) x0 x1 x2 x3 x4) (val_main_v41 (F := Ideal) x1) x5 :=
  combineRelu_host _ _ _ _

/-! ## Layer 3 -/

/-- The projection is the matrix product of the layer's input with its weights. -/
theorem dot3_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v87 (F := Ideal) x0 x1 x2 x3 x4 x5 x6 = dense (R := 100000) (K := 128) (C := 128) (val_main_v86 (F := Ideal) x0 x1 x2 x3 x4 x5) x6 :=
  hostDot_eq_dense dot_S100000x128_S128x128_S100000x128_1_0_0_1_n_n rfl rfl lhs_main_v87_0 lhs_main_v87_1 rhs_main_v87_0 rhs_main_v87_1 none _ _

/-- The aggregated messages, from the index arrays, the first layer's edge coefficients and the projection. -/
theorem agg3_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v115 (F := Ideal) x0 x1 x2 x3 x4 x5 x6
      = aggregate128 (val_main_v1 (F := Ideal) x1) (val_main_v3 (F := Ideal) x1) (val_main_v34 (F := Ideal) x1) (val_main_v87 (F := Ideal) x0 x1 x2 x3 x4 x5 x6) := rfl

/-- The layer's output, from the aggregated messages, the projection, the first layer's self-loop coefficients and the bias. -/
theorem out3_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v124 (F := Ideal) x0 x1 x2 x3 x4 x5 x6 x7
      = combineRelu (R := 100000) (N := 128) (val_main_v115 (F := Ideal) x0 x1 x2 x3 x4 x5 x6) (val_main_v87 (F := Ideal) x0 x1 x2 x3 x4 x5 x6) (val_main_v41 (F := Ideal) x1) x7 :=
  combineRelu_host _ _ _ _

/-! ## Layer 4 -/

/-- The projection is the matrix product of the layer's input with its weights. -/
theorem dot4_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v125 (F := Ideal) x0 x1 x2 x3 x4 x5 x6 x7 x8 = dense (R := 100000) (K := 128) (C := 128) (val_main_v124 (F := Ideal) x0 x1 x2 x3 x4 x5 x6 x7) x8 :=
  hostDot_eq_dense dot_S100000x128_S128x128_S100000x128_1_0_0_1_n_n rfl rfl lhs_main_v125_0 lhs_main_v125_1 rhs_main_v125_0 rhs_main_v125_1 none _ _

/-- The aggregated messages, from the index arrays, the first layer's edge coefficients and the projection. -/
theorem agg4_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v153 (F := Ideal) x0 x1 x2 x3 x4 x5 x6 x7 x8
      = aggregate128 (val_main_v1 (F := Ideal) x1) (val_main_v3 (F := Ideal) x1) (val_main_v34 (F := Ideal) x1) (val_main_v125 (F := Ideal) x0 x1 x2 x3 x4 x5 x6 x7 x8) := rfl

/-- The layer's output, from the aggregated messages, the projection, the first layer's self-loop coefficients and the bias. -/
theorem out4_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v162 (F := Ideal) x0 x1 x2 x3 x4 x5 x6 x7 x8 x9
      = combineRelu (R := 100000) (N := 128) (val_main_v153 (F := Ideal) x0 x1 x2 x3 x4 x5 x6 x7 x8) (val_main_v125 (F := Ideal) x0 x1 x2 x3 x4 x5 x6 x7 x8) (val_main_v41 (F := Ideal) x1) x9 :=
  combineRelu_host _ _ _ _

/-! ## Layer 5 -/

/-- The projection is the matrix product of the layer's input with its weights. -/
theorem dot5_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x50, .f32⟩ : BufTy).Contents (Elt Ideal)) :
    val_main_v163 (F := Ideal) x0 x1 x2 x3 x4 x5 x6 x7 x8 x9 x10 = dense (R := 100000) (K := 128) (C := 50) (val_main_v162 (F := Ideal) x0 x1 x2 x3 x4 x5 x6 x7 x8 x9) x10 :=
  hostDot_eq_dense dot_S100000x128_S128x50_S100000x50_1_0_0_1_n_n rfl rfl lhs_main_v163_0 lhs_main_v163_1 rhs_main_v163_0 rhs_main_v163_1 none _ _

/-- The aggregated messages, from the index arrays, the first layer's edge coefficients and the projection. -/
theorem agg5_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x50, .f32⟩ : BufTy).Contents (Elt Ideal)) :
    val_main_v191 (F := Ideal) x0 x1 x2 x3 x4 x5 x6 x7 x8 x9 x10
      = aggregate50 (val_main_v1 (F := Ideal) x1) (val_main_v3 (F := Ideal) x1) (val_main_v34 (F := Ideal) x1) (val_main_v163 (F := Ideal) x0 x1 x2 x3 x4 x5 x6 x7 x8 x9 x10) := rfl

/-- The layer's output, from the aggregated messages, the projection, the first layer's self-loop coefficients and the bias. -/
theorem out5_eq (x0 : (⟨S100000x384, .f32⟩ : BufTy).Contents (Elt Ideal)) (x1 : (⟨S2x1600000, .i32⟩ : BufTy).Contents (Elt Ideal)) (x2 : (⟨S384x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x50, .f32⟩ : BufTy).Contents (Elt Ideal)) (x11 : (⟨S50, .f32⟩ : BufTy).Contents (Elt Ideal)) :
    val_main_v199 (F := Ideal) x0 x1 x2 x3 x4 x5 x6 x7 x8 x9 x10 x11
      = combine (R := 100000) (N := 50) (val_main_v191 (F := Ideal) x0 x1 x2 x3 x4 x5 x6 x7 x8 x9 x10) (val_main_v163 (F := Ideal) x0 x1 x2 x3 x4 x5 x6 x7 x8 x9 x10) (val_main_v41 (F := Ideal) x1) x11 :=
  combine_host _ _ _ _

end Cert.ReferenceIdeal.LayerValue

end
-- ==== Proof.HostStretches.lean ====
/-
  The kernel program's host stretches, read as functions of the contents they start from.

  The first stretch computes, from the edge-index array alone, the source and destination index vectors, the column of
  edge coefficients `dinv[src] · dinv[dst]` and the column of self-loop coefficients `dinv · dinv` (with `dinv` the
  reciprocal square root of the in-degree plus one): the same operations, in the same order, as the reference's. Each
  later stretch is one message aggregation (`aggregate128`, `aggregate50`) of the projection the preceding region left.
-/
import proofs.«169812_j1915555414559_1_alg».proof.Proof.Gen.KernelIdeal.Frame
import proofs.«169812_j1915555414559_1_alg».proof.Proof.ReferenceLayers
import Idealize.ShloMosaic.Lib.StableHlo.Run

set_option maxRecDepth 16384

noncomputable section

namespace Cert.KernelIdeal.LayerValue

open Cert.KernelIdeal Cert.KernelIdeal.Gen Idealize.ShloMosaic Idealize.ShloMosaic.TcCoe Idealize.ShloMosaic.StableHlo
open Idealize.SL.Sem
open Cert.ReferenceIdeal.LayerValue (aggregate128 aggregate50)

variable (W : Valuation τ sig (Elt Ideal))

set_option maxHeartbeats 4000000 in
/-- The source index of every edge. -/
theorem stretch0_src : StableHlo.after (hostOps0 : List (HloOp τ sig (Elt Ideal))) W (Proc.devRef .tc main_v1)
    = Cert.ReferenceIdeal.Read.val_main_v1 (F := Ideal) (W (Proc.devRef .tc main_arg1)) := by
  dsimp only [hostOps0]
  after_results_simp <;> rfl

set_option maxHeartbeats 4000000 in
/-- The destination index of every edge. -/
theorem stretch0_dst : StableHlo.after (hostOps0 : List (HloOp τ sig (Elt Ideal))) W (Proc.devRef .tc main_v3)
    = Cert.ReferenceIdeal.Read.val_main_v3 (F := Ideal) (W (Proc.devRef .tc main_arg1)) := by
  dsimp only [hostOps0]
  after_results_simp <;> rfl

set_option maxHeartbeats 4000000 in
/-- The column of edge coefficients. -/
theorem stretch0_edge : StableHlo.after (hostOps0 : List (HloOp τ sig (Elt Ideal))) W (Proc.devRef .tc main_v26)
    = Cert.ReferenceIdeal.Read.val_main_v34 (F := Ideal) (W (Proc.devRef .tc main_arg1)) := by
  dsimp only [hostOps0]
  after_results_simp <;> rfl

set_option maxHeartbeats 4000000 in
/-- The column of self-loop coefficients. -/
theorem stretch0_self : StableHlo.after (hostOps0 : List (HloOp τ sig (Elt Ideal))) W (Proc.devRef .tc main_v28)
    = Cert.ReferenceIdeal.Read.val_main_v41 (F := Ideal) (W (Proc.devRef .tc main_arg1)) := by
  dsimp only [hostOps0]
  after_results_simp <;> rfl

set_option maxHeartbeats 2000000 in
/-- Layer 1's aggregation stretch: the aggregated messages of the projection it finds. -/
theorem stretch1_agg : StableHlo.after (hostOps1 : List (HloOp τ sig (Elt Ideal))) W (Proc.devRef .tc main_v41)
    = aggregate128 (W (Proc.devRef .tc main_v1)) (W (Proc.devRef .tc main_v3)) (W (Proc.devRef .tc main_v26)) (W (Proc.devRef .tc main_v29)) := by
  dsimp only [hostOps1]
  after_results
  rfl

set_option maxHeartbeats 2000000 in
/-- Layer 2's aggregation stretch: the aggregated messages of the projection it finds. -/
theorem stretch2_agg : StableHlo.after (hostOps3 : List (HloOp τ sig (Elt Ideal))) W (Proc.devRef .tc main_v55)
    = aggregate128 (W (Proc.devRef .tc main_v1)) (W (Proc.devRef .tc main_v3)) (W (Proc.devRef .tc main_v26)) (W (Proc.devRef .tc main_v43)) := by
  dsimp only [hostOps3]
  after_results
  rfl

set_option maxHeartbeats 2000000 in
/-- Layer 3's aggregation stretch: the aggregated messages of the projection it finds. -/
theorem stretch3_agg : StableHlo.after (hostOps5 : List (HloOp τ sig (Elt Ideal))) W (Proc.devRef .tc main_v69)
    = aggregate128 (W (Proc.devRef .tc main_v1)) (W (Proc.devRef .tc main_v3)) (W (Proc.devRef .tc main_v26)) (W (Proc.devRef .tc main_v57)) := by
  dsimp only [hostOps5]
  after_results
  rfl

set_option maxHeartbeats 2000000 in
/-- Layer 4's aggregation stretch: the aggregated messages of the projection it finds. -/
theorem stretch4_agg : StableHlo.after (hostOps7 : List (HloOp τ sig (Elt Ideal))) W (Proc.devRef .tc main_v83)
    = aggregate128 (W (Proc.devRef .tc main_v1)) (W (Proc.devRef .tc main_v3)) (W (Proc.devRef .tc main_v26)) (W (Proc.devRef .tc main_v71)) := by
  dsimp only [hostOps7]
  after_results
  rfl

set_option maxHeartbeats 2000000 in
/-- Layer 5's aggregation stretch: the aggregated messages of the projection it finds. -/
theorem stretch5_agg : StableHlo.after (hostOps9 : List (HloOp τ sig (Elt Ideal))) W (Proc.devRef .tc main_v97)
    = aggregate50 (W (Proc.devRef .tc main_v1)) (W (Proc.devRef .tc main_v3)) (W (Proc.devRef .tc main_v26)) (W (Proc.devRef .tc main_v85)) := by
  dsimp only [hostOps9]
  after_results
  rfl

end Cert.KernelIdeal.LayerValue

end
-- ==== Proof.BlockFacts.lean ====
/-
  Facts shared by the ten kernel regions: a whole-block access starts at offset zero on every axis, and the three
  matrix-unit products (contraction lengths 384, 128, 128; 128, 128 and 50 output channels) use the plain dimension
  numbers — the left factor's row comes from the output row, its column from the contracted coordinate; the right
  factor's row from the contracted coordinate, its column from the output column.
-/
import proofs.«169812_j1915555414559_1_alg».proof.Proof.Gen.KernelIdeal.Frame
import Idealize.ShloMosaic.Lib.ValueIdx

noncomputable section

namespace Cert.KernelIdeal.LayerValue

open Cert.KernelIdeal Idealize.ShloMosaic Idealize.ShloMosaic.ValueIdx

theorem hz1 : (![0] : Fin 1 → Nat) = fun _ => 0 := funext fun a => by fin_cases a; rfl
theorem hz2 : (![0, 0] : Fin 2 → Nat) = fun _ => 0 := funext fun a => by fin_cases a <;> rfl

/-! The matrix unit's 384-long contraction of a 5000×384 block with a 384×128 matrix uses the plain dimension numbers. -/
theorem d384_l0 (i : S5000x128.Idx) (q : (dot_S5000x384_S384x128_S5000x128_1_0_0_1_n_n).contr.Idx) : ((dot_S5000x384_S384x128_S5000x128_1_0_0_1_n_n).lhsIdx i q 0).val = (i 0).val := by
  unfold DotDims.lhsIdx
  rw [dif_neg (show ¬(0 : Fin S5000x384.rank) ∈ (dot_S5000x384_S384x128_S5000x128_1_0_0_1_n_n).lhsBatch by decide), dif_pos (show (0 : Fin S5000x384.rank) ∈ (dot_S5000x384_S384x128_S5000x128_1_0_0_1_n_n).lhsNonContracting by decide)]
  rfl
theorem d384_l1 (i : S5000x128.Idx) (q : (dot_S5000x384_S384x128_S5000x128_1_0_0_1_n_n).contr.Idx) : ((dot_S5000x384_S384x128_S5000x128_1_0_0_1_n_n).lhsIdx i q 1).val = (q ⟨0, by decide⟩).val :=
  (dot_S5000x384_S384x128_S5000x128_1_0_0_1_n_n).lhsIdx_val_of_single rfl i q
theorem d384_r0 (i : S5000x128.Idx) (q : (dot_S5000x384_S384x128_S5000x128_1_0_0_1_n_n).contr.Idx) : ((dot_S5000x384_S384x128_S5000x128_1_0_0_1_n_n).rhsIdx i q 0).val = (q ⟨0, by decide⟩).val :=
  (dot_S5000x384_S384x128_S5000x128_1_0_0_1_n_n).rhsIdx_val_of_single rfl i q
theorem d384_r1 (i : S5000x128.Idx) (q : (dot_S5000x384_S384x128_S5000x128_1_0_0_1_n_n).contr.Idx) : ((dot_S5000x384_S384x128_S5000x128_1_0_0_1_n_n).rhsIdx i q 1).val = (i 1).val := by
  unfold DotDims.rhsIdx
  rw [dif_neg (show ¬(1 : Fin S384x128.rank) ∈ (dot_S5000x384_S384x128_S5000x128_1_0_0_1_n_n).rhsBatch by decide), dif_pos (show (1 : Fin S384x128.rank) ∈ (dot_S5000x384_S384x128_S5000x128_1_0_0_1_n_n).rhsNonContracting by decide)]
  rfl

/-! The matrix unit's 128-long contraction of a 5000×128 block with a 128×128 matrix uses the plain dimension numbers. -/
theorem d128_l0 (i : S5000x128.Idx) (q : (dot_S5000x128_S128x128_S5000x128_1_0_0_1_n_n).contr.Idx) : ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem d128_l1 (i : S5000x128.Idx) (q : (dot_S5000x128_S128x128_S5000x128_1_0_0_1_n_n).contr.Idx) : ((dot_S5000x128_S128x128_S5000x128_1_0_0_1_n_n).lhsIdx i q 1).val = (q ⟨0, by decide⟩).val :=
  (dot_S5000x128_S128x128_S5000x128_1_0_0_1_n_n).lhsIdx_val_of_single rfl i q
theorem d128_r0 (i : S5000x128.Idx) (q : (dot_S5000x128_S128x128_S5000x128_1_0_0_1_n_n).contr.Idx) : ((dot_S5000x128_S128x128_S5000x128_1_0_0_1_n_n).rhsIdx i q 0).val = (q ⟨0, by decide⟩).val :=
  (dot_S5000x128_S128x128_S5000x128_1_0_0_1_n_n).rhsIdx_val_of_single rfl i q
theorem d128_r1 (i : S5000x128.Idx) (q : (dot_S5000x128_S128x128_S5000x128_1_0_0_1_n_n).contr.Idx) : ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-! The matrix unit's 128-long contraction of a 5000×128 block with a 128×50 matrix uses the plain dimension numbers. -/
theorem d50_l0 (i : S5000x50.Idx) (q : (dot_S5000x128_S128x50_S5000x50_1_0_0_1_n_n).contr.Idx) : ((dot_S5000x128_S128x50_S5000x50_1_0_0_1_n_n).lhsIdx i q 0).val = (i 0).val := by
  unfold DotDims.lhsIdx
  rw [dif_neg (show ¬(0 : Fin S5000x128.rank) ∈ (dot_S5000x128_S128x50_S5000x50_1_0_0_1_n_n).lhsBatch by decide), dif_pos (show (0 : Fin S5000x128.rank) ∈ (dot_S5000x128_S128x50_S5000x50_1_0_0_1_n_n).lhsNonContracting by decide)]
  rfl
theorem d50_l1 (i : S5000x50.Idx) (q : (dot_S5000x128_S128x50_S5000x50_1_0_0_1_n_n).contr.Idx) : ((dot_S5000x128_S128x50_S5000x50_1_0_0_1_n_n).lhsIdx i q 1).val = (q ⟨0, by decide⟩).val :=
  (dot_S5000x128_S128x50_S5000x50_1_0_0_1_n_n).lhsIdx_val_of_single rfl i q
theorem d50_r0 (i : S5000x50.Idx) (q : (dot_S5000x128_S128x50_S5000x50_1_0_0_1_n_n).contr.Idx) : ((dot_S5000x128_S128x50_S5000x50_1_0_0_1_n_n).rhsIdx i q 0).val = (q ⟨0, by decide⟩).val :=
  (dot_S5000x128_S128x50_S5000x50_1_0_0_1_n_n).rhsIdx_val_of_single rfl i q
theorem d50_r1 (i : S5000x50.Idx) (q : (dot_S5000x128_S128x50_S5000x50_1_0_0_1_n_n).contr.Idx) : ((dot_S5000x128_S128x50_S5000x50_1_0_0_1_n_n).rhsIdx i q 1).val = (i 1).val := by
  unfold DotDims.rhsIdx
  rw [dif_neg (show ¬(1 : Fin S128x50.rank) ∈ (dot_S5000x128_S128x50_S5000x50_1_0_0_1_n_n).rhsBatch by decide), dif_pos (show (1 : Fin S128x50.rank) ∈ (dot_S5000x128_S128x50_S5000x50_1_0_0_1_n_n).rhsNonContracting by decide)]
  rfl

end Cert.KernelIdeal.LayerValue

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Projection1.lean ====
/-
  Layer 1's projection, as the array it leaves.

  The region multiplies the node features, 5000 rows at a time, by the whole 384×128 weight matrix on the matrix unit
  (both factors narrowed to bf16 first, which in exact arithmetic changes nothing), into a zero accumulator. Row `p` of
  block `t` is row `t · 5000 + p` of the array, and an entry of a matrix product reads only its own row of the left
  factor; so block `t` of the output is block `t` of the product of the WHOLE feature array with the weights. The
  twenty blocks tile the 100000 rows, hence the output array ends as that product, `Cert.LibDense.dense`.
-/
import proofs.«169812_j1915555414559_1_alg».proof.Proof.BlockFacts
import proofs.«169812_j1915555414559_1_alg».proof.Proof.LibPlainDot
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.LibDense

/-- The body's stored value at an entry of the block: the sum over the contracted coordinate. -/
theorem proj1_entry (x0 : Vec Ideal S5000x384 .f32) (x1 : Vec Ideal S384x128 .f32) (p : Fin 5000) (q : Fin 128) :
    k0_pay1 (F := Ideal) x0 x1 (ix2 p q) = dense (R := 5000) (K := 384) (C := 128) x0 x1 (ix2 p q) := by
  unfold k0_pay1
  exact Cert.LibPlainDot.matmul_zero_plain (R := 5000) (K := 384) (C := 128) dot_S5000x384_S384x128_S5000x128_1_0_0_1_n_n rfl rfl d384_l0 d384_l1 d384_r0 d384_r1 none _ _ p q

/-- An entry of a block of rows is the whole product's entry at the block's row in the array. -/
theorem proj1_row (X : S100000x384.Idx → EReal) (Wt : S384x128.Idx → EReal)
    (x0 : Vec Ideal S5000x384 .f32) (x1 : Vec Ideal S384x128 .f32) (p : Fin 5000) (q : Fin 128) (p' : Fin 100000)
    (hx : ∀ a : Fin 384, x0 (ix2 p a) = X (ix2 p' a)) (hw : x1 = Wt) :
    k0_pay1 (F := Ideal) x0 x1 (ix2 p q) = dense (R := 100000) (K := 384) (C := 128) X Wt (ix2 p' q) := by
  subst hw
  rw [proj1_entry]
  exact dense_congr_row x0 X x1 p p' q hx

section
variable (V : (c : Dev nD) → (b : Ref sig .tc) → Buf (Elt Ideal) ((c : Thread nD τ).loc b))

/-- The printed index maps over the grid: the feature and output windows move one block of rows per point, the
    weight window stays. -/
theorem proj1_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where an entry of output block `t` sits in the array: row `t · 5000 + p`, the same column. -/
theorem proj1_place (t : Fin cfg0.N) (p : Fin 5000) (q : Fin 128) (hp : t.val * 5000 + p.val < 100000) :
    ((cfg0.win 2).blk t).view.emb (ix2 p q) = ix2 (⟨t.val * 5000 + p.val, hp⟩ : Fin 100000) q := by
  obtain ⟨-, -, -, -, e20, e21⟩ := proj1_maps t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- The feature window's block at point `t` holds rows `t · 5000 …` of the feature array. -/
theorem proj1_features (c : Dev nD) (t : Fin cfg0.N) (p : Fin 5000) (a : Fin 384) (hp : t.val * 5000 + p.val < 100000) :
    iblk0 V c 0 t (ix2 p a) = V c (Pipeline.arrRef spec0 0) (ix2 (⟨t.val * 5000 + p.val, hp⟩ : Fin 100000) a) := by
  obtain ⟨e00, e01, -, -, -, -⟩ := proj1_maps t
  show V c (Pipeline.arrRef spec0 0) (((cfg0.win 0).blk t).view.emb (ix2 p a)) = _
  refine congrArg _ (funext fun ax => Fin.ext ?_)
  match ax with
  | ⟨0, _⟩ => show win0_0.index t (0 : Fin 2) * 5000 + 1 * p.val = t.val * 5000 + p.val; omega
  | ⟨1, _⟩ => show win0_0.index t (1 : Fin 2) * 384 + 1 * a.val = a.val; omega

/-- The weight window's block is the whole weight matrix at every point. -/
theorem proj1_weights (c : Dev nD) (t : Fin cfg0.N) : iblk0 V c 1 t = V c (Pipeline.arrRef spec0 1) := by
  obtain ⟨-, -, e10, e11, -, -⟩ := proj1_maps t
  funext y
  show V c (Pipeline.arrRef spec0 1) (((cfg0.win 1).blk t).view.emb y) = V c (Pipeline.arrRef spec0 1) y
  refine congrArg _ (funext fun ax => Fin.ext ?_)
  match ax with
  | ⟨0, _⟩ => show win0_1.index t (0 : Fin 2) * 384 + 1 * (y 0).val = (y 0).val; omega
  | ⟨1, _⟩ => show win0_1.index t (1 : Fin 2) * 128 + 1 * (y 1).val = (y 1).val; omega

set_option maxHeartbeats 800000 in
/-- What point `t` writes back is block `t` of the product of the arrays the region finds. -/
theorem proj1_block (c : Dev nD) (t : Fin cfg0.N) :
    (dat0 V c).flushed 2 t = ((cfg0.win 2).blk t).view.read (Elt Ideal)
      (dense (R := 100000) (K := 384) (C := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S5000x384) hz2, View.ld_unit_zero (S := S384x128) hz2]
  have hN : grid0.N = 20 := Gen.N_0
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k0_pay1 (F := Ideal) (iblk0 V c 0 t) (iblk0 V c 1 t) (ix2 p q)
    = dense (R := 100000) (K := 384) (C := 128) (V c (Pipeline.arrRef spec0 0)) (V c (Pipeline.arrRef spec0 1)) (((cfg0.win 2).blk t).view.emb (ix2 p q))
  rw [proj1_place t p q hp]
  exact proj1_row _ _ _ _ p q _ (fun a => proj1_features V c t p a hp) (proj1_weights V c t)

/-- An index of the output array is in point `t`'s block iff each coordinate is in the block's range on its axis. -/
theorem proj1_mem (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every index of the output array lies in the block of the point its row divided by 5000 names. -/
theorem proj1_cover (i : S100000x128.Idx) : ∃ t : Fin cfg0.N, (cfg0.win 2).flush t = true ∧ i ∈ ((cfg0.win 2).blk t).view.set := by
  have hN : grid0.N = 20 := Gen.N_0
  have hi0 : (i 0).val < 100000 := (i 0).isLt
  have hi1 : (i 1).val < 128 := (i 1).isLt
  have hlt : (i 0).val / 5000 < grid0.N := by omega
  obtain ⟨-, -, -, -, e20, e21⟩ := proj1_maps ⟨(i 0).val / 5000, hlt⟩
  refine ⟨⟨(i 0).val / 5000, hlt⟩, flush0_2 _, ?_⟩
  rw [proj1_mem]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    have e : win0_2.index ⟨(i 0).val / 5000, hlt⟩ (0 : Fin 2) = (i 0).val / 5000 := e20
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- THE OUTPUT ARRAY after the region: the product of the feature array with the weight matrix, as the region found them. -/
theorem proj1_array (c : Dev nD) : (dat0 V c).arrAt 2 cfg0.N
    = dense (R := 100000) (K := 384) (C := 128) (V c (Pipeline.arrRef spec0 0)) (V c (Pipeline.arrRef spec0 1)) :=
  (dat0 V c).arrAt_eq_of_cover 2 _ (fun t _ => proj1_block V c t) proj1_cover

end

end Cert.KernelIdeal.LayerValue

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.Combine1.lean ====
/-
  Layer 1's combination, as the array it leaves.

  The region adds, 5000 rows at a time, the aggregated neighbour messages, the node's own projected features weighted by
  its self-loop coefficient (a column, repeated along the channels) and the bias (a vector, repeated along the rows),
  and clamps the sum below at zero. Every operation is entry by entry, and the entry at row `p` of block `t` reads row
  `t · 5000 + p` of each array operand; so block `t` of the output is block `t` of `Cert.GcnSpec.combineRelu` of the WHOLE
  arrays. The twenty blocks tile the 100000 rows, hence the output array ends as that function of the arrays the region found.
-/
import proofs.«169812_j1915555414559_1_alg».proof.Proof.BlockFacts
import proofs.«169812_j1915555414559_1_alg».proof.Proof.LibLayout
import proofs.«169812_j1915555414559_1_alg».proof.Proof.LibVectorReads
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.GcnSpec

/-- The body's stored value at an entry of the block. -/
theorem comb1_entry (v0 : Vec Ideal S128 .f32) (v2 v4 : Vec Ideal S5000x128 .f32) (v6 : Vec Ideal S5000x1 .f32) (p : Fin 5000) (q : Fin 128) :
    k1_pay1 (F := Ideal) v0 v2 v4 v6 (ix2 p q) = combineRelu (R := 5000) (N := 128) v2 v4 v6 v0 (ix2 p q) := by
  unfold k1_pay1
  rw [combineRelu_ix2]
  simp only [maximumf_apply, addf_apply, mulf_apply, broadcast_apply, shapeCast_self]
  rw [Cert.LibLayout.broadcastTo_a1_ab_apply, Cert.LibVectorReads.bias_rows_apply]
  rfl

/-- An entry of a block of rows is the whole arrays' entry at the block's row in the array. -/
theorem comb1_row (A H : S100000x128.Idx → EReal) (S : S100000x1.Idx → EReal) (B : S128.Idx → EReal)
    (x0 x1 : Vec Ideal S5000x128 .f32) (x2 : Vec Ideal S5000x1 .f32) (x3 : Vec Ideal S128 .f32)
    (p : Fin 5000) (q : Fin 128) (p' : Fin 100000)
    (ha : x0 (ix2 p q) = A (ix2 p' q)) (hh : x1 (ix2 p q) = H (ix2 p' q))
    (hs : x2 (ix2 p (0 : Fin 1)) = S (ix2 p' (0 : Fin 1))) (hb : x3 = B) :
    k1_pay1 (F := Ideal) x3 x0 x1 x2 (ix2 p q) = combineRelu (R := 100000) (N := 128) A H S B (ix2 p' q) := by
  subst hb
  rw [comb1_entry]
  exact combineRelu_congr_row x0 x1 x2 A H S x3 p p' q ha hh hs

section
variable (V : (c : Dev nD) → (b : Ref sig .tc) → Buf (Elt Ideal) ((c : Thread nD τ).loc b))

/-- The printed index maps over the grid: the three row-blocked operands and the output move one block of rows per
    point, the bias window stays. -/
theorem comb1_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Where an entry of output block `t` sits in the array: row `t · 5000 + p`, the same column. -/
theorem comb1_place (t : Fin cfg1.N) (p : Fin 5000) (q : Fin 128) (hp : t.val * 5000 + p.val < 100000) :
    ((cfg1.win 4).blk t).view.emb (ix2 p q) = ix2 (⟨t.val * 5000 + p.val, hp⟩ : Fin 100000) q := by
  have em := comb1_maps t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

/-- The aggregated-messages window's block at point `t` holds rows `t · 5000 …` of its array. -/
theorem comb1_rows0 (c : Dev nD) (t : Fin cfg1.N) (p : Fin 5000) (q : Fin 128) (hp : t.val * 5000 + p.val < 100000) :
    iblk1 V c 0 t (ix2 p q) = V c (Pipeline.arrRef spec1 0) (ix2 (⟨t.val * 5000 + p.val, hp⟩ : Fin 100000) q) := by
  have em := comb1_maps t
  show V c (Pipeline.arrRef spec1 0) (((cfg1.win 0).blk t).view.emb (ix2 p q)) = _
  refine congrArg _ (funext fun ax => Fin.ext ?_)
  match ax with
  | ⟨0, _⟩ => show win1_0.index t (0 : Fin 2) * 5000 + 1 * p.val = t.val * 5000 + p.val; omega
  | ⟨1, _⟩ => show win1_0.index t (1 : Fin 2) * 128 + 1 * q.val = q.val; omega

/-- The projected-features window's block at point `t` holds rows `t · 5000 …` of its array. -/
theorem comb1_rows1 (c : Dev nD) (t : Fin cfg1.N) (p : Fin 5000) (q : Fin 128) (hp : t.val * 5000 + p.val < 100000) :
    iblk1 V c 1 t (ix2 p q) = V c (Pipeline.arrRef spec1 1) (ix2 (⟨t.val * 5000 + p.val, hp⟩ : Fin 100000) q) := by
  have em := comb1_maps t
  show V c (Pipeline.arrRef spec1 1) (((cfg1.win 1).blk t).view.emb (ix2 p q)) = _
  refine congrArg _ (funext fun ax => Fin.ext ?_)
  match ax with
  | ⟨0, _⟩ => show win1_1.index t (0 : Fin 2) * 5000 + 1 * p.val = t.val * 5000 + p.val; omega
  | ⟨1, _⟩ => show win1_1.index t (1 : Fin 2) * 128 + 1 * q.val = q.val; omega

/-- The self-loop-coefficient window's block at point `t` holds rows `t · 5000 …` of its array. -/
theorem comb1_rows2 (c : Dev nD) (t : Fin cfg1.N) (p : Fin 5000) (q : Fin 1) (hp : t.val * 5000 + p.val < 100000) :
    iblk1 V c 2 t (ix2 p q) = V c (Pipeline.arrRef spec1 2) (ix2 (⟨t.val * 5000 + p.val, hp⟩ : Fin 100000) q) := by
  have em := comb1_maps t
  show V c (Pipeline.arrRef spec1 2) (((cfg1.win 2).blk t).view.emb (ix2 p q)) = _
  refine congrArg _ (funext fun ax => Fin.ext ?_)
  match ax with
  | ⟨0, _⟩ => show win1_2.index t (0 : Fin 2) * 5000 + 1 * p.val = t.val * 5000 + p.val; omega
  | ⟨1, _⟩ => show win1_2.index t (1 : Fin 2) * 1 + 1 * q.val = q.val; omega

/-- The bias window's block is the whole bias vector at every point. -/
theorem comb1_bias (c : Dev nD) (t : Fin cfg1.N) : iblk1 V c 3 t = V c (Pipeline.arrRef spec1 3) := by
  have em := comb1_maps t
  funext y
  show V c (Pipeline.arrRef spec1 3) (((cfg1.win 3).blk t).view.emb y) = V c (Pipeline.arrRef spec1 3) y
  refine congrArg _ (funext fun ax => Fin.ext ?_)
  match ax with
  | ⟨0, _⟩ => show win1_3.index t (0 : Fin 1) * 128 + 1 * (y 0).val = (y 0).val; omega

set_option maxHeartbeats 800000 in
/-- What point `t` writes back is block `t` of the combination of the arrays the region finds. -/
theorem comb1_block (c : Dev nD) (t : Fin cfg1.N) :
    (dat1 V c).flushed 4 t = ((cfg1.win 4).blk t).view.read (Elt Ideal)
      (combineRelu (R := 100000) (N := 128) (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S5000x1) hz2, View.ld_unit_zero (S := S128) hz1]
  have hN : grid1.N = 20 := Gen.N_1
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k1_pay1 (F := Ideal) (iblk1 V c 3 t) (iblk1 V c 0 t) (iblk1 V c 1 t) (iblk1 V c 2 t) (ix2 p q)
    = combineRelu (R := 100000) (N := 128) (V c (Pipeline.arrRef spec1 0)) (V c (Pipeline.arrRef spec1 1))
        (V c (Pipeline.arrRef spec1 2)) (V c (Pipeline.arrRef spec1 3)) (((cfg1.win 4).blk t).view.emb (ix2 p q))
  rw [comb1_place t p q hp]
  exact comb1_row _ _ _ _ _ _ _ _ p q _ (comb1_rows0 V c t p q hp) (comb1_rows1 V c t p q hp)
    (comb1_rows2 V c t p (0 : Fin 1) hp) (comb1_bias V c t)

/-- An index of the output array is in point `t`'s block iff each coordinate is in the block's range on its axis. -/
theorem comb1_mem (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every index of the output array lies in the block of the point its row divided by 5000 names. -/
theorem comb1_cover (i : S100000x128.Idx) : ∃ t : Fin cfg1.N, (cfg1.win 4).flush t = true ∧ i ∈ ((cfg1.win 4).blk t).view.set := by
  have hN : grid1.N = 20 := Gen.N_1
  have hi0 : (i 0).val < 100000 := (i 0).isLt
  have hi1 : (i 1).val < 128 := (i 1).isLt
  have hlt : (i 0).val / 5000 < grid1.N := by omega
  obtain ⟨-, -, -, -, -, -, -, e40, e41⟩ := comb1_maps ⟨(i 0).val / 5000, hlt⟩
  refine ⟨⟨(i 0).val / 5000, hlt⟩, flush1_4 _, ?_⟩
  rw [comb1_mem]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    have e : win1_4.index ⟨(i 0).val / 5000, hlt⟩ (0 : Fin 2) = (i 0).val / 5000 := e40
    omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    omega

/-- THE OUTPUT ARRAY after the region: the combination of the four arrays as the region found them. -/
theorem comb1_array (c : Dev nD) : (dat1 V c).arrAt 4 cfg1.N
    = combineRelu (R := 100000) (N := 128) (V c (Pipeline.arrRef spec1 0)) (V c (Pipeline.arrRef spec1 1))
        (V c (Pipeline.arrRef spec1 2)) (V c (Pipeline.arrRef spec1 3)) :=
  (dat1 V c).arrAt_eq_of_cover 4 _ (fun t _ => comb1_block V c t) comb1_cover

end

end Cert.KernelIdeal.LayerValue

end
-- ==== Proof.Projection2.lean ====
/-
  Layer 2's projection, as the array it leaves.

  The region multiplies the node features, 5000 rows at a time, by the whole 128×128 weight matrix on the matrix unit
  (both factors narrowed to bf16 first, which in exact arithmetic changes nothing), into a zero accumulator. Row `p` of
  block `t` is row `t · 5000 + p` of the array, and an entry of a matrix product reads only its own row of the left
  factor; so block `t` of the output is block `t` of the product of the WHOLE feature array with the weights. The
  twenty blocks tile the 100000 rows, hence the output array ends as that product, `Cert.LibDense.dense`.
-/
import proofs.«169812_j1915555414559_1_alg».proof.Proof.BlockFacts
import proofs.«169812_j1915555414559_1_alg».proof.Proof.LibPlainDot
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.LibDense

/-- The body's stored value at an entry of the block: the sum over the contracted coordinate. -/
theorem proj2_entry (x0 : Vec Ideal S5000x128 .f32) (x1 : Vec Ideal S128x128 .f32) (p : Fin 5000) (q : Fin 128) :
    k2_pay1 (F := Ideal) x0 x1 (ix2 p q) = dense (R := 5000) (K := 128) (C := 128) x0 x1 (ix2 p q) := by
  unfold k2_pay1
  rw [shapeCast_self]
  exact Cert.LibPlainDot.matmul_zero_plain (R := 5000) (K := 128) (C := 128) dot_S5000x128_S128x128_S5000x128_1_0_0_1_n_n rfl rfl d128_l0 d128_l1 d128_r0 d128_r1 none _ _ p q

/-- An entry of a block of rows is the whole product's entry at the block's row in the array. -/
theorem proj2_row (X : S100000x128.Idx → EReal) (Wt : S128x128.Idx → EReal)
    (x0 : Vec Ideal S5000x128 .f32) (x1 : Vec Ideal S128x128 .f32) (p : Fin 5000) (q : Fin 128) (p' : Fin 100000)
    (hx : ∀ a : Fin 128, x0 (ix2 p a) = X (ix2 p' a)) (hw : x1 = Wt) :
    k2_pay1 (F := Ideal) x0 x1 (ix2 p q) = dense (R := 100000) (K := 128) (C := 128) X Wt (ix2 p' q) := by
  subst hw
  rw [proj2_entry]
  exact dense_congr_row x0 X x1 p p' q hx

section
variable (V : (c : Dev nD) → (b : Ref sig .tc) → Buf (Elt Ideal) ((c : Thread nD τ).loc b))

/-- The printed index maps over the grid: the feature and output windows move one block of rows per point, the
    weight window stays. -/
theorem proj2_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Where an entry of output block `t` sits in the array: row `t · 5000 + p`, the same column. -/
theorem proj2_place (t : Fin cfg2.N) (p : Fin 5000) (q : Fin 128) (hp : t.val * 5000 + p.val < 100000) :
    ((cfg2.win 2).blk t).view.emb (ix2 p q) = ix2 (⟨t.val * 5000 + p.val, hp⟩ : Fin 100000) q := by
  obtain ⟨-, -, -, -, e20, e21⟩ := proj2_maps t
  funext a; apply Fin.ext
  match a with
  | ⟨0, _⟩ => show win2_2.index t (0 : Fin 2) * 5000 + 1 * p.val = t.val * 5000 + p.val; omega
  | ⟨1, _⟩ => show win2_2.index t (1 : Fin 2) * 128 + 1 * q.val = q.val; omega

/-- The feature window's block at point `t` holds rows `t · 5000 …` of the feature array. -/
theorem proj2_features (c : Dev nD) (t : Fin cfg2.N) (p : Fin 5000) (a : Fin 128) (hp : t.val * 5000 + p.val < 100000) :
    iblk2 V c 0 t (ix2 p a) = V c (Pipeline.arrRef spec2 0) (ix2 (⟨t.val * 5000 + p.val, hp⟩ : Fin 100000) a) := by
  obtain ⟨e00, e01, -, -, -, -⟩ := proj2_maps t
  show V c (Pipeline.arrRef spec2 0) (((cfg2.win 0).blk t).view.emb (ix2 p a)) = _
  refine congrArg _ (funext fun ax => Fin.ext ?_)
  match ax with
  | ⟨0, _⟩ => show win2_0.index t (0 : Fin 2) * 5000 + 1 * p.val = t.val * 5000 + p.val; omega
  | ⟨1, _⟩ => show win2_0.index t (1 : Fin 2) * 128 + 1 * a.val = a.val; omega

/-- The weight window's block is the whole weight matrix at every point. -/
theorem proj2_weights (c : Dev nD) (t : Fin cfg2.N) : iblk2 V c 1 t = V c (Pipeline.arrRef spec2 1) := by
  obtain ⟨-, -, e10, e11, -, -⟩ := proj2_maps t
  funext y
  show V c (Pipeline.arrRef spec2 1) (((cfg2.win 1).blk t).view.emb y) = V c (Pipeline.arrRef spec2 1) y
  refine congrArg _ (funext fun ax => Fin.ext ?_)
  match ax with
  | ⟨0, _⟩ => show win2_1.index t (0 : Fin 2) * 128 + 1 * (y 0).val = (y 0).val; omega
  | ⟨1, _⟩ => show win2_1.index t (1 : Fin 2) * 128 + 1 * (y 1).val = (y 1).val; omega

set_option maxHeartbeats 800000 in
/-- What point `t` writes back is block `t` of the product of the arrays the region finds. -/
theorem proj2_block (c : Dev nD) (t : Fin cfg2.N) :
    (dat2 V c).flushed 2 t = ((cfg2.win 2).blk t).view.read (Elt Ideal)
      (dense (R := 100000) (K := 128) (C := 128) (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  have hN : grid2.N = 20 := Gen.N_2
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k2_pay1 (F := Ideal) (iblk2 V c 0 t) (iblk2 V c 1 t) (ix2 p q)
    = dense (R := 100000) (K := 128) (C := 128) (V c (Pipeline.arrRef spec2 0)) (V c (Pipeline.arrRef spec2 1)) (((cfg2.win 2).blk t).view.emb (ix2 p q))
  rw [proj2_place t p q hp]
  exact proj2_row _ _ _ _ p q _ (fun a => proj2_features V c t p a hp) (proj2_weights V c t)

/-- An index of the output array is in point `t`'s block iff each coordinate is in the block's range on its axis. -/
theorem proj2_mem (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every index of the output array lies in the block of the point its row divided by 5000 names. -/
theorem proj2_cover (i : S100000x128.Idx) : ∃ t : Fin cfg2.N, (cfg2.win 2).flush t = true ∧ i ∈ ((cfg2.win 2).blk t).view.set := by
  have hN : grid2.N = 20 := Gen.N_2
  have hi0 : (i 0).val < 100000 := (i 0).isLt
  have hi1 : (i 1).val < 128 := (i 1).isLt
  have hlt : (i 0).val / 5000 < grid2.N := by omega
  obtain ⟨-, -, -, -, e20, e21⟩ := proj2_maps ⟨(i 0).val / 5000, hlt⟩
  refine ⟨⟨(i 0).val / 5000, hlt⟩, flush2_2 _, ?_⟩
  rw [proj2_mem]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    have e : win2_2.index ⟨(i 0).val / 5000, hlt⟩ (0 : Fin 2) = (i 0).val / 5000 := e20
    omega
  | ⟨1, _⟩ =>
    show win2_2.index ⟨(i 0).val / 5000, hlt⟩ (1 : Fin 2) * 128 ≤ (i 1).val ∧ (i 1).val < win2_2.index ⟨(i 0).val / 5000, hlt⟩ (1 : Fin 2) * 128 + 128
    omega

/-- THE OUTPUT ARRAY after the region: the product of the feature array with the weight matrix, as the region found them. -/
theorem proj2_array (c : Dev nD) : (dat2 V c).arrAt 2 cfg2.N
    = dense (R := 100000) (K := 128) (C := 128) (V c (Pipeline.arrRef spec2 0)) (V c (Pipeline.arrRef spec2 1)) :=
  (dat2 V c).arrAt_eq_of_cover 2 _ (fun t _ => proj2_block V c t) proj2_cover

end

end Cert.KernelIdeal.LayerValue

end
-- ==== Proof.Combine2.lean ====
/-
  Layer 2's combination, as the array it leaves.

  The region adds, 5000 rows at a time, the aggregated neighbour messages, the node's own projected features weighted by
  its self-loop coefficient (a column, repeated along the channels) and the bias (a vector, repeated along the rows),
  and clamps the sum below at zero. Every operation is entry by entry, and the entry at row `p` of block `t` reads row
  `t · 5000 + p` of each array operand; so block `t` of the output is block `t` of `Cert.GcnSpec.combineRelu` of the WHOLE
  arrays. The twenty blocks tile the 100000 rows, hence the output array ends as that function of the arrays the region found.
-/
import proofs.«169812_j1915555414559_1_alg».proof.Proof.BlockFacts
import proofs.«169812_j1915555414559_1_alg».proof.Proof.LibLayout
import proofs.«169812_j1915555414559_1_alg».proof.Proof.LibVectorReads
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.GcnSpec

/-- The body's stored value at an entry of the block. -/
theorem comb2_entry (v0 : Vec Ideal S128 .f32) (v2 v4 : Vec Ideal S5000x128 .f32) (v6 : Vec Ideal S5000x1 .f32) (p : Fin 5000) (q : Fin 128) :
    k3_pay1 (F := Ideal) v0 v2 v4 v6 (ix2 p q) = combineRelu (R := 5000) (N := 128) v2 v4 v6 v0 (ix2 p q) := by
  unfold k3_pay1
  rw [combineRelu_ix2]
  simp only [maximumf_apply, addf_apply, mulf_apply, broadcast_apply, shapeCast_self]
  rw [Cert.LibLayout.broadcastTo_a1_ab_apply, Cert.LibVectorReads.bias_rows_apply]
  rfl

/-- An entry of a block of rows is the whole arrays' entry at the block's row in the array. -/
theorem comb2_row (A H : S100000x128.Idx → EReal) (S : S100000x1.Idx → EReal) (B : S128.Idx → EReal)
    (x0 x1 : Vec Ideal S5000x128 .f32) (x2 : Vec Ideal S5000x1 .f32) (x3 : Vec Ideal S128 .f32)
    (p : Fin 5000) (q : Fin 128) (p' : Fin 100000)
    (ha : x0 (ix2 p q) = A (ix2 p' q)) (hh : x1 (ix2 p q) = H (ix2 p' q))
    (hs : x2 (ix2 p (0 : Fin 1)) = S (ix2 p' (0 : Fin 1))) (hb : x3 = B) :
    k3_pay1 (F := Ideal) x3 x0 x1 x2 (ix2 p q) = combineRelu (R := 100000) (N := 128) A H S B (ix2 p' q) := by
  subst hb
  rw [comb2_entry]
  exact combineRelu_congr_row x0 x1 x2 A H S x3 p p' q ha hh hs

section
variable (V : (c : Dev nD) → (b : Ref sig .tc) → Buf (Elt Ideal) ((c : Thread nD τ).loc b))

/-- The printed index maps over the grid: the three row-blocked operands and the output move one block of rows per
    point, the bias window stays. -/
theorem comb2_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Where an entry of output block `t` sits in the array: row `t · 5000 + p`, the same column. -/
theorem comb2_place (t : Fin cfg3.N) (p : Fin 5000) (q : Fin 128) (hp : t.val * 5000 + p.val < 100000) :
    ((cfg3.win 4).blk t).view.emb (ix2 p q) = ix2 (⟨t.val * 5000 + p.val, hp⟩ : Fin 100000) q := by
  have em := comb2_maps t
  funext a; apply Fin.ext
  match a with
  | ⟨0, _⟩ => show win3_4.index t (0 : Fin 2) * 5000 + 1 * p.val = t.val * 5000 + p.val; omega
  | ⟨1, _⟩ => show win3_4.index t (1 : Fin 2) * 128 + 1 * q.val = q.val; omega

/-- The aggregated-messages window's block at point `t` holds rows `t · 5000 …` of its array. -/
theorem comb2_rows0 (c : Dev nD) (t : Fin cfg3.N) (p : Fin 5000) (q : Fin 128) (hp : t.val * 5000 + p.val < 100000) :
    iblk3 V c 0 t (ix2 p q) = V c (Pipeline.arrRef spec3 0) (ix2 (⟨t.val * 5000 + p.val, hp⟩ : Fin 100000) q) := by
  have em := comb2_maps t
  show V c (Pipeline.arrRef spec3 0) (((cfg3.win 0).blk t).view.emb (ix2 p q)) = _
  refine congrArg _ (funext fun ax => Fin.ext ?_)
  match ax with
  | ⟨0, _⟩ => show win3_0.index t (0 : Fin 2) * 5000 + 1 * p.val = t.val * 5000 + p.val; omega
  | ⟨1, _⟩ => show win3_0.index t (1 : Fin 2) * 128 + 1 * q.val = q.val; omega

/-- The projected-features window's block at point `t` holds rows `t · 5000 …` of its array. -/
theorem comb2_rows1 (c : Dev nD) (t : Fin cfg3.N) (p : Fin 5000) (q : Fin 128) (hp : t.val * 5000 + p.val < 100000) :
    iblk3 V c 1 t (ix2 p q) = V c (Pipeline.arrRef spec3 1) (ix2 (⟨t.val * 5000 + p.val, hp⟩ : Fin 100000) q) := by
  have em := comb2_maps t
  show V c (Pipeline.arrRef spec3 1) (((cfg3.win 1).blk t).view.emb (ix2 p q)) = _
  refine congrArg _ (funext fun ax => Fin.ext ?_)
  match ax with
  | ⟨0, _⟩ => show win3_1.index t (0 : Fin 2) * 5000 + 1 * p.val = t.val * 5000 + p.val; omega
  | ⟨1, _⟩ => show win3_1.index t (1 : Fin 2) * 128 + 1 * q.val = q.val; omega

/-- The self-loop-coefficient window's block at point `t` holds rows `t · 5000 …` of its array. -/
theorem comb2_rows2 (c : Dev nD) (t : Fin cfg3.N) (p : Fin 5000) (q : Fin 1) (hp : t.val * 5000 + p.val < 100000) :
    iblk3 V c 2 t (ix2 p q) = V c (Pipeline.arrRef spec3 2) (ix2 (⟨t.val * 5000 + p.val, hp⟩ : Fin 100000) q) := by
  have em := comb2_maps t
  show V c (Pipeline.arrRef spec3 2) (((cfg3.win 2).blk t).view.emb (ix2 p q)) = _
  refine congrArg _ (funext fun ax => Fin.ext ?_)
  match ax with
  | ⟨0, _⟩ => show win3_2.index t (0 : Fin 2) * 5000 + 1 * p.val = t.val * 5000 + p.val; omega
  | ⟨1, _⟩ => show win3_2.index t (1 : Fin 2) * 1 + 1 * q.val = q.val; omega

/-- The bias window's block is the whole bias vector at every point. -/
theorem comb2_bias (c : Dev nD) (t : Fin cfg3.N) : iblk3 V c 3 t = V c (Pipeline.arrRef spec3 3) := by
  have em := comb2_maps t
  funext y
  show V c (Pipeline.arrRef spec3 3) (((cfg3.win 3).blk t).view.emb y) = V c (Pipeline.arrRef spec3 3) y
  refine congrArg _ (funext fun ax => Fin.ext ?_)
  match ax with
  | ⟨0, _⟩ => show win3_3.index t (0 : Fin 1) * 128 + 1 * (y 0).val = (y 0).val; omega

set_option maxHeartbeats 800000 in
/-- What point `t` writes back is block `t` of the combination of the arrays the region finds. -/
theorem comb2_block (c : Dev nD) (t : Fin cfg3.N) :
    (dat3 V c).flushed 4 t = ((cfg3.win 4).blk t).view.read (Elt Ideal)
      (combineRelu (R := 100000) (N := 128) (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S5000x1) hz2, View.ld_unit_zero (S := S128) hz1]
  have hN : grid3.N = 20 := Gen.N_3
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k3_pay1 (F := Ideal) (iblk3 V c 3 t) (iblk3 V c 0 t) (iblk3 V c 1 t) (iblk3 V c 2 t) (ix2 p q)
    = combineRelu (R := 100000) (N := 128) (V c (Pipeline.arrRef spec3 0)) (V c (Pipeline.arrRef spec3 1))
        (V c (Pipeline.arrRef spec3 2)) (V c (Pipeline.arrRef spec3 3)) (((cfg3.win 4).blk t).view.emb (ix2 p q))
  rw [comb2_place t p q hp]
  exact comb2_row _ _ _ _ _ _ _ _ p q _ (comb2_rows0 V c t p q hp) (comb2_rows1 V c t p q hp)
    (comb2_rows2 V c t p (0 : Fin 1) hp) (comb2_bias V c t)

/-- An index of the output array is in point `t`'s block iff each coordinate is in the block's range on its axis. -/
theorem comb2_mem (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v56).slice (win3_4.rect t)).set ↔ _
  rw [View.set_slice_whole, Rect.mem_set_unit]
  exact Iff.rfl

/-- Every index of the output array lies in the block of the point its row divided by 5000 names. -/
theorem comb2_cover (i : S100000x128.Idx) : ∃ t : Fin cfg3.N, (cfg3.win 4).flush t = true ∧ i ∈ ((cfg3.win 4).blk t).view.set := by
  have hN : grid3.N = 20 := Gen.N_3
  have hi0 : (i 0).val < 100000 := (i 0).isLt
  have hi1 : (i 1).val < 128 := (i 1).isLt
  have hlt : (i 0).val / 5000 < grid3.N := by omega
  obtain ⟨-, -, -, -, -, -, -, e40, e41⟩ := comb2_maps ⟨(i 0).val / 5000, hlt⟩
  refine ⟨⟨(i 0).val / 5000, hlt⟩, flush3_4 _, ?_⟩
  rw [comb2_mem]
  intro a
  match a with
  | ⟨0, _⟩ =>
    show win3_4.index ⟨(i 0).val / 5000, hlt⟩ (0 : Fin 2) * 5000 ≤ (i 0).val ∧ (i 0).val < win3_4.index ⟨(i 0).val / 5000, hlt⟩ (0 : Fin 2) * 5000 + 5000
    have e : win3_4.index ⟨(i 0).val / 5000, hlt⟩ (0 : Fin 2) = (i 0).val / 5000 := e40
    omega
  | ⟨1, _⟩ =>
    show win3_4.index ⟨(i 0).val / 5000, hlt⟩ (1 : Fin 2) * 128 ≤ (i 1).val ∧ (i 1).val < win3_4.index ⟨(i 0).val / 5000, hlt⟩ (1 : Fin 2) * 128 + 128
    omega

/-- THE OUTPUT ARRAY after the region: the combination of the four arrays as the region found them. -/
theorem comb2_array (c : Dev nD) : (dat3 V c).arrAt 4 cfg3.N
    = combineRelu (R := 100000) (N := 128) (V c (Pipeline.arrRef spec3 0)) (V c (Pipeline.arrRef spec3 1))
        (V c (Pipeline.arrRef spec3 2)) (V c (Pipeline.arrRef spec3 3)) :=
  (dat3 V c).arrAt_eq_of_cover 4 _ (fun t _ => comb2_block V c t) comb2_cover

end

end Cert.KernelIdeal.LayerValue

end
-- ==== Proof.Projection3.lean ====
/-
  Layer 3's projection, as the array it leaves.

  The region multiplies the node features, 5000 rows at a time, by the whole 128×128 weight matrix on the matrix unit
  (both factors narrowed to bf16 first, which in exact arithmetic changes nothing), into a zero accumulator. Row `p` of
  block `t` is row `t · 5000 + p` of the array, and an entry of a matrix product reads only its own row of the left
  factor; so block `t` of the output is block `t` of the product of the WHOLE feature array with the weights. The
  twenty blocks tile the 100000 rows, hence the output array ends as that product, `Cert.LibDense.dense`.
-/
import proofs.«169812_j1915555414559_1_alg».proof.Proof.BlockFacts
import proofs.«169812_j1915555414559_1_alg».proof.Proof.LibPlainDot
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.LibDense

/-- The body's stored value at an entry of the block: the sum over the contracted coordinate. -/
theorem proj3_entry (x0 : Vec Ideal S5000x128 .f32) (x1 : Vec Ideal S128x128 .f32) (p : Fin 5000) (q : Fin 128) :
    k4_pay1 (F := Ideal) x0 x1 (ix2 p q) = dense (R := 5000) (K := 128) (C := 128) x0 x1 (ix2 p q) := by
  unfold k4_pay1
  rw [shapeCast_self]
  exact Cert.LibPlainDot.matmul_zero_plain (R := 5000) (K := 128) (C := 128) dot_S5000x128_S128x128_S5000x128_1_0_0_1_n_n rfl rfl d128_l0 d128_l1 d128_r0 d128_r1 none _ _ p q

/-- An entry of a block of rows is the whole product's entry at the block's row in the array. -/
theorem proj3_row (X : S100000x128.Idx → EReal) (Wt : S128x128.Idx → EReal)
    (x0 : Vec Ideal S5000x128 .f32) (x1 : Vec Ideal S128x128 .f32) (p : Fin 5000) (q : Fin 128) (p' : Fin 100000)
    (hx : ∀ a : Fin 128, x0 (ix2 p a) = X (ix2 p' a)) (hw : x1 = Wt) :
    k4_pay1 (F := Ideal) x0 x1 (ix2 p q) = dense (R := 100000) (K := 128) (C := 128) X Wt (ix2 p' q) := by
  subst hw
  rw [proj3_entry]
  exact dense_congr_row x0 X x1 p p' q hx

section
variable (V : (c : Dev nD) → (b : Ref sig .tc) → Buf (Elt Ideal) ((c : Thread nD τ).loc b))

/-- The printed index maps over the grid: the feature and output windows move one block of rows per point, the
    weight window stays. -/
theorem proj3_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Where an entry of output block `t` sits in the array: row `t · 5000 + p`, the same column. -/
theorem proj3_place (t : Fin cfg4.N) (p : Fin 5000) (q : Fin 128) (hp : t.val * 5000 + p.val < 100000) :
    ((cfg4.win 2).blk t).view.emb (ix2 p q) = ix2 (⟨t.val * 5000 + p.val, hp⟩ : Fin 100000) q := by
  obtain ⟨-, -, -, -, e20, e21⟩ := proj3_maps t
  funext a; apply Fin.ext
  match a with
  | ⟨0, _⟩ => show win4_2.index t (0 : Fin 2) * 5000 + 1 * p.val = t.val * 5000 + p.val; omega
  | ⟨1, _⟩ => show win4_2.index t (1 : Fin 2) * 128 + 1 * q.val = q.val; omega

/-- The feature window's block at point `t` holds rows `t · 5000 …` of the feature array. -/
theorem proj3_features (c : Dev nD) (t : Fin cfg4.N) (p : Fin 5000) (a : Fin 128) (hp : t.val * 5000 + p.val < 100000) :
    iblk4 V c 0 t (ix2 p a) = V c (Pipeline.arrRef spec4 0) (ix2 (⟨t.val * 5000 + p.val, hp⟩ : Fin 100000) a) := by
  obtain ⟨e00, e01, -, -, -, -⟩ := proj3_maps t
  show V c (Pipeline.arrRef spec4 0) (((cfg4.win 0).blk t).view.emb (ix2 p a)) = _
  refine congrArg _ (funext fun ax => Fin.ext ?_)
  match ax with
  | ⟨0, _⟩ => show win4_0.index t (0 : Fin 2) * 5000 + 1 * p.val = t.val * 5000 + p.val; omega
  | ⟨1, _⟩ => show win4_0.index t (1 : Fin 2) * 128 + 1 * a.val = a.val; omega

/-- The weight window's block is the whole weight matrix at every point. -/
theorem proj3_weights (c : Dev nD) (t : Fin cfg4.N) : iblk4 V c 1 t = V c (Pipeline.arrRef spec4 1) := by
  obtain ⟨-, -, e10, e11, -, -⟩ := proj3_maps t
  funext y
  show V c (Pipeline.arrRef spec4 1) (((cfg4.win 1).blk t).view.emb y) = V c (Pipeline.arrRef spec4 1) y
  refine congrArg _ (funext fun ax => Fin.ext ?_)
  match ax with
  | ⟨0, _⟩ => show win4_1.index t (0 : Fin 2) * 128 + 1 * (y 0).val = (y 0).val; omega
  | ⟨1, _⟩ => show win4_1.index t (1 : Fin 2) * 128 + 1 * (y 1).val = (y 1).val; omega

set_option maxHeartbeats 800000 in
/-- What point `t` writes back is block `t` of the product of the arrays the region finds. -/
theorem proj3_block (c : Dev nD) (t : Fin cfg4.N) :
    (dat4 V c).flushed 2 t = ((cfg4.win 2).blk t).view.read (Elt Ideal)
      (dense (R := 100000) (K := 128) (C := 128) (V c (Pipeline.arrRef spec4 0)) (V c (Pipeline.arrRef spec4 1))) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S128x128) hz2]
  have hN : grid4.N = 20 := Gen.N_4
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k4_pay1 (F := Ideal) (iblk4 V c 0 t) (iblk4 V c 1 t) (ix2 p q)
    = dense (R := 100000) (K := 128) (C := 128) (V c (Pipeline.arrRef spec4 0)) (V c (Pipeline.arrRef spec4 1)) (((cfg4.win 2).blk t).view.emb (ix2 p q))
  rw [proj3_place t p q hp]
  exact proj3_row _ _ _ _ p q _ (fun a => proj3_features V c t p a hp) (proj3_weights V c t)

/-- An index of the output array is in point `t`'s block iff each coordinate is in the block's range on its axis. -/
theorem proj3_mem (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v57).slice (win4_2.rect t)).set ↔ _
  rw [View.set_slice_whole, Rect.mem_set_unit]
  exact Iff.rfl

/-- Every index of the output array lies in the block of the point its row divided by 5000 names. -/
theorem proj3_cover (i : S100000x128.Idx) : ∃ t : Fin cfg4.N, (cfg4.win 2).flush t = true ∧ i ∈ ((cfg4.win 2).blk t).view.set := by
  have hN : grid4.N = 20 := Gen.N_4
  have hi0 : (i 0).val < 100000 := (i 0).isLt
  have hi1 : (i 1).val < 128 := (i 1).isLt
  have hlt : (i 0).val / 5000 < grid4.N := by omega
  obtain ⟨-, -, -, -, e20, e21⟩ := proj3_maps ⟨(i 0).val / 5000, hlt⟩
  refine ⟨⟨(i 0).val / 5000, hlt⟩, flush4_2 _, ?_⟩
  rw [proj3_mem]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    have e : win4_2.index ⟨(i 0).val / 5000, hlt⟩ (0 : Fin 2) = (i 0).val / 5000 := e20
    omega
  | ⟨1, _⟩ =>
    show win4_2.index ⟨(i 0).val / 5000, hlt⟩ (1 : Fin 2) * 128 ≤ (i 1).val ∧ (i 1).val < win4_2.index ⟨(i 0).val / 5000, hlt⟩ (1 : Fin 2) * 128 + 128
    omega

/-- THE OUTPUT ARRAY after the region: the product of the feature array with the weight matrix, as the region found them. -/
theorem proj3_array (c : Dev nD) : (dat4 V c).arrAt 2 cfg4.N
    = dense (R := 100000) (K := 128) (C := 128) (V c (Pipeline.arrRef spec4 0)) (V c (Pipeline.arrRef spec4 1)) :=
  (dat4 V c).arrAt_eq_of_cover 2 _ (fun t _ => proj3_block V c t) proj3_cover

end

end Cert.KernelIdeal.LayerValue

end
-- ==== Proof.Combine3.lean ====
/-
  Layer 3's combination, as the array it leaves.

  The region adds, 5000 rows at a time, the aggregated neighbour messages, the node's own projected features weighted by
  its self-loop coefficient (a column, repeated along the channels) and the bias (a vector, repeated along the rows),
  and clamps the sum below at zero. Every operation is entry by entry, and the entry at row `p` of block `t` reads row
  `t · 5000 + p` of each array operand; so block `t` of the output is block `t` of `Cert.GcnSpec.combineRelu` of the WHOLE
  arrays. The twenty blocks tile the 100000 rows, hence the output array ends as that function of the arrays the region found.
-/
import proofs.«169812_j1915555414559_1_alg».proof.Proof.BlockFacts
import proofs.«169812_j1915555414559_1_alg».proof.Proof.LibLayout
import proofs.«169812_j1915555414559_1_alg».proof.Proof.LibVectorReads
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.GcnSpec

/-- The body's stored value at an entry of the block. -/
theorem comb3_entry (v0 : Vec Ideal S128 .f32) (v2 v4 : Vec Ideal S5000x128 .f32) (v6 : Vec Ideal S5000x1 .f32) (p : Fin 5000) (q : Fin 128) :
    k5_pay1 (F := Ideal) v0 v2 v4 v6 (ix2 p q) = combineRelu (R := 5000) (N := 128) v2 v4 v6 v0 (ix2 p q) := by
  unfold k5_pay1
  rw [combineRelu_ix2]
  simp only [maximumf_apply, addf_apply, mulf_apply, broadcast_apply, shapeCast_self]
  rw [Cert.LibLayout.broadcastTo_a1_ab_apply, Cert.LibVectorReads.bias_rows_apply]
  rfl

/-- An entry of a block of rows is the whole arrays' entry at the block's row in the array. -/
theorem comb3_row (A H : S100000x128.Idx → EReal) (S : S100000x1.Idx → EReal) (B : S128.Idx → EReal)
    (x0 x1 : Vec Ideal S5000x128 .f32) (x2 : Vec Ideal S5000x1 .f32) (x3 : Vec Ideal S128 .f32)
    (p : Fin 5000) (q : Fin 128) (p' : Fin 100000)
    (ha : x0 (ix2 p q) = A (ix2 p' q)) (hh : x1 (ix2 p q) = H (ix2 p' q))
    (hs : x2 (ix2 p (0 : Fin 1)) = S (ix2 p' (0 : Fin 1))) (hb : x3 = B) :
    k5_pay1 (F := Ideal) x3 x0 x1 x2 (ix2 p q) = combineRelu (R := 100000) (N := 128) A H S B (ix2 p' q) := by
  subst hb
  rw [comb3_entry]
  exact combineRelu_congr_row x0 x1 x2 A H S x3 p p' q ha hh hs

section
variable (V : (c : Dev nD) → (b : Ref sig .tc) → Buf (Elt Ideal) ((c : Thread nD τ).loc b))

/-- The printed index maps over the grid: the three row-blocked operands and the output move one block of rows per
    point, the bias window stays. -/
theorem comb3_maps : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Where an entry of output block `t` sits in the array: row `t · 5000 + p`, the same column. -/
theorem comb3_place (t : Fin cfg5.N) (p : Fin 5000) (q : Fin 128) (hp : t.val * 5000 + p.val < 100000) :
    ((cfg5.win 4).blk t).view.emb (ix2 p q) = ix2 (⟨t.val * 5000 + p.val, hp⟩ : Fin 100000) q := by
  have em := comb3_maps t
  funext a; apply Fin.ext
  match a with
  | ⟨0, _⟩ => show win5_4.index t (0 : Fin 2) * 5000 + 1 * p.val = t.val * 5000 + p.val; omega
  | ⟨1, _⟩ => show win5_4.index t (1 : Fin 2) * 128 + 1 * q.val = q.val; omega

/-- The aggregated-messages window's block at point `t` holds rows `t · 5000 …` of its array. -/
theorem comb3_rows0 (c : Dev nD) (t : Fin cfg5.N) (p : Fin 5000) (q : Fin 128) (hp : t.val * 5000 + p.val < 100000) :
    iblk5 V c 0 t (ix2 p q) = V c (Pipeline.arrRef spec5 0) (ix2 (⟨t.val * 5000 + p.val, hp⟩ : Fin 100000) q) := by
  have em := comb3_maps t
  show V c (Pipeline.arrRef spec5 0) (((cfg5.win 0).blk t).view.emb (ix2 p q)) = _
  refine congrArg _ (funext fun ax => Fin.ext ?_)
  match ax with
  | ⟨0, _⟩ => show win5_0.index t (0 : Fin 2) * 5000 + 1 * p.val = t.val * 5000 + p.val; omega
  | ⟨1, _⟩ => show win5_0.index t (1 : Fin 2) * 128 + 1 * q.val = q.val; omega

/-- The projected-features window's block at point `t` holds rows `t · 5000 …` of its array. -/
theorem comb3_rows1 (c : Dev nD) (t : Fin cfg5.N) (p : Fin 5000) (q : Fin 128) (hp : t.val * 5000 + p.val < 100000) :
    iblk5 V c 1 t (ix2 p q) = V c (Pipeline.arrRef spec5 1) (ix2 (⟨t.val * 5000 + p.val, hp⟩ : Fin 100000) q) := by
  have em := comb3_maps t
  show V c (Pipeline.arrRef spec5 1) (((cfg5.win 1).blk t).view.emb (ix2 p q)) = _
  refine congrArg _ (funext fun ax => Fin.ext ?_)
  match ax with
  | ⟨0, _⟩ => show win5_1.index t (0 : Fin 2) * 5000 + 1 * p.val = t.val * 5000 + p.val; omega
  | ⟨1, _⟩ => show win5_1.index t (1 : Fin 2) * 128 + 1 * q.val = q.val; omega

/-- The self-loop-coefficient window's block at point `t` holds rows `t · 5000 …` of its array. -/
theorem comb3_rows2 (c : Dev nD) (t : Fin cfg5.N) (p : Fin 5000) (q : Fin 1) (hp : t.val * 5000 + p.val < 100000) :
    iblk5 V c 2 t (ix2 p q) = V c (Pipeline.arrRef spec5 2) (ix2 (⟨t.val * 5000 + p.val, hp⟩ : Fin 100000) q) := by
  have em := comb3_maps t
  show V c (Pipeline.arrRef spec5 2) (((cfg5.win 2).blk t).view.emb (ix2 p q)) = _
  refine congrArg _ (funext fun ax => Fin.ext ?_)
  match ax with
  | ⟨0, _⟩ => show win5_2.index t (0 : Fin 2) * 5000 + 1 * p.val = t.val * 5000 + p.val; omega
  | ⟨1, _⟩ => show win5_2.index t (1 : Fin 2) * 1 + 1 * q.val = q.val; omega

/-- The bias window's block is the whole bias vector at every point. -/
theorem comb3_bias (c : Dev nD) (t : Fin cfg5.N) : iblk5 V c 3 t = V c (Pipeline.arrRef spec5 3) := by
  have em := comb3_maps t
  funext y
  show V c (Pipeline.arrRef spec5 3) (((cfg5.win 3).blk t).view.emb y) = V c (Pipeline.arrRef spec5 3) y
  refine congrArg _ (funext fun ax => Fin.ext ?_)
  match ax with
  | ⟨0, _⟩ => show win5_3.index t (0 : Fin 1) * 128 + 1 * (y 0).val = (y 0).val; omega

set_option maxHeartbeats 800000 in
/-- What point `t` writes back is block `t` of the combination of the arrays the region finds. -/
theorem comb3_block (c : Dev nD) (t : Fin cfg5.N) :
    (dat5 V c).flushed 4 t = ((cfg5.win 4).blk t).view.read (Elt Ideal)
      (combineRelu (R := 100000) (N := 128) (V c (Pipeline.arrRef spec5 0)) (V c (Pipeline.arrRef spec5 1))
        (V c (Pipeline.arrRef spec5 2)) (V c (Pipeline.arrRef spec5 3))) := by
  show (cfg5.win 4).cut (grid5.coords t) ((dat5 V c).after 4 t) = _
  rw [after5_4]
  unfold out5_4
  rw [View.canon_unit_zero hz2]
  simp only [View.ld_unit_zero (S := S5000x128) hz2, View.ld_unit_zero (S := S5000x1) hz2, View.ld_unit_zero (S := S128) hz1]
  have hN : grid5.N = 20 := Gen.N_5
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k5_pay1 (F := Ideal) (iblk5 V c 3 t) (iblk5 V c 0 t) (iblk5 V c 1 t) (iblk5 V c 2 t) (ix2 p q)
    = combineRelu (R := 100000) (N := 128) (V c (Pipeline.arrRef spec5 0)) (V c (Pipeline.arrRef spec5 1))
        (V c (Pipeline.arrRef spec5 2)) (V c (Pipeline.arrRef spec5 3)) (((cfg5.win 4).blk t).view.emb (ix2 p q))
  rw [comb3_place t p q hp]
  exact comb3_row _ _ _ _ _ _ _ _ p q _ (comb3_rows0 V c t p q hp) (comb3_rows1 V c t p q hp)
    (comb3_rows2 V c t p (0 : Fin 1) hp) (comb3_bias V c t)

/-- An index of the output array is in point `t`'s block iff each coordinate is in the block's range on its axis. -/
theorem comb3_mem (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v70).slice (win5_4.rect t)).set ↔ _
  rw [View.set_slice_whole, Rect.mem_set_unit]
  exact Iff.rfl

/-- Every index of the output array lies in the block of the point its row divided by 5000 names. -/
theorem comb3_cover (i : S100000x128.Idx) : ∃ t : Fin cfg5.N, (cfg5.win 4).flush t = true ∧ i ∈ ((cfg5.win 4).blk t).view.set := by
  have hN : grid5.N = 20 := Gen.N_5
  have hi0 : (i 0).val < 100000 := (i 0).isLt
  have hi1 : (i 1).val < 128 := (i 1).isLt
  have hlt : (i 0).val / 5000 < grid5.N := by omega
  obtain ⟨-, -, -, -, -, -, -, e40, e41⟩ := comb3_maps ⟨(i 0).val / 5000, hlt⟩
  refine ⟨⟨(i 0).val / 5000, hlt⟩, flush5_4 _, ?_⟩
  rw [comb3_mem]
  intro a
  match a with
  | ⟨0, _⟩ =>
    show win5_4.index ⟨(i 0).val / 5000, hlt⟩ (0 : Fin 2) * 5000 ≤ (i 0).val ∧ (i 0).val < win5_4.index ⟨(i 0).val / 5000, hlt⟩ (0 : Fin 2) * 5000 + 5000
    have e : win5_4.index ⟨(i 0).val / 5000, hlt⟩ (0 : Fin 2) = (i 0).val / 5000 := e40
    omega
  | ⟨1, _⟩ =>
    show win5_4.index ⟨(i 0).val / 5000, hlt⟩ (1 : Fin 2) * 128 ≤ (i 1).val ∧ (i 1).val < win5_4.index ⟨(i 0).val / 5000, hlt⟩ (1 : Fin 2) * 128 + 128
    omega

/-- THE OUTPUT ARRAY after the region: the combination of the four arrays as the region found them. -/
theorem comb3_array (c : Dev nD) : (dat5 V c).arrAt 4 cfg5.N
    = combineRelu (R := 100000) (N := 128) (V c (Pipeline.arrRef spec5 0)) (V c (Pipeline.arrRef spec5 1))
        (V c (Pipeline.arrRef spec5 2)) (V c (Pipeline.arrRef spec5 3)) :=
  (dat5 V c).arrAt_eq_of_cover 4 _ (fun t _ => comb3_block V c t) comb3_cover

end

end Cert.KernelIdeal.LayerValue

end
-- ==== Proof.Projection4.lean ====
/-
  Layer 4's projection, as the array it leaves.

  The region multiplies the node features, 5000 rows at a time, by the whole 128×128 weight matrix on the matrix unit
  (both factors narrowed to bf16 first, which in exact arithmetic changes nothing), into a zero accumulator. Row `p` of
  block `t` is row `t · 5000 + p` of the array, and an entry of a matrix product reads only its own row of the left
  factor; so block `t` of the output is block `t` of the product of the WHOLE feature array with the weights. The
  twenty blocks tile the 100000 rows, hence the output array ends as that product, `Cert.LibDense.dense`.
-/
import proofs.«169812_j1915555414559_1_alg».proof.Proof.BlockFacts
import proofs.«169812_j1915555414559_1_alg».proof.Proof.LibPlainDot
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.LibDense

/-- The body's stored value at an entry of the block: the sum over the contracted coordinate. -/
theorem proj4_entry (x0 : Vec Ideal S5000x128 .f32) (x1 : Vec Ideal S128x128 .f32) (p : Fin 5000) (q : Fin 128) :
    k6_pay1 (F := Ideal) x0 x1 (ix2 p q) = dense (R := 5000) (K := 128) (C := 128) x0 x1 (ix2 p q) := by
  unfold k6_pay1
  rw [shapeCast_self]
  exact Cert.LibPlainDot.matmul_zero_plain (R := 5000) (K := 128) (C := 128) dot_S5000x128_S128x128_S5000x128_1_0_0_1_n_n rfl rfl d128_l0 d128_l1 d128_r0 d128_r1 none _ _ p q

/-- An entry of a block of rows is the whole product's entry at the block's row in the array. -/
theorem proj4_row (X : S100000x128.Idx → EReal) (Wt : S128x128.Idx → EReal)
    (x0 : Vec Ideal S5000x128 .f32) (x1 : Vec Ideal S128x128 .f32) (p : Fin 5000) (q : Fin 128) (p' : Fin 100000)
    (hx : ∀ a : Fin 128, x0 (ix2 p a) = X (ix2 p' a)) (hw : x1 = Wt) :
    k6_pay1 (F := Ideal) x0 x1 (ix2 p q) = dense (R := 100000) (K := 128) (C := 128) X Wt (ix2 p' q) := by
  subst hw
  rw [proj4_entry]
  exact dense_congr_row x0 X x1 p p' q hx

section
variable (V : (c : Dev nD) → (b : Ref sig .tc) → Buf (Elt Ideal) ((c : Thread nD τ).loc b))

/-- The printed index maps over the grid: the feature and output windows move one block of rows per point, the
    weight window stays. -/
theorem proj4_maps : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Where an entry of output block `t` sits in the array: row `t · 5000 + p`, the same column. -/
theorem proj4_place (t : Fin cfg6.N) (p : Fin 5000) (q : Fin 128) (hp : t.val * 5000 + p.val < 100000) :
    ((cfg6.win 2).blk t).view.emb (ix2 p q) = ix2 (⟨t.val * 5000 + p.val, hp⟩ : Fin 100000) q := by
  obtain ⟨-, -, -, -, e20, e21⟩ := proj4_maps t
  funext a; apply Fin.ext
  match a with
  | ⟨0, _⟩ => show win6_2.index t (0 : Fin 2) * 5000 + 1 * p.val = t.val * 5000 + p.val; omega
  | ⟨1, _⟩ => show win6_2.index t (1 : Fin 2) * 128 + 1 * q.val = q.val; omega

/-- The feature window's block at point `t` holds rows `t · 5000 …` of the feature array. -/
theorem proj4_features (c : Dev nD) (t : Fin cfg6.N) (p : Fin 5000) (a : Fin 128) (hp : t.val * 5000 + p.val < 100000) :
    iblk6 V c 0 t (ix2 p a) = V c (Pipeline.arrRef spec6 0) (ix2 (⟨t.val * 5000 + p.val, hp⟩ : Fin 100000) a) := by
  obtain ⟨e00, e01, -, -, -, -⟩ := proj4_maps t
  show V c (Pipeline.arrRef spec6 0) (((cfg6.win 0).blk t).view.emb (ix2 p a)) = _
  refine congrArg _ (funext fun ax => Fin.ext ?_)
  match ax with
  | ⟨0, _⟩ => show win6_0.index t (0 : Fin 2) * 5000 + 1 * p.val = t.val * 5000 + p.val; omega
  | ⟨1, _⟩ => show win6_0.index t (1 : Fin 2) * 128 + 1 * a.val = a.val; omega

/-- The weight window's block is the whole weight matrix at every point. -/
theorem proj4_weights (c : Dev nD) (t : Fin cfg6.N) : iblk6 V c 1 t = V c (Pipeline.arrRef spec6 1) := by
  obtain ⟨-, -, e10, e11, -, -⟩ := proj4_maps t
  funext y
  show V c (Pipeline.arrRef spec6 1) (((cfg6.win 1).blk t).view.emb y) = V c (Pipeline.arrRef spec6 1) y
  refine congrArg _ (funext fun ax => Fin.ext ?_)
  match ax with
  | ⟨0, _⟩ => show win6_1.index t (0 : Fin 2) * 128 + 1 * (y 0).val = (y 0).val; omega
  | ⟨1, _⟩ => show win6_1.index t (1 : Fin 2) * 128 + 1 * (y 1).val = (y 1).val; omega

set_option maxHeartbeats 800000 in
/-- What point `t` writes back is block `t` of the product of the arrays the region finds. -/
theorem proj4_block (c : Dev nD) (t : Fin cfg6.N) :
    (dat6 V c).flushed 2 t = ((cfg6.win 2).blk t).view.read (Elt Ideal)
      (dense (R := 100000) (K := 128) (C := 128) (V c (Pipeline.arrRef spec6 0)) (V c (Pipeline.arrRef spec6 1))) := by
  show (cfg6.win 2).cut (grid6.coords t) ((dat6 V c).after 2 t) = _
  rw [after6_2]
  unfold out6_2
  rw [View.canon_unit_zero hz2]
  simp only [View.ld_unit_zero (S := S5000x128) hz2, View.ld_unit_zero (S := S128x128) hz2]
  have hN : grid6.N = 20 := Gen.N_6
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k6_pay1 (F := Ideal) (iblk6 V c 0 t) (iblk6 V c 1 t) (ix2 p q)
    = dense (R := 100000) (K := 128) (C := 128) (V c (Pipeline.arrRef spec6 0)) (V c (Pipeline.arrRef spec6 1)) (((cfg6.win 2).blk t).view.emb (ix2 p q))
  rw [proj4_place t p q hp]
  exact proj4_row _ _ _ _ p q _ (fun a => proj4_features V c t p a hp) (proj4_weights V c t)

/-- An index of the output array is in point `t`'s block iff each coordinate is in the block's range on its axis. -/
theorem proj4_mem (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v71).slice (win6_2.rect t)).set ↔ _
  rw [View.set_slice_whole, Rect.mem_set_unit]
  exact Iff.rfl

/-- Every index of the output array lies in the block of the point its row divided by 5000 names. -/
theorem proj4_cover (i : S100000x128.Idx) : ∃ t : Fin cfg6.N, (cfg6.win 2).flush t = true ∧ i ∈ ((cfg6.win 2).blk t).view.set := by
  have hN : grid6.N = 20 := Gen.N_6
  have hi0 : (i 0).val < 100000 := (i 0).isLt
  have hi1 : (i 1).val < 128 := (i 1).isLt
  have hlt : (i 0).val / 5000 < grid6.N := by omega
  obtain ⟨-, -, -, -, e20, e21⟩ := proj4_maps ⟨(i 0).val / 5000, hlt⟩
  refine ⟨⟨(i 0).val / 5000, hlt⟩, flush6_2 _, ?_⟩
  rw [proj4_mem]
  intro a
  match a with
  | ⟨0, _⟩ =>
    show win6_2.index ⟨(i 0).val / 5000, hlt⟩ (0 : Fin 2) * 5000 ≤ (i 0).val ∧ (i 0).val < win6_2.index ⟨(i 0).val / 5000, hlt⟩ (0 : Fin 2) * 5000 + 5000
    have e : win6_2.index ⟨(i 0).val / 5000, hlt⟩ (0 : Fin 2) = (i 0).val / 5000 := e20
    omega
  | ⟨1, _⟩ =>
    show win6_2.index ⟨(i 0).val / 5000, hlt⟩ (1 : Fin 2) * 128 ≤ (i 1).val ∧ (i 1).val < win6_2.index ⟨(i 0).val / 5000, hlt⟩ (1 : Fin 2) * 128 + 128
    omega

/-- THE OUTPUT ARRAY after the region: the product of the feature array with the weight matrix, as the region found them. -/
theorem proj4_array (c : Dev nD) : (dat6 V c).arrAt 2 cfg6.N
    = dense (R := 100000) (K := 128) (C := 128) (V c (Pipeline.arrRef spec6 0)) (V c (Pipeline.arrRef spec6 1)) :=
  (dat6 V c).arrAt_eq_of_cover 2 _ (fun t _ => proj4_block V c t) proj4_cover

end

end Cert.KernelIdeal.LayerValue

end
-- ==== Proof.Combine4.lean ====
/-
  Layer 4's combination, as the array it leaves.

  The region adds, 5000 rows at a time, the aggregated neighbour messages, the node's own projected features weighted by
  its self-loop coefficient (a column, repeated along the channels) and the bias (a vector, repeated along the rows),
  and clamps the sum below at zero. Every operation is entry by entry, and the entry at row `p` of block `t` reads row
  `t · 5000 + p` of each array operand; so block `t` of the output is block `t` of `Cert.GcnSpec.combineRelu` of the WHOLE
  arrays. The twenty blocks tile the 100000 rows, hence the output array ends as that function of the arrays the region found.
-/
import proofs.«169812_j1915555414559_1_alg».proof.Proof.BlockFacts
import proofs.«169812_j1915555414559_1_alg».proof.Proof.LibLayout
import proofs.«169812_j1915555414559_1_alg».proof.Proof.LibVectorReads
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.GcnSpec

/-- The body's stored value at an entry of the block. -/
theorem comb4_entry (v0 : Vec Ideal S128 .f32) (v2 v4 : Vec Ideal S5000x128 .f32) (v6 : Vec Ideal S5000x1 .f32) (p : Fin 5000) (q : Fin 128) :
    k7_pay1 (F := Ideal) v0 v2 v4 v6 (ix2 p q) = combineRelu (R := 5000) (N := 128) v2 v4 v6 v0 (ix2 p q) := by
  unfold k7_pay1
  rw [combineRelu_ix2]
  simp only [maximumf_apply, addf_apply, mulf_apply, broadcast_apply, shapeCast_self]
  rw [Cert.LibLayout.broadcastTo_a1_ab_apply, Cert.LibVectorReads.bias_rows_apply]
  rfl

/-- An entry of a block of rows is the whole arrays' entry at the block's row in the array. -/
theorem comb4_row (A H : S100000x128.Idx → EReal) (S : S100000x1.Idx → EReal) (B : S128.Idx → EReal)
    (x0 x1 : Vec Ideal S5000x128 .f32) (x2 : Vec Ideal S5000x1 .f32) (x3 : Vec Ideal S128 .f32)
    (p : Fin 5000) (q : Fin 128) (p' : Fin 100000)
    (ha : x0 (ix2 p q) = A (ix2 p' q)) (hh : x1 (ix2 p q) = H (ix2 p' q))
    (hs : x2 (ix2 p (0 : Fin 1)) = S (ix2 p' (0 : Fin 1))) (hb : x3 = B) :
    k7_pay1 (F := Ideal) x3 x0 x1 x2 (ix2 p q) = combineRelu (R := 100000) (N := 128) A H S B (ix2 p' q) := by
  subst hb
  rw [comb4_entry]
  exact combineRelu_congr_row x0 x1 x2 A H S x3 p p' q ha hh hs

section
variable (V : (c : Dev nD) → (b : Ref sig .tc) → Buf (Elt Ideal) ((c : Thread nD τ).loc b))

/-- The printed index maps over the grid: the three row-blocked operands and the output move one block of rows per
    point, the bias window stays. -/
theorem comb4_maps : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 1) = 0
    ∧ win7_4.index t (0 : Fin 2) = t.val ∧ win7_4.index t (1 : Fin 2) = 0 :=
  (by decide +kernel : ∀ t : Fin grid7.N, _)

/-- Where an entry of output block `t` sits in the array: row `t · 5000 + p`, the same column. -/
theorem comb4_place (t : Fin cfg7.N) (p : Fin 5000) (q : Fin 128) (hp : t.val * 5000 + p.val < 100000) :
    ((cfg7.win 4).blk t).view.emb (ix2 p q) = ix2 (⟨t.val * 5000 + p.val, hp⟩ : Fin 100000) q := by
  have em := comb4_maps t
  funext a; apply Fin.ext
  match a with
  | ⟨0, _⟩ => show win7_4.index t (0 : Fin 2) * 5000 + 1 * p.val = t.val * 5000 + p.val; omega
  | ⟨1, _⟩ => show win7_4.index t (1 : Fin 2) * 128 + 1 * q.val = q.val; omega

/-- The aggregated-messages window's block at point `t` holds rows `t · 5000 …` of its array. -/
theorem comb4_rows0 (c : Dev nD) (t : Fin cfg7.N) (p : Fin 5000) (q : Fin 128) (hp : t.val * 5000 + p.val < 100000) :
    iblk7 V c 0 t (ix2 p q) = V c (Pipeline.arrRef spec7 0) (ix2 (⟨t.val * 5000 + p.val, hp⟩ : Fin 100000) q) := by
  have em := comb4_maps t
  show V c (Pipeline.arrRef spec7 0) (((cfg7.win 0).blk t).view.emb (ix2 p q)) = _
  refine congrArg _ (funext fun ax => Fin.ext ?_)
  match ax with
  | ⟨0, _⟩ => show win7_0.index t (0 : Fin 2) * 5000 + 1 * p.val = t.val * 5000 + p.val; omega
  | ⟨1, _⟩ => show win7_0.index t (1 : Fin 2) * 128 + 1 * q.val = q.val; omega

/-- The projected-features window's block at point `t` holds rows `t · 5000 …` of its array. -/
theorem comb4_rows1 (c : Dev nD) (t : Fin cfg7.N) (p : Fin 5000) (q : Fin 128) (hp : t.val * 5000 + p.val < 100000) :
    iblk7 V c 1 t (ix2 p q) = V c (Pipeline.arrRef spec7 1) (ix2 (⟨t.val * 5000 + p.val, hp⟩ : Fin 100000) q) := by
  have em := comb4_maps t
  show V c (Pipeline.arrRef spec7 1) (((cfg7.win 1).blk t).view.emb (ix2 p q)) = _
  refine congrArg _ (funext fun ax => Fin.ext ?_)
  match ax with
  | ⟨0, _⟩ => show win7_1.index t (0 : Fin 2) * 5000 + 1 * p.val = t.val * 5000 + p.val; omega
  | ⟨1, _⟩ => show win7_1.index t (1 : Fin 2) * 128 + 1 * q.val = q.val; omega

/-- The self-loop-coefficient window's block at point `t` holds rows `t · 5000 …` of its array. -/
theorem comb4_rows2 (c : Dev nD) (t : Fin cfg7.N) (p : Fin 5000) (q : Fin 1) (hp : t.val * 5000 + p.val < 100000) :
    iblk7 V c 2 t (ix2 p q) = V c (Pipeline.arrRef spec7 2) (ix2 (⟨t.val * 5000 + p.val, hp⟩ : Fin 100000) q) := by
  have em := comb4_maps t
  show V c (Pipeline.arrRef spec7 2) (((cfg7.win 2).blk t).view.emb (ix2 p q)) = _
  refine congrArg _ (funext fun ax => Fin.ext ?_)
  match ax with
  | ⟨0, _⟩ => show win7_2.index t (0 : Fin 2) * 5000 + 1 * p.val = t.val * 5000 + p.val; omega
  | ⟨1, _⟩ => show win7_2.index t (1 : Fin 2) * 1 + 1 * q.val = q.val; omega

/-- The bias window's block is the whole bias vector at every point. -/
theorem comb4_bias (c : Dev nD) (t : Fin cfg7.N) : iblk7 V c 3 t = V c (Pipeline.arrRef spec7 3) := by
  have em := comb4_maps t
  funext y
  show V c (Pipeline.arrRef spec7 3) (((cfg7.win 3).blk t).view.emb y) = V c (Pipeline.arrRef spec7 3) y
  refine congrArg _ (funext fun ax => Fin.ext ?_)
  match ax with
  | ⟨0, _⟩ => show win7_3.index t (0 : Fin 1) * 128 + 1 * (y 0).val = (y 0).val; omega

set_option maxHeartbeats 800000 in
/-- What point `t` writes back is block `t` of the combination of the arrays the region finds. -/
theorem comb4_block (c : Dev nD) (t : Fin cfg7.N) :
    (dat7 V c).flushed 4 t = ((cfg7.win 4).blk t).view.read (Elt Ideal)
      (combineRelu (R := 100000) (N := 128) (V c (Pipeline.arrRef spec7 0)) (V c (Pipeline.arrRef spec7 1))
        (V c (Pipeline.arrRef spec7 2)) (V c (Pipeline.arrRef spec7 3))) := by
  show (cfg7.win 4).cut (grid7.coords t) ((dat7 V c).after 4 t) = _
  rw [after7_4]
  unfold out7_4
  rw [View.canon_unit_zero hz2]
  simp only [View.ld_unit_zero (S := S5000x128) hz2, View.ld_unit_zero (S := S5000x1) hz2, View.ld_unit_zero (S := S128) hz1]
  have hN : grid7.N = 20 := Gen.N_7
  have ht : t.val < 20 := hN ▸ t.isLt
  funext j
  obtain ⟨p, q, rfl⟩ : ∃ (p : Fin 5000) (q : Fin 128), j = ix2 p q := ⟨j 0, j 1, eq_ix2 j⟩
  have hp : t.val * 5000 + p.val < 100000 := by have := p.isLt; omega
  show k7_pay1 (F := Ideal) (iblk7 V c 3 t) (iblk7 V c 0 t) (iblk7 V c 1 t) (iblk7 V c 2 t) (ix2 p q)
    = combineRelu (R := 100000) (N := 128) (V c (Pipeline.arrRef spec7 0)) (V c (Pipeline.arrRef spec7 1))
        (V c (Pipeline.arrRef spec7 2)) (V c (Pipeline.arrRef spec7 3)) (((cfg7.win 4).blk t).view.emb (ix2 p q))
  rw [comb4_place t p q hp]
  exact comb4_row _ _ _ _ _ _ _ _ p q _ (comb4_rows0 V c t p q hp) (comb4_rows1 V c t p q hp)
    (comb4_rows2 V c t p (0 : Fin 1) hp) (comb4_bias V c t)

/-- An index of the output array is in point `t`'s block iff each coordinate is in the block's range on its axis. -/
theorem comb4_mem (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v84).slice (win7_4.rect t)).set ↔ _
  rw [View.set_slice_whole, Rect.mem_set_unit]
  exact Iff.rfl

/-- Every index of the output array lies in the block of the point its row divided by 5000 names. -/
theorem comb4_cover (i : S100000x128.Idx) : ∃ t : Fin cfg7.N, (cfg7.win 4).flush t = true ∧ i ∈ ((cfg7.win 4).blk t).view.set := by
  have hN : grid7.N = 20 := Gen.N_7
  have hi0 : (i 0).val < 100000 := (i 0).isLt
  have hi1 : (i 1).val < 128 := (i 1).isLt
  have hlt : (i 0).val / 5000 < grid7.N := by omega
  obtain ⟨-, -, -, -, -, -, -, e40, e41⟩ := comb4_maps ⟨(i 0).val / 5000, hlt⟩
  refine ⟨⟨(i 0).val / 5000, hlt⟩, flush7_4 _, ?_⟩
  rw [comb4_mem]
  intro a
  match a with
  | ⟨0, _⟩ =>
    show win7_4.index ⟨(i 0).val / 5000, hlt⟩ (0 : Fin 2) * 5000 ≤ (i 0).val ∧ (i 0).val < win7_4.index ⟨(i 0).val / 5000, hlt⟩ (0 : Fin 2) * 5000 + 5000
    have e : win7_4.index ⟨(i 0).val / 5000, hlt⟩ (0 : Fin 2) = (i 0).val / 5000 := e40
    omega
  | ⟨1, _⟩ =>
    show win7_4.index ⟨(i 0).val / 5000, hlt⟩ (1 : Fin 2) * 128 ≤ (i 1).val ∧ (i 1).val < win7_4.index ⟨(i 0).val / 5000, hlt⟩ (1 : Fin 2) * 128 + 128
    omega

/-- THE OUTPUT ARRAY after the region: the combination of the four arrays as the region found them. -/
theorem comb4_array (c : Dev nD) : (dat7 V c).arrAt 4 cfg7.N
    = combineRelu (R := 100000) (N := 128) (V c (Pipeline.arrRef spec7 0)) (V c (Pipeline.arrRef spec7 1))
        (V c (Pipeline.arrRef spec7 2)) (V c (Pipeline.arrRef spec7 3)) :=
  (dat7 V c).arrAt_eq_of_cover 4 _ (fun t _ => comb4_block V c t) comb4_cover

end

end Cert.KernelIdeal.LayerValue

end
-- ==== Proof.Projection5.lean ====
/-
  Layer 5's projection, as the array it leaves.

  The region multiplies the node features, 5000 rows at a time, by the whole 128×50 weight matrix on the matrix unit
  (both factors narrowed to bf16 first, which in exact arithmetic changes nothing), into a zero accumulator. Row `p` of
  block `t` is row `t · 5000 + p` of the array, and an entry of a matrix product reads only its own row of the left
  factor; so block `t` of the output is block `t` of the product of the WHOLE feature array with the weights. The
  twenty blocks tile the 100000 rows, hence the output array ends as that product, `Cert.LibDense.dense`.
-/
import proofs.«169812_j1915555414559_1_alg».proof.Proof.BlockFacts
import proofs.«169812_j1915555414559_1_alg».proof.Proof.LibPlainDot
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.LibDense

/-- The body's stored value at an entry of the block: the sum over the contracted coordinate. -/
theorem proj5_entry (x0 : Vec Ideal S5000x128 .f32) (x1 : Vec Ideal S128x50 .f32) (p : Fin 5000) (q : Fin 50) :
    k8_pay1 (F := Ideal) x0 x1 (ix2 p q) = dense (R := 5000) (K := 128) (C := 50) x0 x1 (ix2 p q) := by
  unfold k8_pay1
  rw [shapeCast_self]
  exact Cert.LibPlainDot.matmul_zero_plain (R := 5000) (K := 128) (C := 50) dot_S5000x128_S128x50_S5000x50_1_0_0_1_n_n rfl rfl d50_l0 d50_l1 d50_r0 d50_r1 none _ _ p q

/-- An entry of a block of rows is the whole product's entry at the block's row in the array. -/
theorem proj5_row (X : S100000x128.Idx → EReal) (Wt : S128x50.Idx → EReal)
    (x0 : Vec Ideal S5000x128 .f32) (x1 : Vec Ideal S128x50 .f32) (p : Fin 5000) (q : Fin 50) (p' : Fin 100000)
    (hx : ∀ a : Fin 128, x0 (ix2 p a) = X (ix2 p' a)) (hw : x1 = Wt) :
    k8_pay1 (F := Ideal) x0 x1 (ix2 p q) = dense (R := 100000) (K := 128) (C := 50) X Wt (ix2 p' q) := by
  subst hw
  rw [proj5_entry]
  exact dense_congr_row x0 X x1 p p' q hx

section
variable (V : (c : Dev nD) → (b : Ref sig .tc) → Buf (Elt Ideal) ((c : Thread nD τ).loc b))

/-- The printed index maps over the grid: the feature and output windows move one block of rows per point, the
    weight window stays. -/
theorem proj5_maps : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Where an entry of output block `t` sits in the array: row `t · 5000 + p`, the same column. -/
theorem proj5_place (t : Fin cfg8.N) (p : Fin 5000) (q : Fin 50) (hp : t.val * 5000 + p.val < 100000) :
    ((cfg8.win 2).blk t).view.emb (ix2 p q) = ix2 (⟨t.val * 5000 + p.val, hp⟩ : Fin 100000) q := by
  obtain ⟨-, -, -, -, e20, e21⟩ := proj5_maps t
  funext a; apply Fin.ext
  match a with
  | ⟨0, _⟩ => show win8_2.index t (0 : Fin 2) * 5000 + 1 * p.val = t.val * 5000 + p.val; omega
  | ⟨1, _⟩ => show win8_2.index t (1 : Fin 2) * 50 + 1 * q.val = q.val; omega

/-- The feature window's block at point `t` holds rows `t · 5000 …` of the feature array. -/
theorem proj5_features (c : Dev nD) (t : Fin cfg8.N) (p : Fin 5000) (a : Fin 128) (hp : t.val * 5000 + p.val < 100000) :
    iblk8 V c 0 t (ix2 p a) = V c (Pipeline.arrRef spec8 0) (ix2 (⟨t.val * 5000 + p.val, hp⟩ : Fin 100000) a) := by
  obtain ⟨e00, e01, -, -, -, -⟩ := proj5_maps t
  show V c (Pipeline.arrRef spec8 0) (((cfg8.win 0).blk t).view.emb (ix2 p a)) = _
  refine congrArg _ (funext fun ax => Fin.ext ?_)
  match ax with
  | ⟨0, _⟩ => show win8_0.index t (0 : Fin 2) * 5000 + 1 * p.val = t.val * 5000 + p.val; omega
  | ⟨1, _⟩ => show win8_0.index t (1 : Fin 2) * 128 + 1 * a.val = a.val; omega

/-- The weight window's block is the whole weight matrix at every point. -/
theorem proj5_weights (c : Dev nD) (t : Fin cfg8.N) : iblk8 V c 1 t = V c (Pipeline.arrRef spec8 1) := by
  obtain ⟨-, -, e10, e11, -, -⟩ := proj5_maps t
  funext y
  show V c (Pipeline.arrRef spec8 1) (((cfg8.win 1).blk t).view.emb y) = V c (Pipeline.arrRef spec8 1) y
  refine congrArg _ (funext fun ax => Fin.ext ?_)
  match ax with
  | ⟨0, _⟩ => show win8_1.index t (0 : Fin 2) * 128 + 1 * (y 0).val = (y 0).val; omega
  | ⟨1, _⟩ => show win8_1.index t (1 : Fin 2) * 50 + 1 * (y 1).val = (y 1).val; omega

set_option maxHeartbeats 800000 in
/-- What point `t` writes back is block `t` of the product of the arrays the region finds. -/
theorem proj5_block (c : Dev nD) (t : Fin cfg8.N) :
    (dat8 V c).flushed 2 t = ((cfg8.win 2).blk t).view.read (Elt Ideal)
      (dense (R := 100000) (K := 128) (C := 50) (V c (Pipeline.arrRef spec8 0)) (V c (Pipeline.arrRef spec8 1))) := by
  show (cfg8.win 2).cut (grid8.coords t) ((dat8 V c).after 2 t) = _
  rw [after8_2]
  unfold out8_2
  rw [View.canon_unit_zero hz2]
  simp only [View.ld_unit_zero (S := S5000x128) hz2, View.ld_unit_zero (S := S128x50) hz2]
  have hN : grid8.N = 20 := Gen.N_8
  have ht : t.val < 20 := hN ▸ t.isLt
  funext j
  obtain ⟨p, q, rfl⟩ : ∃ (p : Fin 5000) (q : Fin 50), j = ix2 p q := ⟨j 0, j 1, eq_ix2 j⟩
  have hp : t.val * 5000 + p.val < 100000 := by have := p.isLt; omega
  show k8_pay1 (F := Ideal) (iblk8 V c 0 t) (iblk8 V c 1 t) (ix2 p q)
    = dense (R := 100000) (K := 128) (C := 50) (V c (Pipeline.arrRef spec8 0)) (V c (Pipeline.arrRef spec8 1)) (((cfg8.win 2).blk t).view.emb (ix2 p q))
  rw [proj5_place t p q hp]
  exact proj5_row _ _ _ _ p q _ (fun a => proj5_features V c t p a hp) (proj5_weights V c t)

/-- An index of the output array is in point `t`'s block iff each coordinate is in the block's range on its axis. -/
theorem proj5_mem (t : Fin cfg8.N) (i : S100000x50.Idx) :
    i ∈ ((cfg8.win 2).blk t).view.set ↔ ∀ a : Fin 2, win8_2.index t a * S5000x50.size a ≤ (i a).val ∧ (i a).val < win8_2.index t a * S5000x50.size a + S5000x50.size a := by
  show i ∈ ((View.whole main_v85).slice (win8_2.rect t)).set ↔ _
  rw [View.set_slice_whole, Rect.mem_set_unit]
  exact Iff.rfl

/-- Every index of the output array lies in the block of the point its row divided by 5000 names. -/
theorem proj5_cover (i : S100000x50.Idx) : ∃ t : Fin cfg8.N, (cfg8.win 2).flush t = true ∧ i ∈ ((cfg8.win 2).blk t).view.set := by
  have hN : grid8.N = 20 := Gen.N_8
  have hi0 : (i 0).val < 100000 := (i 0).isLt
  have hi1 : (i 1).val < 50 := (i 1).isLt
  have hlt : (i 0).val / 5000 < grid8.N := by omega
  obtain ⟨-, -, -, -, e20, e21⟩ := proj5_maps ⟨(i 0).val / 5000, hlt⟩
  refine ⟨⟨(i 0).val / 5000, hlt⟩, flush8_2 _, ?_⟩
  rw [proj5_mem]
  intro a
  match a with
  | ⟨0, _⟩ =>
    show win8_2.index ⟨(i 0).val / 5000, hlt⟩ (0 : Fin 2) * 5000 ≤ (i 0).val ∧ (i 0).val < win8_2.index ⟨(i 0).val / 5000, hlt⟩ (0 : Fin 2) * 5000 + 5000
    have e : win8_2.index ⟨(i 0).val / 5000, hlt⟩ (0 : Fin 2) = (i 0).val / 5000 := e20
    omega
  | ⟨1, _⟩ =>
    show win8_2.index ⟨(i 0).val / 5000, hlt⟩ (1 : Fin 2) * 50 ≤ (i 1).val ∧ (i 1).val < win8_2.index ⟨(i 0).val / 5000, hlt⟩ (1 : Fin 2) * 50 + 50
    omega

/-- THE OUTPUT ARRAY after the region: the product of the feature array with the weight matrix, as the region found them. -/
theorem proj5_array (c : Dev nD) : (dat8 V c).arrAt 2 cfg8.N
    = dense (R := 100000) (K := 128) (C := 50) (V c (Pipeline.arrRef spec8 0)) (V c (Pipeline.arrRef spec8 1)) :=
  (dat8 V c).arrAt_eq_of_cover 2 _ (fun t _ => proj5_block V c t) proj5_cover

end

end Cert.KernelIdeal.LayerValue

end
-- ==== Proof.Combine5.lean ====
/-
  Layer 5's combination, as the array it leaves.

  The region adds, 5000 rows at a time, the aggregated neighbour messages, the node's own projected features weighted by
  its self-loop coefficient (a column, repeated along the channels) and the bias (a vector, repeated along the rows). Every operation is entry by entry, and the entry at row `p` of block `t` reads row
  `t · 5000 + p` of each array operand; so block `t` of the output is block `t` of `Cert.GcnSpec.combine` of the WHOLE
  arrays. The twenty blocks tile the 100000 rows, hence the output array ends as that function of the arrays the region found.
-/
import proofs.«169812_j1915555414559_1_alg».proof.Proof.BlockFacts
import proofs.«169812_j1915555414559_1_alg».proof.Proof.LibLayout
import proofs.«169812_j1915555414559_1_alg».proof.Proof.LibVectorReads
import proofs.«169812_j1915555414559_1_alg».proof.Proof.Spec
import Idealize.ShloMosaic.Lib.Pipeline.Value
import Idealize.ShloMosaic.Lib.ValueIdx

set_option maxRecDepth 16384

noncomputable section

namespace Cert.KernelIdeal.LayerValue

open Cert.KernelIdeal Cert.KernelIdeal.Gen Idealize.ShloMosaic Idealize.ShloMosaic.ValueIdx Idealize.ShloMosaic.TcCoe
open Idealize.SL.Sem
open Cert.GcnSpec

/-- The body's stored value at an entry of the block. -/
theorem comb5_entry (v0 : Vec Ideal S50 .f32) (v2 v4 : Vec Ideal S5000x50 .f32) (v6 : Vec Ideal S5000x1 .f32) (p : Fin 5000) (q : Fin 50) :
    k9_pay1 (F := Ideal) v0 v2 v4 v6 (ix2 p q) = combine (R := 5000) (N := 50) v2 v4 v6 v0 (ix2 p q) := by
  unfold k9_pay1
  rw [combine_ix2]
  simp only [addf_apply, mulf_apply, shapeCast_self]
  rw [Cert.LibLayout.broadcastTo_a1_ab_apply, Cert.LibVectorReads.bias_rows_apply]

/-- An entry of a block of rows is the whole arrays' entry at the block's row in the array. -/
theorem comb5_row (A H : S100000x50.Idx → EReal) (S : S100000x1.Idx → EReal) (B : S50.Idx → EReal)
    (x0 x1 : Vec Ideal S5000x50 .f32) (x2 : Vec Ideal S5000x1 .f32) (x3 : Vec Ideal S50 .f32)
    (p : Fin 5000) (q : Fin 50) (p' : Fin 100000)
    (ha : x0 (ix2 p q) = A (ix2 p' q)) (hh : x1 (ix2 p q) = H (ix2 p' q))
    (hs : x2 (ix2 p (0 : Fin 1)) = S (ix2 p' (0 : Fin 1))) (hb : x3 = B) :
    k9_pay1 (F := Ideal) x3 x0 x1 x2 (ix2 p q) = combine (R := 100000) (N := 50) A H S B (ix2 p' q) := by
  subst hb
  rw [comb5_entry]
  exact combine_congr_row x0 x1 x2 A H S x3 p p' q ha hh hs

section
variable (V : (c : Dev nD) → (b : Ref sig .tc) → Buf (Elt Ideal) ((c : Thread nD τ).loc b))

/-- The printed index maps over the grid: the three row-blocked operands and the output move one block of rows per
    point, the bias window stays. -/
theorem comb5_maps : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 1) = 0
    ∧ win9_4.index t (0 : Fin 2) = t.val ∧ win9_4.index t (1 : Fin 2) = 0 :=
  (by decide +kernel : ∀ t : Fin grid9.N, _)

/-- Where an entry of output block `t` sits in the array: row `t · 5000 + p`, the same column. -/
theorem comb5_place (t : Fin cfg9.N) (p : Fin 5000) (q : Fin 50) (hp : t.val * 5000 + p.val < 100000) :
    ((cfg9.win 4).blk t).view.emb (ix2 p q) = ix2 (⟨t.val * 5000 + p.val, hp⟩ : Fin 100000) q := by
  have em := comb5_maps t
  funext a; apply Fin.ext
  match a with
  | ⟨0, _⟩ => show win9_4.index t (0 : Fin 2) * 5000 + 1 * p.val = t.val * 5000 + p.val; omega
  | ⟨1, _⟩ => show win9_4.index t (1 : Fin 2) * 50 + 1 * q.val = q.val; omega

/-- The aggregated-messages window's block at point `t` holds rows `t · 5000 …` of its array. -/
theorem comb5_rows0 (c : Dev nD) (t : Fin cfg9.N) (p : Fin 5000) (q : Fin 50) (hp : t.val * 5000 + p.val < 100000) :
    iblk9 V c 0 t (ix2 p q) = V c (Pipeline.arrRef spec9 0) (ix2 (⟨t.val * 5000 + p.val, hp⟩ : Fin 100000) q) := by
  have em := comb5_maps t
  show V c (Pipeline.arrRef spec9 0) (((cfg9.win 0).blk t).view.emb (ix2 p q)) = _
  refine congrArg _ (funext fun ax => Fin.ext ?_)
  match ax with
  | ⟨0, _⟩ => show win9_0.index t (0 : Fin 2) * 5000 + 1 * p.val = t.val * 5000 + p.val; omega
  | ⟨1, _⟩ => show win9_0.index t (1 : Fin 2) * 50 + 1 * q.val = q.val; omega

/-- The projected-features window's block at point `t` holds rows `t · 5000 …` of its array. -/
theorem comb5_rows1 (c : Dev nD) (t : Fin cfg9.N) (p : Fin 5000) (q : Fin 50) (hp : t.val * 5000 + p.val < 100000) :
    iblk9 V c 1 t (ix2 p q) = V c (Pipeline.arrRef spec9 1) (ix2 (⟨t.val * 5000 + p.val, hp⟩ : Fin 100000) q) := by
  have em := comb5_maps t
  show V c (Pipeline.arrRef spec9 1) (((cfg9.win 1).blk t).view.emb (ix2 p q)) = _
  refine congrArg _ (funext fun ax => Fin.ext ?_)
  match ax with
  | ⟨0, _⟩ => show win9_1.index t (0 : Fin 2) * 5000 + 1 * p.val = t.val * 5000 + p.val; omega
  | ⟨1, _⟩ => show win9_1.index t (1 : Fin 2) * 50 + 1 * q.val = q.val; omega

/-- The self-loop-coefficient window's block at point `t` holds rows `t · 5000 …` of its array. -/
theorem comb5_rows2 (c : Dev nD) (t : Fin cfg9.N) (p : Fin 5000) (q : Fin 1) (hp : t.val * 5000 + p.val < 100000) :
    iblk9 V c 2 t (ix2 p q) = V c (Pipeline.arrRef spec9 2) (ix2 (⟨t.val * 5000 + p.val, hp⟩ : Fin 100000) q) := by
  have em := comb5_maps t
  show V c (Pipeline.arrRef spec9 2) (((cfg9.win 2).blk t).view.emb (ix2 p q)) = _
  refine congrArg _ (funext fun ax => Fin.ext ?_)
  match ax with
  | ⟨0, _⟩ => show win9_2.index t (0 : Fin 2) * 5000 + 1 * p.val = t.val * 5000 + p.val; omega
  | ⟨1, _⟩ => show win9_2.index t (1 : Fin 2) * 1 + 1 * q.val = q.val; omega

/-- The bias window's block is the whole bias vector at every point. -/
theorem comb5_bias (c : Dev nD) (t : Fin cfg9.N) : iblk9 V c 3 t = V c (Pipeline.arrRef spec9 3) := by
  have em := comb5_maps t
  funext y
  show V c (Pipeline.arrRef spec9 3) (((cfg9.win 3).blk t).view.emb y) = V c (Pipeline.arrRef spec9 3) y
  refine congrArg _ (funext fun ax => Fin.ext ?_)
  match ax with
  | ⟨0, _⟩ => show win9_3.index t (0 : Fin 1) * 50 + 1 * (y 0).val = (y 0).val; omega

set_option maxHeartbeats 800000 in
/-- What point `t` writes back is block `t` of the combination of the arrays the region finds. -/
theorem comb5_block (c : Dev nD) (t : Fin cfg9.N) :
    (dat9 V c).flushed 4 t = ((cfg9.win 4).blk t).view.read (Elt Ideal)
      (combine (R := 100000) (N := 50) (V c (Pipeline.arrRef spec9 0)) (V c (Pipeline.arrRef spec9 1))
        (V c (Pipeline.arrRef spec9 2)) (V c (Pipeline.arrRef spec9 3))) := by
  show (cfg9.win 4).cut (grid9.coords t) ((dat9 V c).after 4 t) = _
  rw [after9_4]
  unfold out9_4
  rw [View.canon_unit_zero hz2]
  simp only [View.ld_unit_zero (S := S5000x50) hz2, View.ld_unit_zero (S := S5000x1) hz2, View.ld_unit_zero (S := S50) hz1]
  have hN : grid9.N = 20 := Gen.N_9
  have ht : t.val < 20 := hN ▸ t.isLt
  funext j
  obtain ⟨p, q, rfl⟩ : ∃ (p : Fin 5000) (q : Fin 50), j = ix2 p q := ⟨j 0, j 1, eq_ix2 j⟩
  have hp : t.val * 5000 + p.val < 100000 := by have := p.isLt; omega
  show k9_pay1 (F := Ideal) (iblk9 V c 3 t) (iblk9 V c 0 t) (iblk9 V c 1 t) (iblk9 V c 2 t) (ix2 p q)
    = combine (R := 100000) (N := 50) (V c (Pipeline.arrRef spec9 0)) (V c (Pipeline.arrRef spec9 1))
        (V c (Pipeline.arrRef spec9 2)) (V c (Pipeline.arrRef spec9 3)) (((cfg9.win 4).blk t).view.emb (ix2 p q))
  rw [comb5_place t p q hp]
  exact comb5_row _ _ _ _ _ _ _ _ p q _ (comb5_rows0 V c t p q hp) (comb5_rows1 V c t p q hp)
    (comb5_rows2 V c t p (0 : Fin 1) hp) (comb5_bias V c t)

/-- An index of the output array is in point `t`'s block iff each coordinate is in the block's range on its axis. -/
theorem comb5_mem (t : Fin cfg9.N) (i : S100000x50.Idx) :
    i ∈ ((cfg9.win 4).blk t).view.set ↔ ∀ a : Fin 2, win9_4.index t a * S5000x50.size a ≤ (i a).val ∧ (i a).val < win9_4.index t a * S5000x50.size a + S5000x50.size a := by
  show i ∈ ((View.whole main_v98).slice (win9_4.rect t)).set ↔ _
  rw [View.set_slice_whole, Rect.mem_set_unit]
  exact Iff.rfl

/-- Every index of the output array lies in the block of the point its row divided by 5000 names. -/
theorem comb5_cover (i : S100000x50.Idx) : ∃ t : Fin cfg9.N, (cfg9.win 4).flush t = true ∧ i ∈ ((cfg9.win 4).blk t).view.set := by
  have hN : grid9.N = 20 := Gen.N_9
  have hi0 : (i 0).val < 100000 := (i 0).isLt
  have hi1 : (i 1).val < 50 := (i 1).isLt
  have hlt : (i 0).val / 5000 < grid9.N := by omega
  obtain ⟨-, -, -, -, -, -, -, e40, e41⟩ := comb5_maps ⟨(i 0).val / 5000, hlt⟩
  refine ⟨⟨(i 0).val / 5000, hlt⟩, flush9_4 _, ?_⟩
  rw [comb5_mem]
  intro a
  match a with
  | ⟨0, _⟩ =>
    show win9_4.index ⟨(i 0).val / 5000, hlt⟩ (0 : Fin 2) * 5000 ≤ (i 0).val ∧ (i 0).val < win9_4.index ⟨(i 0).val / 5000, hlt⟩ (0 : Fin 2) * 5000 + 5000
    have e : win9_4.index ⟨(i 0).val / 5000, hlt⟩ (0 : Fin 2) = (i 0).val / 5000 := e40
    omega
  | ⟨1, _⟩ =>
    show win9_4.index ⟨(i 0).val / 5000, hlt⟩ (1 : Fin 2) * 50 ≤ (i 1).val ∧ (i 1).val < win9_4.index ⟨(i 0).val / 5000, hlt⟩ (1 : Fin 2) * 50 + 50
    omega

/-- THE OUTPUT ARRAY after the region: the combination of the four arrays as the region found them. -/
theorem comb5_array (c : Dev nD) : (dat9 V c).arrAt 4 cfg9.N
    = combine (R := 100000) (N := 50) (V c (Pipeline.arrRef spec9 0)) (V c (Pipeline.arrRef spec9 1))
        (V c (Pipeline.arrRef spec9 2)) (V c (Pipeline.arrRef spec9 3)) :=
  (dat9 V c).arrAt_eq_of_cover 4 _ (fun t _ => comb5_block V c t) comb5_cover

end

end Cert.KernelIdeal.LayerValue

end
-- ==== Proof.Chain.lean ====
/-
  The kernel program's result, as the reference's function of the launch arguments.

  Boundary by boundary: the first host stretch leaves the index vectors and the two coefficient columns the reference
  computes; each projection region leaves the matrix product of what the previous layer left (the node features, for
  the first) with the layer's weights; each aggregation stretch leaves the aggregated messages of that projection; each
  combination region leaves the layer's output. A buffer read several segments after it was written is carried
  across the segments in between, none of which writes it (`kept`). At the last boundary the result buffer holds the
  reference's result term of the launch arguments.
-/
import proofs.«169812_j1915555414559_1_alg».proof.Proof.Boundaries
import proofs.«169812_j1915555414559_1_alg».proof.Proof.HostStretches
import proofs.«169812_j1915555414559_1_alg».proof.Proof.Projection1
import proofs.«169812_j1915555414559_1_alg».proof.Proof.Combine1
import proofs.«169812_j1915555414559_1_alg».proof.Proof.Projection2
import proofs.«169812_j1915555414559_1_alg».proof.Proof.Combine2
import proofs.«169812_j1915555414559_1_alg».proof.Proof.Projection3
import proofs.«169812_j1915555414559_1_alg».proof.Proof.Combine3
import proofs.«169812_j1915555414559_1_alg».proof.Proof.Projection4
import proofs.«169812_j1915555414559_1_alg».proof.Proof.Combine4
import proofs.«169812_j1915555414559_1_alg».proof.Proof.Projection5
import proofs.«169812_j1915555414559_1_alg».proof.Proof.Combine5
import proofs.«169812_j1915555414559_1_alg».proof.Proof.ReferenceLayers

set_option maxRecDepth 16384

noncomputable section

namespace Cert.KernelIdeal.LayerValue

open Cert.KernelIdeal Cert.KernelIdeal.Gen Idealize.ShloMosaic Idealize.ShloMosaic.TcCoe
open Idealize.SL.Sem
open Cert.LibDense Cert.GcnSpec
open Cert.ReferenceIdeal.LayerValue (aggregate128 aggregate50)

/-! ## The region and stretch lemmas, with the entering contents named -/

section
variable (V : (c : Dev nD) → (b : Ref sig .tc) → Buf (Elt Ideal) ((c : Thread nD τ).loc b)) (c : Dev nD)

theorem proj1_array_of (X : S100000x384.Idx → EReal) (Wt : S384x128.Idx → EReal)
    (hX : V c (Pipeline.arrRef spec0 0) = X) (hW : V c (Pipeline.arrRef spec0 1) = Wt) :
    (dat0 V c).arrAt 2 cfg0.N = dense (R := 100000) (K := 384) (C := 128) X Wt := by
  subst hX hW; exact proj1_array V c

theorem comb1_array_of (A H : S100000x128.Idx → EReal) (S : S100000x1.Idx → EReal) (B : S128.Idx → EReal)
    (hA : V c (Pipeline.arrRef spec1 0) = A) (hH : V c (Pipeline.arrRef spec1 1) = H)
    (hS : V c (Pipeline.arrRef spec1 2) = S) (hB : V c (Pipeline.arrRef spec1 3) = B) :
    (dat1 V c).arrAt 4 cfg1.N = combineRelu (R := 100000) (N := 128) A H S B := by
  subst hA hH hS hB; exact comb1_array V c

theorem proj2_array_of (X : S100000x128.Idx → EReal) (Wt : S128x128.Idx → EReal)
    (hX : V c (Pipeline.arrRef spec2 0) = X) (hW : V c (Pipeline.arrRef spec2 1) = Wt) :
    (dat2 V c).arrAt 2 cfg2.N = dense (R := 100000) (K := 128) (C := 128) X Wt := by
  subst hX hW; exact proj2_array V c

theorem comb2_array_of (A H : S100000x128.Idx → EReal) (S : S100000x1.Idx → EReal) (B : S128.Idx → EReal)
    (hA : V c (Pipeline.arrRef spec3 0) = A) (hH : V c (Pipeline.arrRef spec3 1) = H)
    (hS : V c (Pipeline.arrRef spec3 2) = S) (hB : V c (Pipeline.arrRef spec3 3) = B) :
    (dat3 V c).arrAt 4 cfg3.N = combineRelu (R := 100000) (N := 128) A H S B := by
  subst hA hH hS hB; exact comb2_array V c

theorem proj3_array_of (X : S100000x128.Idx → EReal) (Wt : S128x128.Idx → EReal)
    (hX : V c (Pipeline.arrRef spec4 0) = X) (hW : V c (Pipeline.arrRef spec4 1) = Wt) :
    (dat4 V c).arrAt 2 cfg4.N = dense (R := 100000) (K := 128) (C := 128) X Wt := by
  subst hX hW; exact proj3_array V c

theorem comb3_array_of (A H : S100000x128.Idx → EReal) (S : S100000x1.Idx → EReal) (B : S128.Idx → EReal)
    (hA : V c (Pipeline.arrRef spec5 0) = A) (hH : V c (Pipeline.arrRef spec5 1) = H)
    (hS : V c (Pipeline.arrRef spec5 2) = S) (hB : V c (Pipeline.arrRef spec5 3) = B) :
    (dat5 V c).arrAt 4 cfg5.N = combineRelu (R := 100000) (N := 128) A H S B := by
  subst hA hH hS hB; exact comb3_array V c

theorem proj4_array_of (X : S100000x128.Idx → EReal) (Wt : S128x128.Idx → EReal)
    (hX : V c (Pipeline.arrRef spec6 0) = X) (hW : V c (Pipeline.arrRef spec6 1) = Wt) :
    (dat6 V c).arrAt 2 cfg6.N = dense (R := 100000) (K := 128) (C := 128) X Wt := by
  subst hX hW; exact proj4_array V c

theorem comb4_array_of (A H : S100000x128.Idx → EReal) (S : S100000x1.Idx → EReal) (B : S128.Idx → EReal)
    (hA : V c (Pipeline.arrRef spec7 0) = A) (hH : V c (Pipeline.arrRef spec7 1) = H)
    (hS : V c (Pipeline.arrRef spec7 2) = S) (hB : V c (Pipeline.arrRef spec7 3) = B) :
    (dat7 V c).arrAt 4 cfg7.N = combineRelu (R := 100000) (N := 128) A H S B := by
  subst hA hH hS hB; exact comb4_array V c

theorem proj5_array_of (X : S100000x128.Idx → EReal) (Wt : S128x50.Idx → EReal)
    (hX : V c (Pipeline.arrRef spec8 0) = X) (hW : V c (Pipeline.arrRef spec8 1) = Wt) :
    (dat8 V c).arrAt 2 cfg8.N = dense (R := 100000) (K := 128) (C := 50) X Wt := by
  subst hX hW; exact proj5_array V c

theorem comb5_array_of (A H : S100000x50.Idx → EReal) (S : S100000x1.Idx → EReal) (B : S50.Idx → EReal)
    (hA : V c (Pipeline.arrRef spec9 0) = A) (hH : V c (Pipeline.arrRef spec9 1) = H)
    (hS : V c (Pipeline.arrRef spec9 2) = S) (hB : V c (Pipeline.arrRef spec9 3) = B) :
    (dat9 V c).arrAt 4 cfg9.N = combine (R := 100000) (N := 50) A H S B := by
  subst hA hH hS hB; exact comb5_array V c

end

section
variable (W : Valuation τ sig (Elt Ideal))

theorem stretch1_agg_of (src dst : (⟨S1600000, .i32⟩ : BufTy).Contents (Elt Ideal)) (ncol : (⟨S1600000x1, .f32⟩ : BufTy).Contents (Elt Ideal)) (h : (⟨S100000x128, .f32⟩ : BufTy).Contents (Elt Ideal))
    (h1 : W (Proc.devRef .tc main_v1) = src) (h3 : W (Proc.devRef .tc main_v3) = dst) (h26 : W (Proc.devRef .tc main_v26) = ncol) (hh : W (Proc.devRef .tc main_v29) = h) :
    StableHlo.after (hostOps1 : List (HloOp τ sig (Elt Ideal))) W (Proc.devRef .tc main_v41) = aggregate128 src dst ncol h := by
  subst h1 h3 h26 hh; exact stretch1_agg W

theorem stretch2_agg_of (src dst : (⟨S1600000, .i32⟩ : BufTy).Contents (Elt Ideal)) (ncol : (⟨S1600000x1, .f32⟩ : BufTy).Contents (Elt Ideal)) (h : (⟨S100000x128, .f32⟩ : BufTy).Contents (Elt Ideal))
    (h1 : W (Proc.devRef .tc main_v1) = src) (h3 : W (Proc.devRef .tc main_v3) = dst) (h26 : W (Proc.devRef .tc main_v26) = ncol) (hh : W (Proc.devRef .tc main_v43) = h) :
    StableHlo.after (hostOps3 : List (HloOp τ sig (Elt Ideal))) W (Proc.devRef .tc main_v55) = aggregate128 src dst ncol h := by
  subst h1 h3 h26 hh; exact stretch2_agg W

theorem stretch3_agg_of (src dst : (⟨S1600000, .i32⟩ : BufTy).Contents (Elt Ideal)) (ncol : (⟨S1600000x1, .f32⟩ : BufTy).Contents (Elt Ideal)) (h : (⟨S100000x128, .f32⟩ : BufTy).Contents (Elt Ideal))
    (h1 : W (Proc.devRef .tc main_v1) = src) (h3 : W (Proc.devRef .tc main_v3) = dst) (h26 : W (Proc.devRef .tc main_v26) = ncol) (hh : W (Proc.devRef .tc main_v57) = h) :
    StableHlo.after (hostOps5 : List (HloOp τ sig (Elt Ideal))) W (Proc.devRef .tc main_v69) = aggregate128 src dst ncol h := by
  subst h1 h3 h26 hh; exact stretch3_agg W

theorem stretch4_agg_of (src dst : (⟨S1600000, .i32⟩ : BufTy).Contents (Elt Ideal)) (ncol : (⟨S1600000x1, .f32⟩ : BufTy).Contents (Elt Ideal)) (h : (⟨S100000x128, .f32⟩ : BufTy).Contents (Elt Ideal))
    (h1 : W (Proc.devRef .tc main_v1) = src) (h3 : W (Proc.devRef .tc main_v3) = dst) (h26 : W (Proc.devRef .tc main_v26) = ncol) (hh : W (Proc.devRef .tc main_v71) = h) :
    StableHlo.after (hostOps7 : List (HloOp τ sig (Elt Ideal))) W (Proc.devRef .tc main_v83) = aggregate128 src dst ncol h := by
  subst h1 h3 h26 hh; exact stretch4_agg W

theorem stretch5_agg_of (src dst : (⟨S1600000, .i32⟩ : BufTy).Contents (Elt Ideal)) (ncol : (⟨S1600000x1, .f32⟩ : BufTy).Contents (Elt Ideal)) (h : (⟨S100000x50, .f32⟩ : BufTy).Contents (Elt Ideal))
    (h1 : W (Proc.devRef .tc main_v1) = src) (h3 : W (Proc.devRef .tc main_v3) = dst) (h26 : W (Proc.devRef .tc main_v26) = ncol) (hh : W (Proc.devRef .tc main_v85) = h) :
    StableHlo.after (hostOps9 : List (HloOp τ sig (Elt Ideal))) W (Proc.devRef .tc main_v97) = aggregate50 src dst ncol h := by
  subst h1 h3 h26 hh; exact stretch5_agg W

end

/-! ## The chain -/

variable (m : (ℓ : Loc nD τ sig) → Buf (Elt Ideal) ℓ) (ρ : Dev nD → PrngReg) (c : Dev nD)

/-- An argument buffer holds its launch contents at every boundary: no segment writes it. -/
theorem arg_kept (k : Nat) (hk : k ≤ 16) (b : Ref sig .tc) (hb : ∀ i, i < k → b ∉ wr (0 + i + 1)) :
    bd m ρ c k (Proc.devRef .tc b) = m ((c : Thread nD τ).loc b) := by
  have e := kept m ρ c 0 k (by omega) b hb
  rw [Nat.zero_add] at e
  exact e

/-- After the first stretch: the source indices, the destination indices, the edge coefficients, the self-loop coefficients. -/
theorem src_value : bd m ρ c 1 (Proc.devRef .tc main_v1) = Cert.ReferenceIdeal.Read.val_main_v1 (F := Ideal) (m ((c : Thread nD τ).loc main_arg1)) := stretch0_src (W0 (F := Ideal) m ρ c)
theorem dst_value : bd m ρ c 1 (Proc.devRef .tc main_v3) = Cert.ReferenceIdeal.Read.val_main_v3 (F := Ideal) (m ((c : Thread nD τ).loc main_arg1)) := stretch0_dst (W0 (F := Ideal) m ρ c)
theorem edge_value : bd m ρ c 1 (Proc.devRef .tc main_v26) = Cert.ReferenceIdeal.Read.val_main_v34 (F := Ideal) (m ((c : Thread nD τ).loc main_arg1)) := stretch0_edge (W0 (F := Ideal) m ρ c)
theorem self_value : bd m ρ c 1 (Proc.devRef .tc main_v28) = Cert.ReferenceIdeal.Read.val_main_v41 (F := Ideal) (m ((c : Thread nD τ).loc main_arg1)) := stretch0_self (W0 (F := Ideal) m ρ c)

/-! ### Layer 1 -/

/-- The projection region leaves the product of the layer's input with its weights. -/
theorem proj1_value : bd m ρ c 2 (Proc.devRef .tc main_v29) = Cert.ReferenceIdeal.Read.val_main_v11 (F := Ideal) (m ((c : Thread nD τ).loc main_arg0)) (m ((c : Thread nD τ).loc main_arg2)) := by
  have hin : bd m ρ c 1 (Proc.devRef .tc main_arg0) = (m ((c : Thread nD τ).loc main_arg0)) := arg_kept m ρ c 1 (by omega) main_arg0 (by decide)
  have hw : bd m ρ c 1 (Proc.devRef .tc main_arg2) = (m ((c : Thread nD τ).loc main_arg2)) := arg_kept m ρ c 1 (by omega) main_arg2 (by decide)
  rw [Cert.ReferenceIdeal.LayerValue.dot1_eq]
  exact (W2_arr (F := Ideal) m ρ c 2).trans (proj1_array_of (V1 (F := Ideal) m ρ) c _ _ hin hw)

/-- The aggregation stretch leaves the aggregated messages of that projection. -/
theorem agg1_value : bd m ρ c 3 (Proc.devRef .tc main_v41) = Cert.ReferenceIdeal.Read.val_main_v39 (F := Ideal) (m ((c : Thread nD τ).loc main_arg0)) (m ((c : Thread nD τ).loc main_arg1)) (m ((c : Thread nD τ).loc main_arg2)) := by
  have h1 : bd m ρ c 2 (Proc.devRef .tc main_v1) = Cert.ReferenceIdeal.Read.val_main_v1 (F := Ideal) (m ((c : Thread nD τ).loc main_arg1)) :=
    (kept m ρ c 1 1 (by omega) main_v1 (by decide)).trans (src_value m ρ c)
  have h3 : bd m ρ c 2 (Proc.devRef .tc main_v3) = Cert.ReferenceIdeal.Read.val_main_v3 (F := Ideal) (m ((c : Thread nD τ).loc main_arg1)) :=
    (kept m ρ c 1 1 (by omega) main_v3 (by decide)).trans (dst_value m ρ c)
  have h26 : bd m ρ c 2 (Proc.devRef .tc main_v26) = Cert.ReferenceIdeal.Read.val_main_v34 (F := Ideal) (m ((c : Thread nD τ).loc main_arg1)) :=
    (kept m ρ c 1 1 (by omega) main_v26 (by decide)).trans (edge_value m ρ c)
  have hh : bd m ρ c 2 (Proc.devRef .tc main_v29) = Cert.ReferenceIdeal.Read.val_main_v11 (F := Ideal) (m ((c : Thread nD τ).loc main_arg0)) (m ((c : Thread nD τ).loc main_arg2)) := proj1_value m ρ c
  rw [Cert.ReferenceIdeal.LayerValue.agg1_eq]
  exact stretch1_agg_of (W2 (F := Ideal) m ρ c) _ _ _ _ h1 h3 h26 hh

/-- The combination region leaves the layer's output. -/
theorem comb1_value : bd m ρ c 4 (Proc.devRef .tc main_v42) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  have ha : bd m ρ c 3 (Proc.devRef .tc main_v41) = Cert.ReferenceIdeal.Read.val_main_v39 (F := Ideal) (m ((c : Thread nD τ).loc main_arg0)) (m ((c : Thread nD τ).loc main_arg1)) (m ((c : Thread nD τ).loc main_arg2)) := agg1_value m ρ c
  have hh : bd m ρ c 3 (Proc.devRef .tc main_v29) = Cert.ReferenceIdeal.Read.val_main_v11 (F := Ideal) (m ((c : Thread nD τ).loc main_arg0)) (m ((c : Thread nD τ).loc main_arg2)) :=
    (kept m ρ c 2 1 (by omega) main_v29 (by decide)).trans (proj1_value m ρ c)
  have hs : bd m ρ c 3 (Proc.devRef .tc main_v28) = Cert.ReferenceIdeal.Read.val_main_v41 (F := Ideal) (m ((c : Thread nD τ).loc main_arg1)) :=
    (kept m ρ c 1 2 (by omega) main_v28 (by decide)).trans (self_value m ρ c)
  have hb : bd m ρ c 3 (Proc.devRef .tc main_arg3) = (m ((c : Thread nD τ).loc main_arg3)) := arg_kept m ρ c 3 (by omega) main_arg3 (by decide)
  rw [Cert.ReferenceIdeal.LayerValue.out1_eq]
  exact (W4_arr (F := Ideal) m ρ c 4).trans (comb1_array_of (V3 (F := Ideal) m ρ) c _ _ _ _ ha hh hs hb)

/-! ### Layer 2 -/

/-- The projection region leaves the product of the layer's input with its weights. -/
theorem proj2_value : bd m ρ c 5 (Proc.devRef .tc main_v43) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hin : bd m ρ c 4 (Proc.devRef .tc main_v42) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := comb1_value m ρ c
  have hw : bd m ρ c 4 (Proc.devRef .tc main_arg4) = (m ((c : Thread nD τ).loc main_arg4)) := arg_kept m ρ c 4 (by omega) main_arg4 (by decide)
  rw [Cert.ReferenceIdeal.LayerValue.dot2_eq]
  exact (W5_arr (F := Ideal) m ρ c 2).trans (proj2_array_of (V4 (F := Ideal) m ρ) c _ _ hin hw)

/-- The aggregation stretch leaves the aggregated messages of that projection. -/
theorem agg2_value : bd m ρ c 6 (Proc.devRef .tc main_v55) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h1 : bd m ρ c 5 (Proc.devRef .tc main_v1) = Cert.ReferenceIdeal.Read.val_main_v1 (F := Ideal) (m ((c : Thread nD τ).loc main_arg1)) :=
    (kept m ρ c 1 4 (by omega) main_v1 (by decide)).trans (src_value m ρ c)
  have h3 : bd m ρ c 5 (Proc.devRef .tc main_v3) = Cert.ReferenceIdeal.Read.val_main_v3 (F := Ideal) (m ((c : Thread nD τ).loc main_arg1)) :=
    (kept m ρ c 1 4 (by omega) main_v3 (by decide)).trans (dst_value m ρ c)
  have h26 : bd m ρ c 5 (Proc.devRef .tc main_v26) = Cert.ReferenceIdeal.Read.val_main_v34 (F := Ideal) (m ((c : Thread nD τ).loc main_arg1)) :=
    (kept m ρ c 1 4 (by omega) main_v26 (by decide)).trans (edge_value m ρ c)
  have hh : bd m ρ c 5 (Proc.devRef .tc main_v43) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := proj2_value m ρ c
  rw [Cert.ReferenceIdeal.LayerValue.agg2_eq]
  exact stretch2_agg_of (W5 (F := Ideal) m ρ c) _ _ _ _ h1 h3 h26 hh

/-- The combination region leaves the layer's output. -/
theorem comb2_value : bd m ρ c 7 (Proc.devRef .tc main_v56) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have ha : bd m ρ c 6 (Proc.devRef .tc main_v55) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := agg2_value m ρ c
  have hh : bd m ρ c 6 (Proc.devRef .tc main_v43) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (kept m ρ c 5 1 (by omega) main_v43 (by decide)).trans (proj2_value m ρ c)
  have hs : bd m ρ c 6 (Proc.devRef .tc main_v28) = Cert.ReferenceIdeal.Read.val_main_v41 (F := Ideal) (m ((c : Thread nD τ).loc main_arg1)) :=
    (kept m ρ c 1 5 (by omega) main_v28 (by decide)).trans (self_value m ρ c)
  have hb : bd m ρ c 6 (Proc.devRef .tc main_arg5) = (m ((c : Thread nD τ).loc main_arg5)) := arg_kept m ρ c 6 (by omega) main_arg5 (by decide)
  rw [Cert.ReferenceIdeal.LayerValue.out2_eq]
  exact (W7_arr (F := Ideal) m ρ c 4).trans (comb2_array_of (V6 (F := Ideal) m ρ) c _ _ _ _ ha hh hs hb)

/-! ### Layer 3 -/

/-- The projection region leaves the product of the layer's input with its weights. -/
theorem proj3_value : bd m ρ c 8 (Proc.devRef .tc main_v57) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hin : bd m ρ c 7 (Proc.devRef .tc main_v56) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := comb2_value m ρ c
  have hw : bd m ρ c 7 (Proc.devRef .tc main_arg6) = (m ((c : Thread nD τ).loc main_arg6)) := arg_kept m ρ c 7 (by omega) main_arg6 (by decide)
  rw [Cert.ReferenceIdeal.LayerValue.dot3_eq]
  exact (W8_arr (F := Ideal) m ρ c 2).trans (proj3_array_of (V7 (F := Ideal) m ρ) c _ _ hin hw)

/-- The aggregation stretch leaves the aggregated messages of that projection. -/
theorem agg3_value : bd m ρ c 9 (Proc.devRef .tc main_v69) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h1 : bd m ρ c 8 (Proc.devRef .tc main_v1) = Cert.ReferenceIdeal.Read.val_main_v1 (F := Ideal) (m ((c : Thread nD τ).loc main_arg1)) :=
    (kept m ρ c 1 7 (by omega) main_v1 (by decide)).trans (src_value m ρ c)
  have h3 : bd m ρ c 8 (Proc.devRef .tc main_v3) = Cert.ReferenceIdeal.Read.val_main_v3 (F := Ideal) (m ((c : Thread nD τ).loc main_arg1)) :=
    (kept m ρ c 1 7 (by omega) main_v3 (by decide)).trans (dst_value m ρ c)
  have h26 : bd m ρ c 8 (Proc.devRef .tc main_v26) = Cert.ReferenceIdeal.Read.val_main_v34 (F := Ideal) (m ((c : Thread nD τ).loc main_arg1)) :=
    (kept m ρ c 1 7 (by omega) main_v26 (by decide)).trans (edge_value m ρ c)
  have hh : bd m ρ c 8 (Proc.devRef .tc main_v57) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := proj3_value m ρ c
  rw [Cert.ReferenceIdeal.LayerValue.agg3_eq]
  exact stretch3_agg_of (W8 (F := Ideal) m ρ c) _ _ _ _ h1 h3 h26 hh

/-- The combination region leaves the layer's output. -/
theorem comb3_value : bd m ρ c 10 (Proc.devRef .tc main_v70) = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have ha : bd m ρ c 9 (Proc.devRef .tc main_v69) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := agg3_value m ρ c
  have hh : bd m ρ c 9 (Proc.devRef .tc main_v57) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (kept m ρ c 8 1 (by omega) main_v57 (by decide)).trans (proj3_value m ρ c)
  have hs : bd m ρ c 9 (Proc.devRef .tc main_v28) = Cert.ReferenceIdeal.Read.val_main_v41 (F := Ideal) (m ((c : Thread nD τ).loc main_arg1)) :=
    (kept m ρ c 1 8 (by omega) main_v28 (by decide)).trans (self_value m ρ c)
  have hb : bd m ρ c 9 (Proc.devRef .tc main_arg7) = (m ((c : Thread nD τ).loc main_arg7)) := arg_kept m ρ c 9 (by omega) main_arg7 (by decide)
  rw [Cert.ReferenceIdeal.LayerValue.out3_eq]
  exact (W10_arr (F := Ideal) m ρ c 4).trans (comb3_array_of (V9 (F := Ideal) m ρ) c _ _ _ _ ha hh hs hb)

/-! ### Layer 4 -/

/-- The projection region leaves the product of the layer's input with its weights. -/
theorem proj4_value : bd m ρ c 11 (Proc.devRef .tc main_v71) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hin : bd m ρ c 10 (Proc.devRef .tc main_v70) = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := comb3_value m ρ c
  have hw : bd m ρ c 10 (Proc.devRef .tc main_arg8) = (m ((c : Thread nD τ).loc main_arg8)) := arg_kept m ρ c 10 (by omega) main_arg8 (by decide)
  rw [Cert.ReferenceIdeal.LayerValue.dot4_eq]
  exact (W11_arr (F := Ideal) m ρ c 2).trans (proj4_array_of (V10 (F := Ideal) m ρ) c _ _ hin hw)

/-- The aggregation stretch leaves the aggregated messages of that projection. -/
theorem agg4_value : bd m ρ c 12 (Proc.devRef .tc main_v83) = Cert.ReferenceIdeal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : bd m ρ c 11 (Proc.devRef .tc main_v1) = Cert.ReferenceIdeal.Read.val_main_v1 (F := Ideal) (m ((c : Thread nD τ).loc main_arg1)) :=
    (kept m ρ c 1 10 (by omega) main_v1 (by decide)).trans (src_value m ρ c)
  have h3 : bd m ρ c 11 (Proc.devRef .tc main_v3) = Cert.ReferenceIdeal.Read.val_main_v3 (F := Ideal) (m ((c : Thread nD τ).loc main_arg1)) :=
    (kept m ρ c 1 10 (by omega) main_v3 (by decide)).trans (dst_value m ρ c)
  have h26 : bd m ρ c 11 (Proc.devRef .tc main_v26) = Cert.ReferenceIdeal.Read.val_main_v34 (F := Ideal) (m ((c : Thread nD τ).loc main_arg1)) :=
    (kept m ρ c 1 10 (by omega) main_v26 (by decide)).trans (edge_value m ρ c)
  have hh : bd m ρ c 11 (Proc.devRef .tc main_v71) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := proj4_value m ρ c
  rw [Cert.ReferenceIdeal.LayerValue.agg4_eq]
  exact stretch4_agg_of (W11 (F := Ideal) m ρ c) _ _ _ _ h1 h3 h26 hh

/-- The combination region leaves the layer's output. -/
theorem comb4_value : bd m ρ c 13 (Proc.devRef .tc main_v84) = Cert.ReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have ha : bd m ρ c 12 (Proc.devRef .tc main_v83) = Cert.ReferenceIdeal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := agg4_value m ρ c
  have hh : bd m ρ c 12 (Proc.devRef .tc main_v71) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (kept m ρ c 11 1 (by omega) main_v71 (by decide)).trans (proj4_value m ρ c)
  have hs : bd m ρ c 12 (Proc.devRef .tc main_v28) = Cert.ReferenceIdeal.Read.val_main_v41 (F := Ideal) (m ((c : Thread nD τ).loc main_arg1)) :=
    (kept m ρ c 1 11 (by omega) main_v28 (by decide)).trans (self_value m ρ c)
  have hb : bd m ρ c 12 (Proc.devRef .tc main_arg9) = (m ((c : Thread nD τ).loc main_arg9)) := arg_kept m ρ c 12 (by omega) main_arg9 (by decide)
  rw [Cert.ReferenceIdeal.LayerValue.out4_eq]
  exact (W13_arr (F := Ideal) m ρ c 4).trans (comb4_array_of (V12 (F := Ideal) m ρ) c _ _ _ _ ha hh hs hb)

/-! ### Layer 5 -/

/-- The projection region leaves the product of the layer's input with its weights. -/
theorem proj5_value : bd m ρ c 14 (Proc.devRef .tc main_v85) = Cert.ReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hin : bd m ρ c 13 (Proc.devRef .tc main_v84) = Cert.ReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := comb4_value m ρ c
  have hw : bd m ρ c 13 (Proc.devRef .tc main_arg10) = (m ((c : Thread nD τ).loc main_arg10)) := arg_kept m ρ c 13 (by omega) main_arg10 (by decide)
  rw [Cert.ReferenceIdeal.LayerValue.dot5_eq]
  exact (W14_arr (F := Ideal) m ρ c 2).trans (proj5_array_of (V13 (F := Ideal) m ρ) c _ _ hin hw)

/-- The aggregation stretch leaves the aggregated messages of that projection. -/
theorem agg5_value : bd m ρ c 15 (Proc.devRef .tc main_v97) = Cert.ReferenceIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h1 : bd m ρ c 14 (Proc.devRef .tc main_v1) = Cert.ReferenceIdeal.Read.val_main_v1 (F := Ideal) (m ((c : Thread nD τ).loc main_arg1)) :=
    (kept m ρ c 1 13 (by omega) main_v1 (by decide)).trans (src_value m ρ c)
  have h3 : bd m ρ c 14 (Proc.devRef .tc main_v3) = Cert.ReferenceIdeal.Read.val_main_v3 (F := Ideal) (m ((c : Thread nD τ).loc main_arg1)) :=
    (kept m ρ c 1 13 (by omega) main_v3 (by decide)).trans (dst_value m ρ c)
  have h26 : bd m ρ c 14 (Proc.devRef .tc main_v26) = Cert.ReferenceIdeal.Read.val_main_v34 (F := Ideal) (m ((c : Thread nD τ).loc main_arg1)) :=
    (kept m ρ c 1 13 (by omega) main_v26 (by decide)).trans (edge_value m ρ c)
  have hh : bd m ρ c 14 (Proc.devRef .tc main_v85) = Cert.ReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := proj5_value m ρ c
  rw [Cert.ReferenceIdeal.LayerValue.agg5_eq]
  exact stretch5_agg_of (W14 (F := Ideal) m ρ c) _ _ _ _ h1 h3 h26 hh

/-- The combination region leaves the layer's output. -/
theorem comb5_value : bd m ρ c 16 (Proc.devRef .tc main_v98) = Cert.ReferenceIdeal.Read.val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have ha : bd m ρ c 15 (Proc.devRef .tc main_v97) = Cert.ReferenceIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := agg5_value m ρ c
  have hh : bd m ρ c 15 (Proc.devRef .tc main_v85) = Cert.ReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
    (kept m ρ c 14 1 (by omega) main_v85 (by decide)).trans (proj5_value m ρ c)
  have hs : bd m ρ c 15 (Proc.devRef .tc main_v28) = Cert.ReferenceIdeal.Read.val_main_v41 (F := Ideal) (m ((c : Thread nD τ).loc main_arg1)) :=
    (kept m ρ c 1 14 (by omega) main_v28 (by decide)).trans (self_value m ρ c)
  have hb : bd m ρ c 15 (Proc.devRef .tc main_arg11) = (m ((c : Thread nD τ).loc main_arg11)) := arg_kept m ρ c 15 (by omega) main_arg11 (by decide)
  rw [Cert.ReferenceIdeal.LayerValue.out5_eq]
  exact (W16_arr (F := Ideal) m ρ c 4).trans (comb5_array_of (V15 (F := Ideal) m ρ) c _ _ _ _ ha hh hs hb)

/-- THE RESULT: at the last boundary the result buffer holds the reference's result term of the launch arguments. -/
theorem result_value : W16 (F := Ideal) m ρ c (Proc.devRef .tc main_v98) = Cert.ReferenceIdeal.Read.val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  comb5_value m ρ c

end Cert.KernelIdeal.LayerValue

end
-- ==== Proof.KernelRun.lean ====
/-
  The kernel program's run, with its result kept.

  Every weakly fair execution of the program terminates without a fault; at the end each buffer that is not scoped to
  a kernel holds the contents at the last of the seventeen segment boundaries. Read at the twelve argument buffers this
  is the frame (the arguments end as launched); read at the result buffer it names the result: the contents of
  `main_v98` at the last boundary.
-/
import proofs.«169812_j1915555414559_1_alg».proof.Proof.Gen.KernelIdeal.Frame

set_option maxRecDepth 16384

noncomputable section

namespace Cert.KernelIdeal.LayerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v98) = W16 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v98 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.LayerValue

end
-- ==== Proof.lean ====
/-
  A five-layer graph convolution on 100000 nodes and 1600000 edges: the kernel program against its reference, over the
  extended reals.

  Both programs compute, from the edge list, the in-degree plus one of every node, its reciprocal square root `dinv`,
  the edge coefficients `dinv[src] · dinv[dst]` and the self-loop coefficients `dinv · dinv`; then, five times, with
  `h = x · W` the projected features: the aggregated messages `agg = Σ_{edges into p} coefficient · h[src]`, and the
  layer's output `(agg + h · selfcoefficient) + b`, clamped below at zero in the four hidden layers. The reference does
  this with whole-array operations. The kernel program does the projection and the combination in twenty blocks of 5000
  rows each (the projection on the matrix unit, with both factors narrowed to bf16 first — the identity in exact
  arithmetic), and everything else with the same whole-array operations as the reference.

  Why the two agree exactly: a row of a matrix product, and a row of the combination, depends only on the same row of the
  row-blocked operands, so the blocks of the kernel's outputs are the blocks of the whole-array functions, and the
  twenty blocks tile the rows (`Projection1 … 5`, `Combine1 … 5`); the host operations between the regions are the
  reference's own (`HostStretches`); and a buffer written once is still there when a later segment reads it
  (`Boundaries`). `Chain` composes these from the launch memory to the result. No algebraic law is used beyond the
  extended reals' own addition, multiplication and maximum, so no entry needs to be finite and the precondition is
  never opened. The ideal pass rewrote nothing, so the kernel's idealization is its own text read at exact arithmetic.
-/
import proofs.«169812_j1915555414559_1_alg».proof.Defs
import proofs.«169812_j1915555414559_1_alg».proof.Proof.Gen.Kernel
import proofs.«169812_j1915555414559_1_alg».proof.Proof.Gen.Kernel.Frame
import proofs.«169812_j1915555414559_1_alg».proof.Proof.Gen.KernelIdeal
import proofs.«169812_j1915555414559_1_alg».proof.Proof.Gen.KernelIdeal.Frame
import proofs.«169812_j1915555414559_1_alg».proof.Proof.Gen.ReferenceIdeal
import proofs.«169812_j1915555414559_1_alg».proof.Proof.Gen.Pre_finite_inputs
import proofs.«169812_j1915555414559_1_alg».proof.Proof.Gen.ReferenceIdeal.Read
import proofs.«169812_j1915555414559_1_alg».proof.Proof.Chain
import proofs.«169812_j1915555414559_1_alg».proof.Proof.KernelRun
import Idealize.ShloMosaic.Adequacy
import Idealize.ShloMosaic.Init

set_option maxRecDepth 16384

noncomputable section

namespace Cert.Proof

open Idealize.ShloMosaic Idealize.SL.Sem

/-- The word-level kernel program runs, and its arguments end as launched. -/
theorem frame_kernel : @Cert.frame_Kernel Cert.Kernel.Gen.facts Cert.Pre_finite_inputs.Gen.facts :=
  fun m ρ _ => Cert.Kernel.Gen.frame m ρ

/-- So does the kernel program read at exact arithmetic. -/
theorem frame_kernelIdeal : @Cert.frame_KernelIdeal Cert.KernelIdeal.Gen.facts Cert.Pre_finite_inputs.Gen.facts :=
  fun m ρ _ => Cert.KernelIdeal.Gen.frame m ρ

/-- The reference has no kernel: its run is its host operations one after the other, and no operation writes an argument. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Run from memories that agree on the twelve arguments, both programs end with the reference's result term of those
    arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v199 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run (Cert.KernelIdeal.defs (F := Ideal)) _ _).mono
      (fun r h c => ⟨(h c).1.trans (Cert.KernelIdeal.LayerValue.result_value m ρ c), (h c).2⟩)
      (Cert.KernelIdeal.LayerValue.run_result (F := Ideal) m ρ)
  · refine (θ_run (Cert.ReferenceIdeal.defs (F := Ideal)) _ _).mono (fun r h c => ⟨?_, (h c).2⟩)
      (Cert.ReferenceIdeal.Value.run (F := Ideal) m' ρ')
    obtain ⟨e0, e1, e2, e3, e4, e5, e6, e7, e8, e9, e10, e11⟩ := hagree c
    rw [(h c).1, Cert.ReferenceIdeal.Read.val_main_v199_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
